-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.sign_bit.Statement Cert.KernelIdeal.S2048x512 .f32
  ∧ IdealRules.sign_bit.Statement Cert.KernelIdeal.S2048x32 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x784 : Shape := ⟨2, ![65536, 784]⟩
abbrev S512x784 : Shape := ⟨2, ![512, 784]⟩
abbrev S512 : Shape := ⟨1, ![512]⟩
abbrev S32x512 : Shape := ⟨2, ![32, 512]⟩
abbrev S32 : Shape := ⟨1, ![32]⟩
abbrev S10x32 : Shape := ⟨2, ![10, 32]⟩
abbrev S10 : Shape := ⟨1, ![10]⟩
abbrev S_ : Shape := ⟨0, ![]⟩

class Facts : Prop where
  bcast_S_S65536x784 : S_.BroadcastsInDim S65536x784 (![] : Fin 0 → Fin S65536x784.rank)
  reducesTo_S65536x784_S_d0_1 : S65536x784.ReducesTo [0, 1] S_
  h_S_ : 0 < S_.numel
  bcast_S_S512x784 : S_.BroadcastsInDim S512x784 (![] : Fin 0 → Fin S512x784.rank)
  reducesTo_S512x784_S_d0_1 : S512x784.ReducesTo [0, 1] S_
  bcast_S_S512 : S_.BroadcastsInDim S512 (![] : Fin 0 → Fin S512.rank)
  reducesTo_S512_S_d0 : S512.ReducesTo [0] S_
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S10x32 : S_.BroadcastsInDim S10x32 (![] : Fin 0 → Fin S10x32.rank)
  reducesTo_S10x32_S_d0_1 : S10x32.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg7 : FVec F S32 .f32) (main_arg8 : FVec F S32 .f32) (main_arg9 : FVec F S10x32 .f32) (main_arg10 : FVec F S10 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S10x32 .f32 := Host.absf main_arg9
  let main_cst_16 : FVec F S_ .f32 := constant S_ .f32 0x7F800000#32
  let main_v45 : FVec F S10x32 .f32 := broadcastInDim S10x32 ![] bcast_S_S10x32 main_cst_16
  let main_v46 : IVec S10x32 1 := cmpf .olt main_v44 main_v45
  let main_c_17 : IVec S_ 1 := constantI S_ 1 1#1
  let main_v47 : IVec S_ 1 := (fun x v => Host.reduce IntOp.andi x v reducesTo_S10x32_S_d0_1 h_S_) main_v46 main_c_17
  let main_v48 : IVec S_ 1 := andi main_v43 main_v47
  let main_v49 : FVec F S10 .f32 := Host.absf main_arg10
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg4 : FVec F S512 .f32) (main_arg5 : FVec F S32x512 .f32) (main_arg6 : FVec F S32 .f32) (main_arg7 : FVec F S32 .f32) (main_arg8 : FVec F S32 .f32) (main_arg9 : FVec F S10x32 .f32) (main_arg10 : FVec F S10 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S32x512 .f32 := Host.absf main_arg5
  let main_cst_8 : FVec F S_ .f32 := constant S_ .f32 0x7F800000#32
  let main_v25 : FVec F S32x512 .f32 := broadcastInDim S32x512 ![] bcast_S_S32x512 main_cst_8
  let main_v26 : IVec S32x512 1 := cmpf .olt main_v24 main_v25
  let main_c_9 : IVec S_ 1 := constantI S_ 1 1#1
  let main_v27 : IVec S_ 1 := (fun x v => Host.reduce IntOp.andi x v reducesTo_S32x512_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S65536x784 .f32) (main_arg1 : FVec F S512x784 .f32) (main_arg2 : FVec F S512 .f32) (main_arg3 : FVec F S512 .f32) (main_arg4 : FVec F S512 .f32) (main_arg5 : FVec F S32x512 .f32) (main_arg6 : FVec F S32 .f32) (main_arg7 : FVec F S32 .f32) (main_arg8 : FVec F S32 .f32) (main_arg9 : FVec F S10x32 .f32) (main_arg10 : FVec F S10 .f32) : IVec S_ 1 :=
  let main_v0 : FVec F S65536x784 .f32 := Host.absf main_arg0
  let main_cst : FVec F S_ .f32 := constant S_ .f32 0x7F800000#32
  let main_v1 : FVec F S65536x784 .f32 := broadcastInDim S65536x784 ![] bcast_S_S65536x784 main_cst
  let main_v2 : IVec S65536x784 1 := cmpf .olt main_v0 main_v1
  let main_c : IVec S_ 1 := constantI S_ 1 1#1
  let main_v3 : IVec S_ 1 := (fun x v => Host.reduce IntOp.andi x v reducesTo_S65536x784_S_d0_1 h_S_) main_v2 main_c
  let main_v4 : FVec F S512x784 .f32 := Host.absf main_arg1
  let main_cst_0 : FVec F S_ .f32 := constant S_ .f32 0x7F800000#32
  let main_v5 : FVec F S512x784 .f32 := broadcastInDim S512x784 ![] bcast_S_S512x784 main_cst_0
  let main_v6 : IVec S512x784 1 := cmpf .olt main_v4 main_v5
  let main_c_1 : IVec S_ 1 := constantI S_ 1 1#1
  let main_v7 : IVec S_ 1 := (fun x v => Host.reduce IntOp.andi x v reducesTo_S512x784_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_v13 main_v16
-- ==== Kernel.lean ====
abbrev S65536x784 : Shape := ⟨2, ![65536, 784]⟩
abbrev S512x784 : Shape := ⟨2, ![512, 784]⟩
abbrev S512 : Shape := ⟨1, ![512]⟩
abbrev S32x512 : Shape := ⟨2, ![32, 512]⟩
abbrev S32 : Shape := ⟨1, ![32]⟩
abbrev S10x32 : Shape := ⟨2, ![10, 32]⟩
abbrev S10 : Shape := ⟨1, ![10]⟩
abbrev S65536x512 : Shape := ⟨2, ![65536, 512]⟩
abbrev S2x1x512 : Shape := ⟨3, ![2, 1, 512]⟩
abbrev S1024x784 : Shape := ⟨2, ![1024, 784]⟩
abbrev S1024x512 : Shape := ⟨2, ![1024, 512]⟩
abbrev S1x1x512 : Shape := ⟨3, ![1, 1, 512]⟩
abbrev S1x512 : Shape := ⟨2, ![1, 512]⟩
abbrev S784x512 : Shape := ⟨2, ![784, 512]⟩
abbrev S_ : Shape := ⟨0, ![]⟩
abbrev S65536x32 : Shape := ⟨2, ![65536, 32]⟩
abbrev S2x1x32 : Shape := ⟨3, ![2, 1, 32]⟩
abbrev S2048x512 : Shape := ⟨2, ![2048, 512]⟩
abbrev S2048x32 : Shape := ⟨2, ![2048, 32]⟩
abbrev S1x1x32 : Shape := ⟨3, ![1, 1, 32]⟩
abbrev S1x32 : Shape := ⟨2, ![1, 32]⟩
abbrev S512x32 : Shape := ⟨2, ![512, 32]⟩
abbrev S65536x10 : Shape := ⟨2, ![65536, 10]⟩
abbrev S2048x10 : Shape := ⟨2, ![2048, 10]⟩
abbrev S32x10 : Shape := ⟨2, ![32, 10]⟩
abbrev S1x10 : Shape := ⟨2, ![1, 10]⟩

abbrev nBuf : Space → Nat
  | .hbm => 71
  | .vmem => 30
  | .smem => 0
  | _ => 0

abbrev bufTy : (tb : Table) → Fin (tcTables nBuf tb) → BufTy
  | .hbm, ⟨0, _⟩ => ⟨S65536x784, .f32⟩
  | .hbm, ⟨1, _⟩ => ⟨S512x784, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S32x512, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S10x32, .f32⟩
  | .hbm, ⟨10, _⟩ => ⟨S10, .f32⟩
  | .hbm, ⟨11, _⟩ => ⟨S512x784, .f32⟩
  | .hbm, ⟨12, _⟩ => ⟨S32x512, .f32⟩
  | .hbm, ⟨13, _⟩ => ⟨S32x512, .bf16⟩
  | .hbm, ⟨14, _⟩ => ⟨S10x32, .f32⟩
  | .hbm, ⟨15, _⟩ => ⟨S10x32, .bf16⟩
  | .hbm, ⟨16, _⟩ => ⟨S65536x512, .f32⟩
  | .hbm, ⟨17, _⟩ => ⟨S2x1x512, .f32⟩
  | .hbm, ⟨18, _⟩ => ⟨S2x1x512, .f32⟩
  | .hbm, ⟨19, _⟩ => ⟨S_, .f32⟩
  | .hbm, ⟨20, _⟩ => ⟨S1x512, .f32⟩
  | .hbm, ⟨21, _⟩ => ⟨S512, .f32⟩
  | .hbm, ⟨22, _⟩ => ⟨S_, .f32⟩
  | .hbm, ⟨23, _⟩ => ⟨S1x512, .f32⟩
  | .hbm, ⟨24, _⟩ => ⟨S512, .f32⟩
  | .hbm, ⟨25, _⟩ => ⟨S_, .f32⟩
  | .hbm, ⟨26, _⟩ => ⟨S512, .f32⟩
  | .hbm, ⟨27, _⟩ => ⟨S512, .f32⟩
  | .hbm, ⟨28, _⟩ => ⟨S_, .f32⟩
  | .hbm, ⟨29, _⟩ => ⟨S512, .f32⟩
  | .hbm, ⟨30, _⟩ => ⟨S512, .f32⟩
  | .hbm, ⟨31, _⟩ => ⟨S512, .f32⟩
  | .hbm, ⟨32, _⟩ => ⟨S512, .f32⟩
  | .hbm, ⟨33, _⟩ => ⟨S_, .f32⟩
  | .hbm, ⟨34, _⟩ => ⟨S512, .f32⟩
  | .hbm, ⟨35, _⟩ => ⟨S512, .f32⟩
  | .hbm, ⟨36, _⟩ => ⟨S_, .f32⟩
  | .hbm, ⟨37, _⟩ => ⟨S512, .f32⟩
  | .hbm, ⟨38, _⟩ => ⟨S512, .f32⟩
  | .hbm, ⟨39, _⟩ => ⟨S512, .f32⟩
  | .hbm, ⟨40, _⟩ => ⟨S512, .f32⟩
  | .hbm, ⟨41, _⟩ => ⟨S512, .f32⟩
  | .hbm, ⟨42, _⟩ => ⟨S512, .f32⟩
  | .hbm, ⟨43, _⟩ => ⟨S65536x32, .bf16⟩
  | .hbm, ⟨44, _⟩ => ⟨S2x1x32, .f32⟩
  | .hbm, ⟨45, _⟩ => ⟨S2x1x32, .f32⟩
  | .hbm, ⟨46, _⟩ => ⟨S_, .f32⟩
  | .hbm, ⟨47, _⟩ => ⟨S1x32, .f32⟩
  | .hbm, ⟨48, _⟩ => ⟨S32, .f32⟩
  | .hbm, ⟨49, _⟩ => ⟨S_, .f32⟩
  | .hbm, ⟨50, _⟩ => ⟨S1x32, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S_, .f32⟩
  | .hbm, ⟨56, _⟩ => ⟨S32, .f32⟩
  | .hbm, ⟨57, _⟩ => ⟨S32, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S32, .f32⟩
  | .hbm, ⟨67, _⟩ => ⟨S32, .f32⟩
  | .hbm, ⟨68, _⟩ => ⟨S32, .f32⟩
  | .hbm, ⟨69, _⟩ => ⟨S32, .f32⟩
  | .hbm, ⟨70, _⟩ => ⟨S65536x10, .f32⟩
  | .local _ .vmem, ⟨0, _⟩ => ⟨S1024x784, .f32⟩
  | .local _ .vmem, ⟨1, _⟩ => ⟨S1024x784, .f32⟩
  | .local _ .vmem, ⟨2, _⟩ => ⟨S512x784, .f32⟩
  | .local _ .vmem, ⟨3, _⟩ => ⟨S512, .f32⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S2048x512, .f32⟩
  | .local _ .vmem, ⟨11, _⟩ => ⟨S2048x512, .f32⟩
  | .local _ .vmem, ⟨12, _⟩ => ⟨S512, .f32⟩
  | .local _ .vmem, ⟨13, _⟩ => ⟨S512, .f32⟩
  | .local _ .vmem, ⟨14, _⟩ => ⟨S32x512, .bf16⟩
  | .local _ .vmem, ⟨15, _⟩ => ⟨S32, .f32⟩
  | .local _ .vmem, ⟨16, _⟩ => ⟨S2048x32, .bf16⟩
  | .local _ .vmem, ⟨17, _⟩ => ⟨S2048x32, .bf16⟩
  | .local _ .vmem, ⟨18, _⟩ => ⟨S1x1x32, .f32⟩
  | .local _ .vmem, ⟨19, _⟩ => ⟨S1x1x32, .f32⟩
  | .local _ .vmem, ⟨20, _⟩ => ⟨S1x1x32, .f32⟩
  | .local _ .vmem, ⟨21, _⟩ => ⟨S1x1x32, .f32⟩
  | .local _ .vmem, ⟨22, _⟩ => ⟨S2048x32, .bf16⟩
  | .local _ .vmem, ⟨23, _⟩ => ⟨S2048x32, .bf16⟩
  | .local _ .vmem, ⟨24, _⟩ => ⟨S32, .f32⟩
  | .local _ .vmem, ⟨25, _⟩ => ⟨S32, .f32⟩
  | .local _ .vmem, ⟨26, _⟩ => ⟨S10x32, .bf16⟩
  | .local _ .vmem, ⟨27, _⟩ => ⟨S10, .f32⟩
  | .local _ .vmem, ⟨28, _⟩ => ⟨S2048x10, .f32⟩
  | .local _ .vmem, ⟨29, _⟩ => ⟨S2048x10, .f32⟩
  | _, _ => ⟨S65536x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24_0 : Ref sig .tc := ⟨.hbm, 43, rfl⟩
abbrev main_v24_1 : Ref sig .tc := ⟨.hbm, 44, rfl⟩
abbrev main_v24_2 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_cst_6 : Ref sig .tc := ⟨.hbm, 49, rfl⟩
abbrev main_v27 : Ref sig .tc := ⟨.hbm, 50, rfl⟩
abbrev main_v28 : Ref sig .tc := ⟨.hbm, 51, rfl⟩
abbrev main_cst_7 : Ref sig .tc := ⟨.hbm, 52, rfl⟩
abbrev main_v29 : Ref sig .tc := ⟨.hbm, 53, rfl⟩
abbrev main_v30 : Ref sig .tc := ⟨.hbm, 54, rfl⟩
abbrev main_cst_8 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_9 : Ref sig .tc := ⟨.hbm, 60, rfl⟩
abbrev main_v35 : Ref sig .tc := ⟨.hbm, 61, rfl⟩
abbrev main_v36 : Ref sig .tc := ⟨.hbm, 62, rfl⟩
abbrev main_cst_10 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29

abbrev nD : Nat := 1
abbrev τ : Topo := Topo.v7x

variable {F : FTy → Type} [BitOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x784 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S32x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S2048x32 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x1x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x32 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S10x32 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2048x10 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bitsLt_bf16_f32 : FTy.bits .bf16 < FTy.bits .f32
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  inb_S1024x784_S1024x784_0_0 : ∀ a, (![0, 0] : Fin 2 → Nat) a + S1024x784.size a ≤ S1024x784.size a
  h_S1024x784 : 0 < S1024x784.numel
  inb_S512x784_S512x784_0_0 : ∀ a, (![0, 0] : Fin 2 → Nat) a + S512x784.size a ≤ S512x784.size a
  h_S512x784 : 0 < S512x784.numel
  shapeCasts_S512x784_S512x784 : S512x784.ShapeCasts S512x784
  transposes_S512x784_p1_0_S784x512 : S512x784.Transposes [1, 0] S784x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  reduces_S1024x512_S512 : S1024x512.Reduces [0] S512
  inb_S1024x512_S1024x512_0_0 : ∀ a, (![0, 0] : Fin 2 → Nat) a + S1024x512.size a ≤ S1024x512.size a
  h_S1024x512 : 0 < S1024x512.numel
  reducesTo_S2x1x512_S1x512_d0 : S2x1x512.ReducesTo [0] S1x512
  h_S_ : 0 < S_.numel
  shapeCasts_S1x512_S512 : S1x512.ShapeCasts S512
  bcast_S_S512 : S_.BroadcastsInDim S512 (![] : Fin 0 → Fin S512.rank)
  inb_S1x1x32_S1x1x32_0_0_0 : ∀ a, (![0, 0, 0] : Fin 3 → Nat) a + S1x1x32.size a ≤ S1x1x32.size a
  h_S1x1x32 : 0 < S1x1x32.numel
  shapeCasts_S1x1x32_S1x32 : S1x1x32.ShapeCasts S1x32
  shapeCasts_S1x32_S1x1x32 : S1x32.ShapeCasts S1x1x32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S512_S512 : S512.ShapeCasts S512
  broadcasts_S1x512_S2048x512 : S1x512.Broadcasts S2048x512
  inb_S32x512_S32x512_0_0 : ∀ a, (![0, 0] : Fin 2 → Nat) a + S32x512.size a ≤ S32x512.size a
  h_S32x512 : 0 < S32x512.numel
  shapeCasts_S32x512_S32x512 : S32x512.ShapeCasts S32x512
  transposes_S32x512_p1_0_S512x32 : S32x512.Transposes [1, 0] S512x32
  inb_S32_S32_0 : ∀ a, (![0] : Fin 1 → Nat) a + S32.size a ≤ S32.size a
  h_S32 : 0 < S32.numel
  shapeCasts_S32_S1x32 : S32.ShapeCasts S1x32
  broadcasts_S1x32_S2048x32 : S1x32.Broadcasts S2048x32
  reduces_S2048x32_S32 : S2048x32.Reduces [0] S32
  inb_S2048x32_S2048x32_0_0 : ∀ a, (![0, 0] : Fin 2 → Nat) a + S2048x32.size a ≤ S2048x32.size a
  h_S2048x32 : 0 < S2048x32.numel
  packedbf16_S2048x32_S2048x32_0_0 : (Rect.unit (s := S2048x32) ![0, 0] S2048x32.size inb_S2048x32_S2048x32_0_0).PackedRows (EltTy.packing .bf16)
  reducesTo_S2x1x32_S1x32_d0 : S2x1x32.ReducesTo [0] S1x32
  shapeCasts_S1x32_S32 : S1x32.ShapeCasts S32
  bcast_S_S32 : S_.BroadcastsInDim S32 (![] : Fin 0 → Fin S32.rank)
  shapeCasts_S2048x32_S2048x32 : S2048x32.ShapeCasts S2048x32
  shapeCasts_S32_S32 : S32.ShapeCasts S32
  inb_S10x32_S10x32_0_0 : ∀ a, (![0, 0] : Fin 2 → Nat) a + S10x32.size a ≤ S10x32.size a
  h_S10x32 : 0 < S10x32.numel
  shapeCasts_S10x32_S10x32 : S10x32.ShapeCasts S10x32
  transposes_S10x32_p1_0_S32x10 : S10x32.Transposes [1, 0] S32x10
  inb_S10_S10_0 : ∀ a, (![0] : Fin 1 → Nat) a + S10.size a ≤ S10.size a
  h_S10 : 0 < S10.numel
  shapeCasts_S10_S1x10 : S10.ShapeCasts S1x10
  broadcasts_S1x10_S2048x10 : S1x10.Broadcasts S2048x10
  inb_S2048x10_S2048x10_0_0 : ∀ a, (![0, 0] : Fin 2 → Nat) a + S2048x10.size a ≤ S2048x10.size a
  h_S2048x10 : 0 < S2048x10.numel
  dot_S1024x784_S784x512_S1024x512_1_0_0_1_n_n_wf : DotDims.WF S1024x784 S784x512 S1024x512 [1] [0] [0] [1] [] []
  dot_S2048x512_S512x32_S2048x32_1_0_0_1_n_n_wf : DotDims.WF S2048x512 S512x32 S2048x32 [1] [0] [0] [1] [] []
  dot_S2048x32_S32x10_S2048x10_1_0_0_1_n_n_wf : DotDims.WF S2048x32 S32x10 S2048x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S65536x784.size a
  hwx0_0 : ∀ i : grid0.Coords, EltTy.bits .f32 = 32 ∨ (Rect.block (s := S65536x784) S1024x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x784.size a ≤ S512x784.size a
  hwx0_1 : ∀ i : grid0.Coords, EltTy.bits .f32 = 32 ∨ (Rect.block (s := S512x784) S512x784.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S65536x512.size a
  hwx0_3 : ∀ i : grid0.Coords, EltTy.bits .f32 = 32 ∨ (Rect.block (s := S65536x512) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S2x1x512.size a
  hwx0_4 : ∀ i : grid0.Coords, EltTy.bits .f32 = 32 ∨ (Rect.block (s := S2x1x512) S1x1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512.size a ≤ S2x1x512.size a
  hwx0_5 : ∀ i : grid0.Coords, EltTy.bits .f32 = 32 ∨ (Rect.block (s := S2x1x512) S1x1x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S65536x512.size a
  hwx1_0 : ∀ i : grid1.Coords, EltTy.bits .f32 = 32 ∨ (Rect.block (s := S65536x512) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512.size a ≤ S512.size a
  hwx1_1 : ∀ i : grid1.Coords, EltTy.bits .f32 = 32 ∨ (Rect.block (s := S512) S512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x512.size a ≤ S32x512.size a
  hwx1_3 : ∀ i : grid1.Coords, EltTy.bits .bf16 = 32 ∨ (Rect.block (s := S32x512) S32x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32.size a ≤ S32.size a
  hwx1_4 : ∀ i : grid1.Coords, EltTy.bits .f32 = 32 ∨ (Rect.block (s := S32) S32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x32.size a ≤ S65536x32.size a
  hwx1_5 : ∀ i : grid1.Coords, EltTy.bits .bf16 = 32 ∨ (Rect.block (s := S65536x32) S2048x32.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x32.size a ≤ S2x1x32.size a
  hwx1_6 : ∀ i : grid1.Coords, EltTy.bits .f32 = 32 ∨ (Rect.block (s := S2x1x32) S1x1x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x32.size a ≤ S2x1x32.size a
  hwx1_7 : ∀ i : grid1.Coords, EltTy.bits .f32 = 32 ∨ (Rect.block (s := S2x1x32) S1x1x32.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x32.size a ≤ S65536x32.size a
  hwx2_0 : ∀ i : grid2.Coords, EltTy.bits .bf16 = 32 ∨ (Rect.block (s := S65536x32) S2048x32.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32.size a ≤ S32.size a
  hwx2_1 : ∀ i : grid2.Coords, EltTy.bits .f32 = 32 ∨ (Rect.block (s := S32) S32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32.size a ≤ S32.size a
  hwx2_2 : ∀ i : grid2.Coords, EltTy.bits .f32 = 32 ∨ (Rect.block (s := S32) S32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S10x32.size a ≤ S10x32.size a
  hwx2_3 : ∀ i : grid2.Coords, EltTy.bits .bf16 = 32 ∨ (Rect.block (s := S10x32) S10x32.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S10.size a ≤ S10.size a
  hwx2_4 : ∀ i : grid2.Coords, EltTy.bits .f32 = 32 ∨ (Rect.block (s := S10) S10.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x10.size a ≤ S65536x10.size a
  hwx2_5 : ∀ i : grid2.Coords, EltTy.bits .f32 = 32 ∨ (Rect.block (s := S65536x10) S2048x10.size (cc2_transform_5 i) (hinb2_5 i)).WholeWords (EltTy.packing .f32)

variable [Facts₀]

def dot_S1024x784_S784x512_S1024x512_1_0_0_1_n_n : DotDims S1024x784 S784x512 S1024x512 where
  lhsContracting := [1]
  rhsContracting := [0]
  lhsNonContracting := [0]
  rhsNonContracting := [1]
  lhsBatch := []
  rhsBatch := []
  wf := dot_S1024x784_S784x512_S1024x512_1_0_0_1_n_n_wf
def dot_S2048x512_S512x32_S2048x32_1_0_0_1_n_n : DotDims S2048x512 S512x32 S2048x32 where
  lhsContracting := [1]
  rhsContracting := [0]
  lhsNonContracting := [0]
  rhsNonContracting := [1]
  lhsBatch := []
  rhsBatch := []
  wf := dot_S2048x512_S512x32_S2048x32_1_0_0_1_n_n_wf
def dot_S2048x32_S32x10_S2048x10_1_0_0_1_n_n : DotDims S2048x32 S32x10 S2048x10 where
  lhsContracting := [1]
  rhsContracting := [0]
  lhsNonContracting := [0]
  rhsNonContracting := [1]
  lhsBatch := []
  rhsBatch := []
  wf := dot_S2048x32_S32x10_S2048x10_1_0_0_1_n_n_wf

abbrev win0_0 : Pipeline.Window sig grid0 :=
  Pipeline.Window.ofSpec (Memref.whole main_arg0) S1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x784.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S1024x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1x1x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_2) S1x1x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v5_0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S32x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24_0) S2048x32.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v24_1) S1x1x32.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v24_2) S1x1x32.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v24_0) S2048x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S10x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S10.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S2048x10.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S65536x784 : Shape := ⟨2, ![65536, 784]⟩
abbrev S512x784 : Shape := ⟨2, ![512, 784]⟩
abbrev S512 : Shape := ⟨1, ![512]⟩
abbrev S32x512 : Shape := ⟨2, ![32, 512]⟩
abbrev S32 : Shape := ⟨1, ![32]⟩
abbrev S10x32 : Shape := ⟨2, ![10, 32]⟩
abbrev S10 : Shape := ⟨1, ![10]⟩
abbrev S784x512 : Shape := ⟨2, ![784, 512]⟩
abbrev S65536x512 : Shape := ⟨2, ![65536, 512]⟩
abbrev S1x512 : Shape := ⟨2, ![1, 512]⟩
abbrev S_ : Shape := ⟨0, ![]⟩
abbrev S512x32 : Shape := ⟨2, ![512, 32]⟩
abbrev S65536x32 : Shape := ⟨2, ![65536, 32]⟩
abbrev S1x32 : Shape := ⟨2, ![1, 32]⟩
abbrev S32x10 : Shape := ⟨2, ![32, 10]⟩
abbrev S65536x10 : Shape := ⟨2, ![65536, 10]⟩
abbrev S1x10 : Shape := ⟨2, ![1, 10]⟩

abbrev nBuf : Space → Nat
  | .hbm => 145
  | .vmem => 0
  | .smem => 0
  | _ => 0

abbrev hbmTy0_0 (i : Nat) : BufTy := match i % 128 with
  | 0 => ⟨S65536x784, .f32⟩
  | 1 => ⟨S512x784, .f32⟩
  | 2 => ⟨S512, .f32⟩
  | 3 => ⟨S512, .f32⟩
  | 4 => ⟨S512, .f32⟩
  | 5 => ⟨S32x512, .f32⟩
  | 6 => ⟨S32, .f32⟩
  | 7 => ⟨S32, .f32⟩
  | 8 => ⟨S32, .f32⟩
  | 9 => ⟨S10x32, .f32⟩
  | 10 => ⟨S10, .f32⟩
  | 11 => ⟨S512x784, .f32⟩
  | 12 => ⟨S512x784, .f32⟩
  | 13 => ⟨S512x784, .f32⟩
  | 14 => ⟨S784x512, .f32⟩
  | 15 => ⟨S65536x512, .f32⟩
  | 16 => ⟨S1x512, .f32⟩
  | 17 => ⟨S65536x512, .f32⟩
  | 18 => ⟨S65536x512, .f32⟩
  | 19 => ⟨S_, .f32⟩
  | 20 => ⟨S512, .f32⟩
  | 21 => ⟨S_, .f32⟩
  | 22 => ⟨S512, .f32⟩
  | 23 => ⟨S512, .f32⟩
  | 24 => ⟨S_, .i32⟩
  | 25 => ⟨S_, .f32⟩
  | 26 => ⟨S512, .f32⟩
  | 27 => ⟨S1x512, .f32⟩
  | 28 => ⟨S_, .f32⟩
  | 29 => ⟨S1x512, .f32⟩
  | 30 => ⟨S1x512, .f32⟩
  | 31 => ⟨S65536x512, .f32⟩
  | 32 => ⟨S65536x512, .f32⟩
  | 33 => ⟨S65536x512, .f32⟩
  | 34 => ⟨S_, .f32⟩
  | 35 => ⟨S_, .f32⟩
  | 36 => ⟨S_, .f32⟩
  | 37 => ⟨S_, .f32⟩
  | 38 => ⟨S512, .f32⟩
  | 39 => ⟨S512, .f32⟩
  | 40 => ⟨S512, .f32⟩
  | 41 => ⟨S_, .f32⟩
  | 42 => ⟨S_, .i1⟩
  | 43 => ⟨S_, .f32⟩
  | 44 => ⟨S_, .f32⟩
  | 45 => ⟨S512, .f32⟩
  | 46 => ⟨S512, .f32⟩
  | 47 => ⟨S1x512, .f32⟩
  | 48 => ⟨S65536x512, .f32⟩
  | 49 => ⟨S65536x512, .f32⟩
  | 50 => ⟨S_, .f32⟩
  | 51 => ⟨S512, .f32⟩
  | 52 => ⟨S512, .f32⟩
  | 53 => ⟨S512, .f32⟩
  | 54 => ⟨S1x512, .f32⟩
  | 55 => ⟨S65536x512, .f32⟩
  | 56 => ⟨S65536x512, .f32⟩
  | 57 => ⟨S1x512, .f32⟩
  | 58 => ⟨S65536x512, .f32⟩
  | 59 => ⟨S65536x512, .f32⟩
  | 60 => ⟨S1x512, .f32⟩
  | 61 => ⟨S65536x512, .f32⟩
  | 62 => ⟨S65536x512, .f32⟩
  | 63 => ⟨S_, .f32⟩
  | 64 => ⟨S_, .f32⟩
  | 65 => ⟨S_, .f32⟩
  | 66 => ⟨S65536x512, .f32⟩
  | 67 => ⟨S65536x512, .f32⟩
  | 68 => ⟨S_, .f32⟩
  | 69 => ⟨S65536x512, .f32⟩
  | 70 => ⟨S65536x512, .f32⟩
  | 71 => ⟨S65536x512, .f32⟩
  | 72 => ⟨S65536x512, .f32⟩
  | 73 => ⟨S65536x512, .f32⟩
  | 74 => ⟨S32x512, .f32⟩
  | 75 => ⟨S32x512, .f32⟩
  | 76 => ⟨S32x512, .f32⟩
  | 77 => ⟨S512x32, .f32⟩
  | 78 => ⟨S65536x32, .f32⟩
  | 79 => ⟨S1x32, .f32⟩
  | 80 => ⟨S65536x32, .f32⟩
  | 81 => ⟨S65536x32, .f32⟩
  | 82 => ⟨S_, .f32⟩
  | 83 => ⟨S32, .f32⟩
  | 84 => ⟨S_, .f32⟩
  | 85 => ⟨S32, .f32⟩
  | 86 => ⟨S32, .f32⟩
  | 87 => ⟨S_, .i32⟩
  | 88 => ⟨S_, .f32⟩
  | 89 => ⟨S32, .f32⟩
  | 90 => ⟨S1x32, .f32⟩
  | 91 => ⟨S_, .f32⟩
  | 92 => ⟨S1x32, .f32⟩
  | 93 => ⟨S1x32, .f32⟩
  | 94 => ⟨S65536x32, .f32⟩
  | 95 => ⟨S65536x32, .f32⟩
  | 96 => ⟨S65536x32, .f32⟩
  | 97 => ⟨S_, .f32⟩
  | 98 => ⟨S_, .f32⟩
  | 99 => ⟨S_, .f32⟩
  | 100 => ⟨S_, .f32⟩
  | 101 => ⟨S32, .f32⟩
  | 102 => ⟨S32, .f32⟩
  | 103 => ⟨S32, .f32⟩
  | 104 => ⟨S_, .f32⟩
  | 105 => ⟨S_, .i1⟩
  | 106 => ⟨S_, .f32⟩
  | 107 => ⟨S_, .f32⟩
  | 108 => ⟨S32, .f32⟩
  | 109 => ⟨S32, .f32⟩
  | 110 => ⟨S1x32, .f32⟩
  | 111 => ⟨S65536x32, .f32⟩
  | 112 => ⟨S65536x32, .f32⟩
  | 113 => ⟨S_, .f32⟩
  | 114 => ⟨S32, .f32⟩
  | 115 => ⟨S32, .f32⟩
  | 116 => ⟨S32, .f32⟩
  | 117 => ⟨S1x32, .f32⟩
  | 118 => ⟨S65536x32, .f32⟩
  | 119 => ⟨S65536x32, .f32⟩
  | 120 => ⟨S1x32, .f32⟩
  | 121 => ⟨S65536x32, .f32⟩
  | 122 => ⟨S65536x32, .f32⟩
  | 123 => ⟨S1x32, .f32⟩
  | 124 => ⟨S65536x32, .f32⟩
  | 125 => ⟨S65536x32, .f32⟩
  | 126 => ⟨S_, .f32⟩
  | 127 => ⟨S_, .f32⟩
  | _ => ⟨S65536x784, .f32⟩

abbrev hbmTy0_1 (i : Nat) : BufTy := match i % 128 with
  | 0 => ⟨S_, .f32⟩
  | 1 => ⟨S65536x32, .f32⟩
  | 2 => ⟨S65536x32, .f32⟩
  | 3 => ⟨S_, .f32⟩
  | 4 => ⟨S65536x32, .f32⟩
  | 5 => ⟨S65536x32, .f32⟩
  | 6 => ⟨S65536x32, .f32⟩
  | 7 => ⟨S65536x32, .f32⟩
  | 8 => ⟨S65536x32, .f32⟩
  | 9 => ⟨S10x32, .f32⟩
  | 10 => ⟨S10x32, .f32⟩
  | 11 => ⟨S10x32, .f32⟩
  | 12 => ⟨S32x10, .f32⟩
  | 13 => ⟨S65536x10, .f32⟩
  | 14 => ⟨S1x10, .f32⟩
  | 15 => ⟨S65536x10, .f32⟩
  | 16 => ⟨S65536x10, .f32⟩
  | _ => ⟨S65536x784, .f32⟩

abbrev hbmTy (i : Nat) : BufTy := match i / 128 with
  | 0 => hbmTy0_0 i
  | 1 => hbmTy0_1 i
  | _ => ⟨S65536x784, .f32⟩

abbrev bufTy : (tb : Table) → Fin (tcTables nBuf tb) → BufTy
  | .hbm, ⟨i, _⟩ => hbmTy i
  | _, _ => ⟨S65536x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_cst_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_cst_1 : Ref sig .tc := ⟨.hbm, 35, rfl⟩
abbrev main_call0_v8 : Ref sig .tc := ⟨.hbm, 36, rfl⟩
abbrev main_call0_cst_2 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_cst_3 : Ref sig .tc := ⟨.hbm, 41, rfl⟩
abbrev main_call0_v12 : Ref sig .tc := ⟨.hbm, 42, rfl⟩
abbrev main_call0_cst_4 : Ref sig .tc := ⟨.hbm, 43, rfl⟩
abbrev main_call0_call0_v0 : Ref sig .tc := ⟨.hbm, 44, rfl⟩
abbrev main_call0_call0_v1 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_cst_1 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_cst_2 : Ref sig .tc := ⟨.hbm, 63, rfl⟩
abbrev main_cst_3 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_cst_4 : Ref sig .tc := ⟨.hbm, 82, rfl⟩
abbrev main_v39 : Ref sig .tc := ⟨.hbm, 83, rfl⟩
abbrev main_cst_5 : Ref sig .tc := ⟨.hbm, 84, rfl⟩
abbrev main_v40 : Ref sig .tc := ⟨.hbm, 85, rfl⟩
abbrev main_v41 : Ref sig .tc := ⟨.hbm, 86, rfl⟩
abbrev main_c_6 : Ref sig .tc := ⟨.hbm, 87, rfl⟩
abbrev main_call2_cst : Ref sig .tc := ⟨.hbm, 88, rfl⟩
abbrev main_call2_v0 : Ref sig .tc := ⟨.hbm, 89, rfl⟩
abbrev main_call2_v1 : Ref sig .tc := ⟨.hbm, 90, rfl⟩
abbrev main_call2_cst_0 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_v6 : Ref sig .tc := ⟨.hbm, 96, rfl⟩
abbrev main_call2_v7 : Ref sig .tc := ⟨.hbm, 97, rfl⟩
abbrev main_call2_cst_1 : Ref sig .tc := ⟨.hbm, 98, rfl⟩
abbrev main_call2_v8 : Ref sig .tc := ⟨.hbm, 99, rfl⟩
abbrev main_call2_cst_2 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_call2_cst_3 : Ref sig .tc := ⟨.hbm, 104, rfl⟩
abbrev main_call2_v12 : Ref sig .tc := ⟨.hbm, 105, rfl⟩
abbrev main_call2_cst_4 : Ref sig .tc := ⟨.hbm, 106, rfl⟩
abbrev main_call2_call0_v0 : Ref sig .tc := ⟨.hbm, 107, rfl⟩
abbrev main_call2_call0_v1 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_cst_7 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_cst_8 : Ref sig .tc := ⟨.hbm, 126, rfl⟩
abbrev main_cst_9 : Ref sig .tc := ⟨.hbm, 127, rfl⟩
abbrev main_call3_v0 : Ref sig .tc := ⟨.hbm, 128, rfl⟩
abbrev main_call3_v1 : Ref sig .tc := ⟨.hbm, 129, rfl⟩
abbrev main_call3_v2 : Ref sig .tc := ⟨.hbm, 130, rfl⟩
abbrev main_call3_v3 : Ref sig .tc := ⟨.hbm, 131, rfl⟩
abbrev main_call3_v4 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩

abbrev nD : Nat := 1
abbrev τ : Topo := Topo.v7x

variable {F : FTy → Type} [FloatOps F]

class Facts₀ : Prop where
  transposes_S512x784_S784x512_1_0 : S512x784.Transposes [1, 0] S784x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  reducesTo_S65536x512_S512_d0 : S65536x512.ReducesTo [0] S512
  h_S_ : 0 < S_.numel
  bcast_S_S512 : S_.BroadcastsInDim S512 (![] : Fin 0 → Fin S512.rank)
  bcast_S_S1x512 : S_.BroadcastsInDim S1x512 (![] : Fin 0 → Fin S1x512.rank)
  bcast_S_S65536x512 : S_.BroadcastsInDim S65536x512 (![] : Fin 0 → Fin S65536x512.rank)
  transposes_S32x512_S512x32_1_0 : S32x512.Transposes [1, 0] S512x32
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  reducesTo_S65536x32_S32_d0 : S65536x32.ReducesTo [0] S32
  bcast_S_S32 : S_.BroadcastsInDim S32 (![] : Fin 0 → Fin S32.rank)
  bcast_S_S1x32 : S_.BroadcastsInDim S1x32 (![] : Fin 0 → Fin S1x32.rank)
  bcast_S_S65536x32 : S_.BroadcastsInDim S65536x32 (![] : Fin 0 → Fin S65536x32.rank)
  transposes_S10x32_S32x10_1_0 : S10x32.Transposes [1, 0] S32x10
  bcast_S10_S1x10_1 : S10.BroadcastsInDim S1x10 (![1] : Fin 1 → Fin S1x10.rank)
  bcast_S1x10_S65536x10_0_1 : S1x10.BroadcastsInDim S65536x10 (![0, 1] : Fin 2 → Fin S65536x10.rank)
  dot_S65536x784_S784x512_S65536x512_1_0_0_1_n_n_wf : DotDims.WF S65536x784 S784x512 S65536x512 [1] [0] [0] [1] [] []
  dot_S65536x512_S512x32_S65536x32_1_0_0_1_n_n_wf : DotDims.WF S65536x512 S512x32 S65536x32 [1] [0] [0] [1] [] []
  dot_S65536x32_S32x10_S65536x10_1_0_0_1_n_n_wf : DotDims.WF S65536x32 S32x10 S65536x10 [1] [0] [0] [1] [] []

variable [Facts₀]

def dot_S65536x784_S784x512_S65536x512_1_0_0_1_n_n : DotDims S65536x784 S784x512 S65536x512 where
  lhsContracting := [1]
  rhsContracting := [0]
  lhsNonContracting := [0]
  rhsNonContracting := [1]
  lhsBatch := []
  rhsBatch := []
  wf := dot_S65536x784_S784x512_S65536x512_1_0_0_1_n_n_wf
def dot_S65536x512_S512x32_S65536x32_1_0_0_1_n_n : DotDims S65536x512 S512x32 S65536x32 where
  lhsContracting := [1]
  rhsContracting := [0]
  lhsNonContracting := [0]
  rhsNonContracting := [1]
  lhsBatch := []
  rhsBatch := []
  wf := dot_S65536x512_S512x32_S65536x32_1_0_0_1_n_n_wf
def dot_S65536x32_S32x10_S65536x10_1_0_0_1_n_n : DotDims S65536x32 S32x10 S65536x10 where
  lhsContracting := [1]
  rhsContracting := [0]
  lhsNonContracting := [0]
  rhsNonContracting := [1]
  lhsBatch := []
  rhsBatch := []
  wf := dot_S65536x32_S32x10_S65536x10_1_0_0_1_n_n_wf

class Facts : Prop extends Facts₀ where

variable [Facts]
-- ==== Proof.KRun.lean ====
/-
  The kernel's run with its final memory read: every weakly fair execution of the three-stage program terminates
  without a fault, and every unscoped buffer of every core ends at the contents the last stage's boundary names
  (the fold of host stretches and stage write-backs through the program).
-/
import proofs.«119830_j18734647345306_2_alg».proof.Proof.Gen.KernelIdeal.Frame

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with every unscoped buffer read at the end. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Value

end
-- ==== Proof.Spec.lean ====
/-
  The mathematics both programs are compared through, over the extended reals, on plain `Fin`-indexed families.

  A dense layer is `x · wᵀ + b`. A batch-normalised, binarised activation is written in the two arrangements that
  meet here:

  * the streaming arrangement: from the whole-batch sum `S = Σₚ hₚ` and sum of squares `SS = Σₚ hₚ²` of a column,
    mean `S/N`, variance `max (SS/N − mean², 0)`, scale `γ · (var + ε)^(-1/2)`, shift `β − mean · scale`, and the
    sign of `h · scale + shift` taken by comparisons (`ksign`);
  * the textbook arrangement: mean `S/N`, variance `Σₚ (hₚ − mean)² / N`, `(h − mean) · (var + ε)^(-1/2) · γ + β`,
    clipped to [−1, 1], then `a + (sign a − a)`.

  On finite inputs the two are one function (the variance identity `Σ (h − μ)² = Σ h² − N μ²`, distributivity over
  the reals, `sign ∘ clip = sign`); that is proved in the module that imports this one. The float literals stay
  bit patterns; only their being the reals 0, 65536, ±1 and a positive ε is used.
-/
import Idealize.ShloMosaic.PureOps.Ideal
import Idealize.ShloMosaic.Lib.ValueIdx

noncomputable section

namespace Cert.Spec

open Idealize.ShloMosaic
open scoped BigOperators

/-- An extended real that is a real number. -/
def IsReal (x : EReal) : Prop := ∃ r : ℝ, x = (r : EReal)

/-- The literals of the two programs, as the extended reals their patterns denote. -/
abbrev z32 : EReal := Ideal.ofBits .f32 0x00000000#32
abbrev cntW : EReal := Ideal.ofBits .f32 0x47800000#32
abbrev epsW : EReal := Ideal.ofBits .f32 0x3727C5AC#32
abbrev oneW : EReal := Ideal.ofBits .f32 0x3F800000#32
abbrev negOneW : EReal := Ideal.ofBits .f32 0xBF800000#32

/-- An array read at coordinates. -/
def rd1 {a : ℕ} (X : (⟨1, ![a]⟩ : Shape).Idx → EReal) (q : Fin a) : EReal := X (ValueIdx.ix1 q)
def rd2 {a b : ℕ} (X : (⟨2, ![a, b]⟩ : Shape).Idx → EReal) (p : Fin a) (k : Fin b) : EReal := X (ValueIdx.ix2 p k)
def rd3 {a b d : ℕ} (X : (⟨3, ![a, b, d]⟩ : Shape).Idx → EReal) (p : Fin a) (k : Fin b) (l : Fin d) : EReal :=
  X (ValueIdx.ix3 p k l)

/-- The dense layer `x · wᵀ + b` at entry `(p, q)`: `x : [P, K]`, `w : [Q, K]`, `b : [Q]`. -/
def dense {P K Q : ℕ} (x : Fin P → Fin K → EReal) (w : Fin Q → Fin K → EReal) (b : Fin Q → EReal) :
    Fin P → Fin Q → EReal := fun p q => (∑ k : Fin K, x p k * w q k) + b q

/-- Row `j` of half `a` of the batch: the rows one core sweeps. -/
def half (a : Fin 2) (j : Fin 32768) : Fin 65536 := ⟨a.val * 32768 + j.val, by have := a.isLt; have := j.isLt; omega⟩

/-- A column's sum and sum of squares over the whole batch, from the zero literal. -/
def colSum {Q : ℕ} (h : Fin 65536 → Fin Q → EReal) (q : Fin Q) : EReal := z32 + ∑ p : Fin 65536, h p q
def colSumSq {Q : ℕ} (h : Fin 65536 → Fin Q → EReal) (q : Fin Q) : EReal := z32 + ∑ p : Fin 65536, h p q * h p q

/-! ### The streaming arrangement -/

def kmean (S : EReal) : EReal := Ideal.div S cntW
def kvar (S SS : EReal) : EReal := max (Ideal.div SS cntW - kmean S * kmean S) z32
def kscale (g S SS : EReal) : EReal := g * Ideal.rsqrt (kvar S SS + epsW)
def kshift (be g S SS : EReal) : EReal := be - kmean S * kscale g S SS

/-- The sign by comparisons: where `|x| > 0`, `−1` below zero and `1` otherwise; else `x` itself. -/
def ksign (x : EReal) : EReal :=
  Scalar.select (Ideal.cmp .ogt (max x (-x)) z32) (Scalar.select (Ideal.cmp .olt x z32) negOneW oneW) x

def kact (h g be S SS : EReal) : EReal := ksign (h * kscale g S SS + kshift be g S SS)

/-- Batch-normalise and binarise every column, streaming arrangement. -/
def kbn {Q : ℕ} (h : Fin 65536 → Fin Q → EReal) (g be : Fin Q → EReal) : Fin 65536 → Fin Q → EReal :=
  fun p q => kact (h p q) (g q) (be q) (colSum h q) (colSumSq h q)

/-- The sign of every weight. -/
def sgnW {Q K : ℕ} (w : Fin Q → Fin K → EReal) : Fin Q → Fin K → EReal := fun q k => Ideal.sign (w q k)

/-- The whole network, streaming arrangement. -/
def kernelNet (x : Fin 65536 → Fin 784 → EReal) (w1 : Fin 512 → Fin 784 → EReal) (b1 g1 be1 : Fin 512 → EReal)
    (w2 : Fin 32 → Fin 512 → EReal) (b2 g2 be2 : Fin 32 → EReal) (w3 : Fin 10 → Fin 32 → EReal) (b3 : Fin 10 → EReal) :
    Fin 65536 → Fin 10 → EReal :=
  dense (kbn (dense (kbn (dense x (sgnW w1) b1) g1 be1) (sgnW w2) b2) g2 be2) (sgnW w3) b3

/-! ### The textbook arrangement -/

def rmean (col : Fin 65536 → EReal) : EReal := Ideal.div (z32 + ∑ p : Fin 65536, col p) cntW
def rvar (col : Fin 65536 → EReal) : EReal :=
  Ideal.div (z32 + ∑ p : Fin 65536, (col p - rmean col) * (col p - rmean col)) cntW
def rnorm (x g be mean var : EReal) : EReal := (x - mean) * Ideal.rsqrt (var + epsW) * g + be
def clip (x : EReal) : EReal := min oneW (max negOneW x)
/-- The straight-through binarisation's forward value. -/
def rbin (a : EReal) : EReal := a + (Ideal.sign a - a)
def ract (col : Fin 65536 → EReal) (g be : EReal) (p : Fin 65536) : EReal :=
  rbin (clip (rnorm (col p) g be (rmean col) (rvar col)))

def rbn {Q : ℕ} (h : Fin 65536 → Fin Q → EReal) (g be : Fin Q → EReal) : Fin 65536 → Fin Q → EReal :=
  fun p q => ract (fun p' => h p' q) (g q) (be q) p

def rbinW {Q K : ℕ} (w : Fin Q → Fin K → EReal) : Fin Q → Fin K → EReal := fun q k => rbin (w q k)

/-- The whole network, textbook arrangement. -/
def refNet (x : Fin 65536 → Fin 784 → EReal) (w1 : Fin 512 → Fin 784 → EReal) (b1 g1 be1 : Fin 512 → EReal)
    (w2 : Fin 32 → Fin 512 → EReal) (b2 g2 be2 : Fin 32 → EReal) (w3 : Fin 10 → Fin 32 → EReal) (b3 : Fin 10 → EReal) :
    Fin 65536 → Fin 10 → EReal :=
  dense (rbn (dense (rbn (dense x (rbinW w1) b1) g1 be1) (rbinW w2) b2) g2 be2) (rbinW w3) b3

end Cert.Spec

end
-- ==== Proof.Finite.lean ====
/-
  Finiteness from the precondition. The precondition says that a predicate of the eleven argument arrays is the
  all-ones word: the conjunction, over the arrays, of "every entry's absolute value is below +∞". Read back:
  every entry of every array is a real number (neither infinity).
-/
import proofs.«119830_j18734647345306_2_alg».proof.Defs
import proofs.«119830_j18734647345306_2_alg».proof.Proof.Gen.Pre_finite_inputs
import proofs.«119830_j18734647345306_2_alg».proof.Proof.Spec
import Idealize.ShloMosaic.Lib.ValueIdx
import Idealize.ShloMosaic.Lib.IdealHost
import Idealize.ShloMosaic.Lib.ReduceAll

noncomputable section
open Idealize.ShloMosaic Idealize.ShloMosaic.TcCoe Idealize.SL.Sem
open Idealize.ShloMosaic.ValueIdx

namespace Cert.Proof.Finite
open Cert.Spec

/-- The scalar shape has one index. -/
instance : Subsingleton (⟨0, ![]⟩ : Shape).Idx := ⟨fun a b => funext fun d => d.elim0⟩

/-- The pattern 0x7F800000 denotes +∞. -/
theorem inf_eq : Ideal.ofBits .f32 0x7F800000#32 = (⊤ : EReal) := by
  simp [Ideal.ofBits, Ideal.ieee]

/-- An extended real whose absolute value `max x (−x)` is below +∞ is a real number. -/
theorem isReal_of_abs_lt (x : EReal)
    (h : Ideal.cmp .olt (max x (-x)) (Ideal.ofBits .f32 0x7F800000#32) = 1#1) : IsReal x := by
  rw [inf_eq] at h
  induction x using EReal.rec with
  | bot => simp [Ideal.cmp] at h
  | coe r => exact ⟨r, rfl⟩
  | top => simp [Ideal.cmp] at h

/-- One array: if the conjunction over all entries of "|x| < +∞" is one, every entry is a real. -/
theorem all_real {S : Shape} {axes : List (Fin S.rank)} (x : FVec Ideal S .f32)
    (hb : (⟨0, ![]⟩ : Shape).BroadcastsInDim S ![]) (hr : S.ReducesTo axes ⟨0, ![]⟩)
    (h0 : 0 < (⟨0, ![]⟩ : Shape).numel) (init : IVec ⟨0, ![]⟩ 1)
    (h : Host.reduce IntOp.andi
          (cmpf .olt (Host.absf x) (broadcastInDim S ![] hb (constant (F := Ideal) ⟨0, ![]⟩ .f32 0x7F800000#32)))
          init hr h0 ix0 = 1#1) (i : S.Idx) : IsReal (x i) := by
  have e := Host.reduce_andi_all _ _ hr h0 ix0 h i
  rw [cmpf_apply, broadcastInDim_scalar_apply, constant_apply] at e
  exact isReal_of_abs_lt (x i) e

/-- Every entry of each of the eleven argument arrays is a real number, from the precondition. -/
theorem of_pre [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ p k, IsReal (rd2 (a := 65536) (b := 784) (m ((c.tc : Thread Cert.KernelIdeal.nD Cert.KernelIdeal.τ).loc Cert.KernelIdeal.main_arg0)) p k))
    ∧ (∀ p k, IsReal (rd2 (a := 512) (b := 784) (m ((c.tc : Thread Cert.KernelIdeal.nD Cert.KernelIdeal.τ).loc Cert.KernelIdeal.main_arg1)) p k))
    ∧ (∀ q, IsReal (rd1 (a := 512) (m ((c.tc : Thread Cert.KernelIdeal.nD Cert.KernelIdeal.τ).loc Cert.KernelIdeal.main_arg2)) q))
    ∧ (∀ q, IsReal (rd1 (a := 512) (m ((c.tc : Thread Cert.KernelIdeal.nD Cert.KernelIdeal.τ).loc Cert.KernelIdeal.main_arg3)) q))
    ∧ (∀ q, IsReal (rd1 (a := 512) (m ((c.tc : Thread Cert.KernelIdeal.nD Cert.KernelIdeal.τ).loc Cert.KernelIdeal.main_arg4)) q))
    ∧ (∀ p k, IsReal (rd2 (a := 32) (b := 512) (m ((c.tc : Thread Cert.KernelIdeal.nD Cert.KernelIdeal.τ).loc Cert.KernelIdeal.main_arg5)) p k))
    ∧ (∀ q, IsReal (rd1 (a := 32) (m ((c.tc : Thread Cert.KernelIdeal.nD Cert.KernelIdeal.τ).loc Cert.KernelIdeal.main_arg6)) q))
    ∧ (∀ q, IsReal (rd1 (a := 32) (m ((c.tc : Thread Cert.KernelIdeal.nD Cert.KernelIdeal.τ).loc Cert.KernelIdeal.main_arg7)) q))
    ∧ (∀ q, IsReal (rd1 (a := 32) (m ((c.tc : Thread Cert.KernelIdeal.nD Cert.KernelIdeal.τ).loc Cert.KernelIdeal.main_arg8)) q))
    ∧ (∀ p k, IsReal (rd2 (a := 10) (b := 32) (m ((c.tc : Thread Cert.KernelIdeal.nD Cert.KernelIdeal.τ).loc Cert.KernelIdeal.main_arg9)) p k))
    ∧ (∀ q, IsReal (rd1 (a := 10) (m ((c.tc : Thread Cert.KernelIdeal.nD Cert.KernelIdeal.τ).loc Cert.KernelIdeal.main_arg10)) q)) := by
  have h := congrFun (hpre c) ValueIdx.ix0
  dsimp only [Cert.Pre_finite_inputs.fn, Cert.Pre_finite_inputs.fn_part1, Cert.Pre_finite_inputs.fn_part2,
    Cert.Pre_finite_inputs.fn_part3, Idealize.ShloMosaic.andi] at h
  simp only [IntOp.andi_eq_one] at h
  obtain ⟨⟨⟨⟨⟨⟨⟨⟨⟨⟨h0, h1⟩, h2⟩, h3⟩, h4⟩, h5⟩, h6⟩, h7⟩, h8⟩, h9⟩, h10⟩ := h
  exact ⟨fun p k => all_real _ _ _ _ _ h0 (ix2 p k),
    fun p k => all_real _ _ _ _ _ h1 (ix2 p k),
    fun q => all_real _ _ _ _ _ h2 (ix1 q),
    fun q => all_real _ _ _ _ _ h3 (ix1 q),
    fun q => all_real _ _ _ _ _ h4 (ix1 q),
    fun p k => all_real _ _ _ _ _ h5 (ix2 p k),
    fun q => all_real _ _ _ _ _ h6 (ix1 q),
    fun q => all_real _ _ _ _ _ h7 (ix1 q),
    fun q => all_real _ _ _ _ _ h8 (ix1 q),
    fun p k => all_real _ _ _ _ _ h9 (ix2 p k),
    fun q => all_real _ _ _ _ _ h10 (ix1 q)⟩

end Cert.Proof.Finite
end
-- ==== Proof.Consts.lean ====
/-
  The five float literals of the two programs as the reals their patterns denote: zero, the batch size 65536,
  one, minus one, and the variance guard ε = 10995116 · 2⁻⁴⁰ (the f32 nearest 10⁻⁵), which is positive.
-/
import proofs.«119830_j18734647345306_2_alg».proof.Proof.Spec
import Idealize.ShloMosaic.Lib.IdealHost

noncomputable section

namespace Cert.Spec

open Idealize.ShloMosaic

theorem z32_eq : z32 = 0 := by simp [Ideal.ofBits, Ideal.ieee]

theorem cntW_eq : cntW = ((65536 : ℝ) : EReal) := by
  simp [Ideal.ofBits, Ideal.ieee, -EReal.coe_mul]; norm_num

theorem oneW_eq : oneW = ((1 : ℝ) : EReal) := by
  simp [Ideal.ofBits, Ideal.ieee, -EReal.coe_mul]

theorem negOneW_eq : negOneW = ((-1 : ℝ) : EReal) := by
  simp [Ideal.ofBits, Ideal.ieee, -EReal.coe_mul, -EReal.coe_neg]; norm_num

/-- ε is a positive real. -/
theorem epsW_pos : ∃ e : ℝ, 0 < e ∧ epsW = (e : EReal) := by
  refine ⟨(10995116 : ℝ) * (2 : ℝ) ^ (-40 : ℤ), by positivity, ?_⟩
  simp [Ideal.ofBits, Ideal.ieee, -EReal.coe_mul]

end Cert.Spec

end
-- ==== Proof.AlgSign.lean ====
/-
  Signs and real-valuedness: on a real, the sign by comparisons and the straight-through binarisation both give
  the float sign; the sign by comparisons is a real at every extended real; coercion of finite sums; a dense
  layer of reals is real.
-/
import proofs.«119830_j18734647345306_2_alg».proof.Proof.Spec
import proofs.«119830_j18734647345306_2_alg».proof.Proof.Consts
import Mathlib

noncomputable section

namespace Cert.Spec

open Idealize.ShloMosaic
open scoped BigOperators

/-! ### Real-valuedness -/

theorem isReal_coe (r : ℝ) : IsReal (r : EReal) := ⟨r, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type*} (s : Finset ι) (f : ι → EReal) (hf : ∀ i, IsReal (f i)) :
    IsReal (∑ i ∈ s, f i) := by
  choose f' hf' using hf
  refine ⟨∑ i ∈ s, f' i, ?_⟩
  rw [coe_sum]; exact Finset.sum_congr rfl (fun i _ => hf' i)

/-- A dense layer of reals is real. -/
theorem dense_isReal {P K Q : ℕ} (x : Fin P → Fin K → EReal) (w : Fin Q → Fin K → EReal) (b : Fin Q → EReal)
    (hx : ∀ p k, IsReal (x p k)) (hw : ∀ q k, IsReal (w q k)) (hb : ∀ q, IsReal (b q)) (p : Fin P) (q : Fin Q) :
    IsReal (dense x w b p q) :=
  (isReal_sum _ _ (fun k => (hx p k).mul (hw q k))).add (hb q)

/-! ### The sign -/

/-- A select on a decided proposition is the `if`. -/
theorem select_ofBool_decide {α : Type} (P : Prop) [Decidable P] (a b : α) :
    Scalar.select (BitVec.ofBool (decide P)) a b = if P then a else b := by
  by_cases h : P <;> simp [Scalar.select, h]

/-- The sign by comparisons, unfolded: where `0 < max x (−x)`, `−1` below zero and `1` otherwise; else `x`. -/
theorem ksign_eq (x : EReal) :
    ksign x = if (0 : EReal) < max x (-x) then (if x < 0 then ((-1 : ℝ) : EReal) else ((1 : ℝ) : EReal)) else x := by
  unfold ksign
  rw [z32_eq, oneW_eq, negOneW_eq]
  simp only [Ideal.cmp, select_ofBool_decide]

theorem sign_isReal (x : EReal) : IsReal (Ideal.sign x) := by
  induction x using EReal.rec with
  | bot => exact ⟨-1, by simp⟩
  | top => exact ⟨1, by simp⟩
  | coe r => exact ⟨(SignType.sign r : ℝ), rfl⟩

/-- The sign by comparisons is a real at every extended real. -/
theorem ksign_isReal (x : EReal) : IsReal (ksign x) := by
  rw [ksign_eq]
  induction x using EReal.rec with
  | bot => refine ⟨-1, ?_⟩; simp
  | top => refine ⟨1, ?_⟩; simp
  | coe r =>
    split_ifs
    · exact ⟨-1, rfl⟩
    · exact ⟨1, rfl⟩
    · exact ⟨r, rfl⟩

/-- On a real the sign by comparisons is the float sign. -/
theorem ksign_coe (r : ℝ) : ksign (r : EReal) = Ideal.sign (r : EReal) := by
  rw [ksign_eq, Ideal.sign_coe]
  rcases lt_trichotomy r 0 with h | h | h
  · have h1 : (0 : EReal) < max (r : EReal) (-(r : EReal)) := by
      rw [lt_max_iff]; right; rw [← EReal.coe_neg]; exact_mod_cast neg_pos.mpr h
    have h2 : (r : EReal) < 0 := by exact_mod_cast h
    rw [if_pos h1, if_pos h2, sign_neg h]; simp
  · subst h; simp
  · have h1 : (0 : EReal) < max (r : EReal) (-(r : EReal)) := by
      rw [lt_max_iff]; left; exact_mod_cast h
    have h2 : ¬ (r : EReal) < 0 := by
      rw [not_lt]; exact_mod_cast h.le
    rw [if_pos h1, if_neg h2, sign_pos h]; simp

/-- On a real the straight-through binarisation's forward value is the float sign. -/
theorem rbin_coe (r : ℝ) : rbin (r : EReal) = Ideal.sign (r : EReal) := by
  unfold rbin
  rw [Ideal.sign_coe, ← EReal.coe_sub, ← EReal.coe_add]
  congr 1; ring

theorem rbinW_eq_sgnW {Q K : ℕ} (w : Fin Q → Fin K → EReal) (hw : ∀ q k, IsReal (w q k)) : rbinW w = sgnW w := by
  funext q k
  obtain ⟨r, hr⟩ := hw q k
  simp only [rbinW, sgnW, hr, rbin_coe]

theorem sgnW_isReal {Q K : ℕ} (w : Fin Q → Fin K → EReal) (q : Fin Q) (k : Fin K) : IsReal (sgnW w q k) :=
  sign_isReal _

end Cert.Spec

end
-- ==== Proof.AlgColumn.lean ====
/-
  The column law: on a real column with real scale and shift parameters, the streaming arrangement of the
  batch-normalised sign (from the sum and the sum of squares) and the textbook arrangement (centred squares,
  clip, straight-through sign) give one value at every row.

  Over the reals, with N = 65536 and μ = S/N:  Σ (hₚ − μ)² = Σ hₚ² − N μ², so the centred variance is
  SS/N − μ², it is nonnegative and the guard `max · 0` is the identity; var + ε > 0 so the reciprocal square root
  is the real (√(var + ε))⁻¹; h·(γ r) + (β − μ·(γ r)) = (h − μ)·r·γ + β; and sign ∘ clip = sign.
-/
import proofs.«119830_j18734647345306_2_alg».proof.Proof.AlgSign

noncomputable section

namespace Cert.Spec

open Idealize.ShloMosaic
open scoped BigOperators

/-! ### Over the reals -/

/-- The mean of a column. -/
def mu (c : Fin 65536 → ℝ) : ℝ := (∑ p, c p) * (1 / 65536)

/-- The centred variance of a column. -/
def varR (c : Fin 65536 → ℝ) : ℝ := (∑ p, (c p - mu c) * (c p - mu c)) * (1 / 65536)

/-- The sum of centred squares: `Σ (cₚ − μ)² = Σ cₚ² − N μ²` when `Σ cₚ = N μ` over `N` terms. -/
theorem sum_centred_sq {ι : Type*} [Fintype ι] (c : ι → ℝ) (N μ : ℝ) (hN : (Fintype.card ι : ℝ) = N)
    (hS : ∑ p, c p = N * μ) :
    ∑ p, (c p - μ) * (c p - μ) = (∑ p, c p * c p) - N * (μ * μ) := by
  have h : ∀ p, (c p - μ) * (c p - μ) = c p * c p - 2 * μ * c p + μ * μ := fun p => by ring
  simp only [h]
  rw [Finset.sum_add_distrib, Finset.sum_sub_distrib, ← Finset.mul_sum, Finset.sum_const, Finset.card_univ,
    nsmul_eq_mul, hN, hS]
  ring

theorem card_fin_real : (Fintype.card (Fin 65536) : ℝ) = 65536 := by
  rw [Fintype.card_fin]; exact Nat.cast_ofNat

/-- The variance identity: the centred variance is `SS/N − μ²`. -/
theorem varR_eq (c : Fin 65536 → ℝ) : varR c = (∑ p, c p * c p) * (1 / 65536) - mu c * mu c := by
  have hS : ∑ p, c p = 65536 * mu c := by unfold mu; ring
  unfold varR
  rw [sum_centred_sq c 65536 (mu c) card_fin_real hS]
  ring

theorem varR_nonneg (c : Fin 65536 → ℝ) : 0 ≤ varR c := by
  unfold varR
  exact mul_nonneg (Finset.sum_nonneg (fun p _ => mul_self_nonneg _)) (by norm_num)

/-- The guarded streaming variance is the centred variance. -/
theorem max_var_eq (c : Fin 65536 → ℝ) :
    max ((∑ p, c p * c p) * (1 / 65536) - mu c * mu c) 0 = varR c := by
  rw [← varR_eq]; exact max_eq_left (varR_nonneg c)

/-- The sign does not see the clip to [−1, 1]. -/
theorem sign_clip (y : ℝ) : SignType.sign (min 1 (max (-1) y)) = SignType.sign y := by
  rcases lt_trichotomy y 0 with h | h | h
  · have h' : min 1 (max (-1) y) < 0 :=
      lt_of_le_of_lt (min_le_right _ _) (max_lt (by norm_num) h)
    rw [sign_neg h', sign_neg h]
  · subst h
    have h0 : min (1 : ℝ) (max (-1) 0) = 0 := by
      rw [max_eq_right (by norm_num : (-1 : ℝ) ≤ 0), min_eq_right (by norm_num : (0 : ℝ) ≤ 1)]
    rw [h0]
  · have h' : 0 < min 1 (max (-1) y) := lt_min one_pos (lt_max_of_lt_right h)
    rw [sign_pos h', sign_pos h]

/-! ### The literals on reals -/

theorem div_cntW (r : ℝ) : Ideal.div (r : EReal) cntW = ((r * (1 / 65536) : ℝ) : EReal) := by
  rw [cntW_eq, Ideal.div_coe (by norm_num : (65536 : ℝ) ≠ 0), ← EReal.coe_mul]

theorem z32_add_sum (f : Fin 65536 → ℝ) : z32 + ∑ p, (f p : EReal) = ((∑ p, f p : ℝ) : EReal) := by
  rw [z32_eq, zero_add, coe_sum]

theorem coe_max' (a b : ℝ) : ((max a b : ℝ) : EReal) = max (a : EReal) (b : EReal) :=
  EReal.coe_strictMono.monotone.map_max

theorem coe_min' (a b : ℝ) : ((min a b : ℝ) : EReal) = min (a : EReal) (b : EReal) :=
  EReal.coe_strictMono.monotone.map_min

theorem rsqrt_pos {v : ℝ} (hv : 0 < v) : Ideal.rsqrt (v : EReal) = (((Real.sqrt v)⁻¹ : ℝ) : EReal) := by
  rw [Ideal.rsqrt_coe, if_neg (not_lt.mpr hv.le), if_neg hv.ne']

/-! ### The streaming arrangement on a real column -/

section Column

variable (c : Fin 65536 → ℝ)

theorem colSum_coe : z32 + ∑ q, (c q : EReal) = ((∑ q, c q : ℝ) : EReal) := z32_add_sum c

theorem colSumSq_coe : z32 + ∑ q, (c q : EReal) * (c q : EReal) = ((∑ q, c q * c q : ℝ) : EReal) := by
  simp only [← EReal.coe_mul]
  exact z32_add_sum (fun q => c q * c q)

theorem kmean_coe : kmean (z32 + ∑ q, (c q : EReal)) = (mu c : EReal) := by
  unfold kmean mu
  rw [colSum_coe, div_cntW]

theorem kvar_coe :
    kvar (z32 + ∑ q, (c q : EReal)) (z32 + ∑ q, (c q : EReal) * (c q : EReal)) = (varR c : EReal) := by
  unfold kvar
  rw [kmean_coe, colSumSq_coe, div_cntW, ← EReal.coe_mul, ← EReal.coe_sub, z32_eq, ← EReal.coe_zero, ← coe_max',
    max_var_eq]

theorem kscale_coe (g e : ℝ) (he : 0 < e) (hε : epsW = (e : EReal)) :
    kscale (g : EReal) (z32 + ∑ q, (c q : EReal)) (z32 + ∑ q, (c q : EReal) * (c q : EReal))
      = ((g * (Real.sqrt (varR c + e))⁻¹ : ℝ) : EReal) := by
  unfold kscale
  rw [kvar_coe, hε, ← EReal.coe_add, rsqrt_pos (add_pos_of_nonneg_of_pos (varR_nonneg c) he), ← EReal.coe_mul]

theorem kshift_coe (g be e : ℝ) (he : 0 < e) (hε : epsW = (e : EReal)) :
    kshift (be : EReal) (g : EReal) (z32 + ∑ q, (c q : EReal)) (z32 + ∑ q, (c q : EReal) * (c q : EReal))
      = ((be - mu c * (g * (Real.sqrt (varR c + e))⁻¹) : ℝ) : EReal) := by
  unfold kshift
  rw [kmean_coe, kscale_coe c g e he hε, ← EReal.coe_mul, ← EReal.coe_sub]

theorem kact_coe (g be e : ℝ) (he : 0 < e) (hε : epsW = (e : EReal)) (p : Fin 65536) :
    kact (c p : EReal) (g : EReal) (be : EReal) (z32 + ∑ q, (c q : EReal))
        (z32 + ∑ q, (c q : EReal) * (c q : EReal))
      = Ideal.sign ((c p * (g * (Real.sqrt (varR c + e))⁻¹)
          + (be - mu c * (g * (Real.sqrt (varR c + e))⁻¹)) : ℝ) : EReal) := by
  unfold kact
  rw [kscale_coe c g e he hε, kshift_coe c g be e he hε, ← EReal.coe_mul, ← EReal.coe_add, ksign_coe]

/-! ### The textbook arrangement on a real column -/

theorem rmean_coe : rmean (fun p => (c p : EReal)) = (mu c : EReal) := by
  unfold rmean mu
  rw [colSum_coe, div_cntW]

theorem rvar_coe : rvar (fun p => (c p : EReal)) = (varR c : EReal) := by
  unfold rvar
  rw [rmean_coe]
  simp only [← EReal.coe_sub, ← EReal.coe_mul]
  rw [z32_add_sum (fun p => (c p - mu c) * (c p - mu c)), div_cntW]
  rfl

theorem clip_coe (y : ℝ) : clip (y : EReal) = ((min 1 (max (-1) y) : ℝ) : EReal) := by
  unfold clip
  rw [oneW_eq, negOneW_eq, ← coe_max', ← coe_min']

theorem ract_coe (g be e : ℝ) (he : 0 < e) (hε : epsW = (e : EReal)) (p : Fin 65536) :
    ract (fun p => (c p : EReal)) (g : EReal) (be : EReal) p
      = Ideal.sign ((min 1 (max (-1) ((c p - mu c) * (Real.sqrt (varR c + e))⁻¹ * g + be)) : ℝ) : EReal) := by
  unfold ract rnorm
  rw [rmean_coe, rvar_coe, hε, ← EReal.coe_add, rsqrt_pos (add_pos_of_nonneg_of_pos (varR_nonneg c) he),
    ← EReal.coe_sub, ← EReal.coe_mul, ← EReal.coe_mul, ← EReal.coe_add, clip_coe, rbin_coe]

/-- The column law on a column of reals. -/
theorem column_law_coe (g be : ℝ) (p : Fin 65536) :
    kact (c p : EReal) (g : EReal) (be : EReal) (z32 + ∑ q, (c q : EReal))
        (z32 + ∑ q, (c q : EReal) * (c q : EReal))
      = ract (fun p => (c p : EReal)) (g : EReal) (be : EReal) p := by
  obtain ⟨e, he, hε⟩ := epsW_pos
  rw [kact_coe c g be e he hε p, ract_coe c g be e he hε p, Ideal.sign_coe, Ideal.sign_coe, sign_clip]
  congr 3
  ring

end Column

/-- The column law: on a real-valued column with real parameters the two arrangements agree at every row. -/
theorem column_law (col : Fin 65536 → EReal) (g be : EReal) (hcol : ∀ p, IsReal (col p)) (hg : IsReal g)
    (hbe : IsReal be) (p : Fin 65536) :
    kact (col p) g be (z32 + ∑ q, col q) (z32 + ∑ q, col q * col q) = ract col g be p := by
  choose c hc using hcol
  obtain ⟨g', rfl⟩ := hg
  obtain ⟨be', rfl⟩ := hbe
  have hcol' : col = fun p => (c p : EReal) := funext hc
  subst hcol'
  exact column_law_coe c g' be' p

/-- Batch-normalise and binarise: the two arrangements agree on real-valued data. -/
theorem kbn_eq_rbn {Q : ℕ} (h : Fin 65536 → Fin Q → EReal) (g be : Fin Q → EReal) (hh : ∀ p q, IsReal (h p q))
    (hg : ∀ q, IsReal (g q)) (hbe : ∀ q, IsReal (be q)) : kbn h g be = rbn h g be := by
  funext p q
  exact column_law (fun p' => h p' q) (g q) (be q) (fun p' => hh p' q) (hg q) (hbe q) p

theorem kbn_isReal {Q : ℕ} (h : Fin 65536 → Fin Q → EReal) (g be : Fin Q → EReal) (p : Fin 65536) (q : Fin Q) :
    IsReal (kbn h g be p q) := ksign_isReal _

end Cert.Spec

end
-- ==== Proof.Algebra.lean ====
/-
  The two arrangements of the network agree on finite inputs.

  On real weights the straight-through binarisation is the float sign, so both networks use the same sign
  weights; a dense layer of reals is real; on a real-valued layer the streaming and the textbook batch-normalised
  signs agree column by column (the column law); and the sign by comparisons is always a real, so the next dense
  layer is again real-valued. Three layers of this give the claim.
-/
import proofs.«119830_j18734647345306_2_alg».proof.Proof.Spec
import proofs.«119830_j18734647345306_2_alg».proof.Proof.Consts
import proofs.«119830_j18734647345306_2_alg».proof.Proof.AlgSign
import proofs.«119830_j18734647345306_2_alg».proof.Proof.AlgColumn

noncomputable section

namespace Cert.Spec

open Idealize.ShloMosaic
open scoped BigOperators

theorem net_eq (x : Fin 65536 → Fin 784 → EReal) (w1 : Fin 512 → Fin 784 → EReal) (b1 g1 be1 : Fin 512 → EReal)
    (w2 : Fin 32 → Fin 512 → EReal) (b2 g2 be2 : Fin 32 → EReal) (w3 : Fin 10 → Fin 32 → EReal) (b3 : Fin 10 → EReal)
    (hx : ∀ p k, IsReal (x p k)) (hw1 : ∀ q k, IsReal (w1 q k)) (hb1 : ∀ q, IsReal (b1 q)) (hg1 : ∀ q, IsReal (g1 q))
    (hbe1 : ∀ q, IsReal (be1 q)) (hw2 : ∀ q k, IsReal (w2 q k)) (hb2 : ∀ q, IsReal (b2 q)) (hg2 : ∀ q, IsReal (g2 q))
    (hbe2 : ∀ q, IsReal (be2 q)) (hw3 : ∀ q k, IsReal (w3 q k)) (hb3 : ∀ q, IsReal (b3 q)) :
    kernelNet x w1 b1 g1 be1 w2 b2 g2 be2 w3 b3 = refNet x w1 b1 g1 be1 w2 b2 g2 be2 w3 b3 := by
  unfold kernelNet refNet
  rw [rbinW_eq_sgnW w1 hw1, rbinW_eq_sgnW w2 hw2, rbinW_eq_sgnW w3 hw3]
  -- the first layer is real-valued, so its two batch-normalised signs agree
  have h1 : ∀ p q, IsReal (dense x (sgnW w1) b1 p q) := dense_isReal _ _ _ hx (sgnW_isReal w1) hb1
  rw [← kbn_eq_rbn (dense x (sgnW w1) b1) g1 be1 h1 hg1 hbe1]
  -- the second layer, fed by signs (reals), is real-valued
  have h2 : ∀ p q, IsReal (dense (kbn (dense x (sgnW w1) b1) g1 be1) (sgnW w2) b2 p q) :=
    dense_isReal _ _ _ (kbn_isReal _ _ _) (sgnW_isReal w2) hb2
  rw [← kbn_eq_rbn _ g2 be2 h2 hg2 hbe2]

end Cert.Spec

end
-- ==== Proof.Stage.lean ====
/-
  What each of the kernel's three stages computes, named as functions of the buffer contents `V` the stage is
  entered with: stage 1 the dense layer of the input (`H1`); stage 2 the dense layer of the signs of the
  scaled-and-shifted first activations (`H2`); stage 3 the same of the second (`H3`).
-/
import proofs.«119830_j18734647345306_2_alg».proof.Proof.Gen.KernelIdeal.Frame
import proofs.«119830_j18734647345306_2_alg».proof.Proof.Spec
import Idealize.ShloMosaic.Lib.ValueIdx

noncomputable section

open Idealize.ShloMosaic Idealize.ShloMosaic.TcCoe Idealize.SL.Sem

namespace Cert.KernelIdeal.Stage

open Cert.KernelIdeal Cert.Spec

variable (V : (c : Dev nD) → (b : Ref sig .tc) → Buf (Elt Ideal) ((c : Thread nD τ).loc b))

/-- Stage 1's pre-normalisation activations: `x · sign(w₁)ᵀ + b₁` of the entry contents. -/
def H1 (c : Dev nD) : Fin 65536 → Fin 512 → EReal :=
  dense (rd2 (a := 65536) (b := 784) (V c main_arg0)) (rd2 (a := 512) (b := 784) (V c main_v0)) (rd1 (a := 512) (V c main_arg2))

/-- Stage 2's: the dense layer of `ksign (h₁ · scale₁ + shift₁)`. -/
def H2 (c : Dev nD) : Fin 65536 → Fin 32 → EReal :=
  dense (fun p k => ksign (rd2 (a := 65536) (b := 512) (V c main_v5_0) p k * rd1 (a := 512) (V c main_v21) k + rd1 (a := 512) (V c main_v23) k))
    (rd2 (a := 32) (b := 512) (V c main_v2)) (rd1 (a := 32) (V c main_arg6))

/-- Stage 3's: the dense layer of `ksign (h₂ · scale₂ + shift₂)`. -/
def H3 (c : Dev nD) : Fin 65536 → Fin 10 → EReal :=
  dense (fun p k => ksign (rd2 (a := 65536) (b := 32) (V c main_v24_0) p k * rd1 (a := 32) (V c main_v40) k + rd1 (a := 32) (V c main_v42) k))
    (rd2 (a := 10) (b := 32) (V c main_v4)) (rd1 (a := 10) (V c main_arg10))

end Cert.KernelIdeal.Stage

end
-- ==== Proof.AsmRegroup.lean ====
/-
  Regrouping a sum over the batch by halves: the rows of the batch are the rows of its two halves, each row once,
  so a sum over the halves of the sums over a half's rows is the sum over the batch.
-/
import proofs.«119830_j18734647345306_2_alg».proof.Proof.Spec
import Mathlib

noncomputable section

namespace Cert.Spec

open scoped BigOperators

/-- A row of the batch is row `j` of half `a` for exactly one pair `(a, j)`: quotient and remainder by 32768. -/
def halfEquiv : Fin 2 × Fin 32768 ≃ Fin 65536 where
  toFun x := half x.1 x.2
  invFun p := (⟨p.val / 32768, by have := p.isLt; omega⟩, ⟨p.val % 32768, Nat.mod_lt _ (by norm_num)⟩)
  left_inv := by
    rintro ⟨a, j⟩
    have ha := a.isLt
    have hj := j.isLt
    apply Prod.ext
    · apply Fin.ext; show (a.val * 32768 + j.val) / 32768 = a.val; omega
    · apply Fin.ext; show (a.val * 32768 + j.val) % 32768 = j.val; omega
  right_inv := by
    intro p
    apply Fin.ext
    show p.val / 32768 * 32768 + p.val % 32768 = p.val
    omega

/-- The regrouping law. -/
theorem sum_half {M : Type*} [AddCommMonoid M] (f : Fin 65536 → M) :
    ∑ a : Fin 2, ∑ j : Fin 32768, f (half a j) = ∑ p : Fin 65536, f p := by
  rw [← Fintype.sum_prod_type' (fun a j => f (half a j))]
  exact Fintype.sum_equiv halfEquiv (fun x => f (half x.1 x.2)) f (fun _ => rfl)

end Cert.Spec

end
-- ==== Proof.LibPlainDot.lean ====
/-
  A plain matrix product read at an entry.

  For dimension numbers that contract the left operand's second axis against the right operand's first, with no
  batch axes — an `M×K` array times a `K×N` array — the contraction's index set is one axis of extent `K`, and the
  operand indices at output entry `(p, q)` and contraction position `k` are `(p, k)` on the left and `(k, q)` on the
  right. So the sum over the contraction index set of the operands' products is the textbook
  `∑ k : Fin K, l (p, k) * r (k, q)`. Stated for any dimension-number record whose six lists are the plain ones, so
  that every printed record of this form meets it by `rfl` hypotheses.
-/
import Idealize.ShloMosaic.Lib.ValueIdx
import Idealize.ShloMosaic.PureOps.Ideal.Laws

noncomputable section

namespace Cert.LibPlainDot

open Idealize.ShloMosaic Idealize.ShloMosaic.ValueIdx

/-- The sum over a plain product's contraction index set, at output entry `(p, q)`, is the sum over `k : Fin K` of
    the left operand at `(p, k)` times the right operand at `(k, q)`, in any commutative additive monoid with a
    product. -/
theorem sum_plain {R : Type} [AddCommMonoid R] [Mul R] {M K N : Nat}
    (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → R) (r : (⟨2, ![K, N]⟩ : Shape).Idx → R) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

end Cert.LibPlainDot

end
-- ==== Proof.Stage3.lean ====
/-
  Stage 3 of the kernel read as a value. The third region's body loads a block of 2048 rows of the second
  activations h₂ (read as extended reals), the scale and shift vectors, the binarised weights w₃ and the bias b₃, and
  stores   (∑ k, ksign (h₂[r,k] · scale₂[k] + shift₂[k]) · w₃[q,k]) + b₃[q]   at entry (r, q) of its block: the scale and
  the shift are one row broadcast over the block's rows, the sign is taken by comparisons, the weights are transposed and
  the product is accumulated into the zero block, the bias is one row broadcast again. Point t of the grid of 32 reads rows
  2048·t … 2048·t + 2047 and writes the same rows of the result; the four small operands are whole at every point. Row p
  of the result therefore lies in the block of point p / 2048, the blocks cover the array, and the array ends holding
  the dense layer H3 of the entry contents, index by index.
-/
import proofs.«119830_j18734647345306_2_alg».proof.Proof.Stage
import proofs.«119830_j18734647345306_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section
open Idealize.ShloMosaic Idealize.ShloMosaic.TcCoe Idealize.SL.Sem
open Idealize.ShloMosaic.Pipeline (Dat)
open Idealize.ShloMosaic.ValueIdx
open scoped BigOperators

namespace Cert.KernelIdeal.Stage
open Cert.KernelIdeal Cert.KernelIdeal.Gen Cert.Spec

namespace S3

/-! ## The body's stored value at an entry of its block -/

/-- The sign by comparisons, on a whole vector, read at an index. -/
theorem signVec_apply (A : FVec Ideal S2048x32 .f32) (h : FTy.bits .bf16 < FTy.bits .f32) (i : S2048x32.Idx) :
    (truncf .bf16 (select (cmpf .ogt (absf A) (broadcast S2048x32 (FloatOps.ofBits (F := Ideal) .f32 0x00000000#32)))
        (select (cmpf .olt A (constant (F := Ideal) S2048x32 .f32 0x00000000#32)) (constant (F := Ideal) S2048x32 .f32 0xBF800000#32)
          (constant (F := Ideal) S2048x32 .f32 0x3F800000#32)) A) h : FVec Ideal S2048x32 .bf16) i = ksign (A i) := rfl

/-- The scaled and shifted block at an entry. -/
theorem lin_apply (x0 : Vec Ideal S2048x32 .bf16) (x1 x2 : Vec Ideal S32 .f32)
    (h1 : S2048x32.ShapeCasts S2048x32) (h2 : FTy.bits .bf16 < FTy.bits .f32) (h3 : S32.ShapeCasts S32)
    (h4 : S32.ShapeCasts S1x32) (h5 : S1x32.Broadcasts S2048x32) (r : Fin 2048) (k : Fin 32) :
    (addf (mulf (extf .f32 (shapeCast S2048x32 x0 h1 : FVec Ideal S2048x32 .bf16) h2)
        (broadcastTo S2048x32 (shapeCast S1x32 (shapeCast S32 x1 h3) h4) h5))
      (broadcastTo S2048x32 (shapeCast S1x32 (shapeCast S32 x2 h3) h4) h5) : FVec Ideal S2048x32 .f32) (ix2 r k)
      = x0 (ix2 r k) * x1 (ix1 k) + x2 (ix1 k) := by
  rw [addf_apply, mulf_apply, extf_apply, shapeCast_self, shapeCast_self, shapeCast_self,
    broadcastTo_1b_ab_apply, broadcastTo_1b_ab_apply, shapeCast_a_1a_apply, shapeCast_a_1a_apply]

/-- The block product into the zero accumulator at an entry: the sum over the contracted coordinate. -/
theorem mm3_apply (L : FVec Ideal S2048x32 .bf16) (R : FVec Ideal S32x10 .bf16) (r : Fin 2048) (q : Fin 10) :
    matmul dot_S2048x32_S32x10_S2048x10_1_0_0_1_n_n none L R (constant (F := Ideal) S2048x10 .f32 0x00000000#32) (ix2 r q)
      = ∑ k : Fin 32, L (ix2 r k) * R (ix2 k q) := by
  show FloatOps.matmul _ none L R (constant (F := Ideal) S2048x10 .f32 0x00000000#32) (ix2 r q) = _
  rw [Ideal.matmul_constant_zero_apply]
  exact Cert.LibPlainDot.sum_plain dot_S2048x32_S32x10_S2048x10_1_0_0_1_n_n rfl rfl rfl rfl rfl rfl L R r q

/-- The body's stored value at an entry of its block: the dense layer of the signs of the scaled and shifted block. -/
theorem pay3_apply (x0 : Vec Ideal S2048x32 .bf16) (x1 x2 : Vec Ideal S32 .f32) (x3 : Vec Ideal S10x32 .bf16)
    (x4 : Vec Ideal S10 .f32) (r : Fin 2048) (q : Fin 10) :
    k2_pay1 (F := Ideal) x0 x1 x2 x3 x4 (ix2 r q)
      = (∑ k : Fin 32, ksign (x0 (ix2 r k) * x1 (ix1 k) + x2 (ix1 k)) * x3 (ix2 q k)) + x4 (ix1 q) := by
  unfold k2_pay1
  refine (addf_apply _ _ _).trans ?_
  refine congrArg₂ (· + ·) ?_ ?_
  · refine (mm3_apply _ _ r q).trans ?_
    refine Finset.sum_congr rfl fun k _ => ?_
    refine congrArg₂ (· * ·) ?_ ?_
    · refine (signVec_apply _ _ _).trans ?_
      exact congrArg ksign (lin_apply x0 x1 x2 _ _ _ _ _ r k)
    · refine (transpose_ix2_apply _ _ k q).trans ?_
      rw [shapeCast_self]
  · exact (broadcastTo_1b_ab_apply _ _ r q).trans (shapeCast_a_1a_apply _ _ 0 q)

/-! ## Each input block read where the result's rows say -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- What the body leaves in the result window's buffer is its one stored value, at any float instance. -/
theorem out3_eq {F : FTy → Type} [FloatOps F] (x0 : Vec F S2048x32 .bf16) (x1 x2 : Vec F S32 .f32)
    (x3 : Vec F S10x32 .bf16) (x4 : Vec F S10 .f32) : out2_5 x0 x1 x2 x3 x4 = k2_pay1 x0 x1 x2 x3 x4 := by
  unfold out2_5
  rw [View.canon_unit_zero hz2]
  simp only [View.ld_unit_zero (S := S2048x32) hz2, View.ld_unit_zero (S := S32) hz1,
    View.ld_unit_zero (S := S10x32) hz2, View.ld_unit_zero (S := S10) hz1]

/-- The printed index maps, decided over the grid: the activations and the result move one block of rows per point,
    the four small operands stay at their one block. -/
theorem idx_facts3 : ∀ t : Fin cfg2.N, win2_0.index t (0 : Fin 2) = t.val ∧ win2_0.index t (1 : Fin 2) = 0
    ∧ win2_1.index t (0 : Fin 1) = 0 ∧ win2_2.index t (0 : Fin 1) = 0
    ∧ win2_3.index t (0 : Fin 2) = 0 ∧ win2_3.index t (1 : Fin 2) = 0 ∧ win2_4.index t (0 : Fin 1) = 0
    ∧ win2_5.index t (0 : Fin 2) = t.val ∧ win2_5.index t (1 : Fin 2) = 0 :=
  (by decide +kernel : ∀ t : Fin grid2.N, _)

/-- The activations' block at point t is rows 2048·t … of the array. -/
theorem blk0_apply (c : Dev nD) (t : Fin cfg2.N) (r : Fin 2048) (k : Fin 32) (p : Fin 65536)
    (hp : p.val = 2048 * t.val + r.val) :
    (iblk2 V c 0 t : Vec Ideal S2048x32 .bf16) (ix2 r k) = rd2 (a := 65536) (b := 32) (V c main_v24_0) p k := by
  obtain ⟨e0, e1, -⟩ := idx_facts3 t
  unfold iblk2 rd2
  rw [View.read_apply]
  show V c main_v24_0 _ = V c main_v24_0 _
  refine congrArg (V c main_v24_0) ?_
  funext a
  apply Fin.ext
  match a with
  | ⟨0, _⟩ => show win2_0.index t (0 : Fin 2) * 2048 + 1 * r.val = p.val; rw [e0, hp]; omega
  | ⟨1, _⟩ => show win2_0.index t (1 : Fin 2) * 32 + 1 * k.val = k.val; rw [e1]; omega

/-- The scale's block at every point is the whole array. -/
theorem blk1_apply (c : Dev nD) (t : Fin cfg2.N) (k : Fin 32) :
    (iblk2 V c 1 t : Vec Ideal S32 .f32) (ix1 k) = rd1 (a := 32) (V c main_v40) k := by
  obtain ⟨-, -, e, -⟩ := idx_facts3 t
  unfold iblk2 rd1
  rw [View.read_apply]
  show V c main_v40 _ = V c main_v40 _
  refine congrArg (V c main_v40) ?_
  funext a
  apply Fin.ext
  match a with
  | ⟨0, _⟩ => show win2_1.index t (0 : Fin 1) * 32 + 1 * k.val = k.val; rw [e]; omega

/-- The shift's block at every point is the whole array. -/
theorem blk2_apply (c : Dev nD) (t : Fin cfg2.N) (k : Fin 32) :
    (iblk2 V c 2 t : Vec Ideal S32 .f32) (ix1 k) = rd1 (a := 32) (V c main_v42) k := by
  obtain ⟨-, -, -, e, -⟩ := idx_facts3 t
  unfold iblk2 rd1
  rw [View.read_apply]
  show V c main_v42 _ = V c main_v42 _
  refine congrArg (V c main_v42) ?_
  funext a
  apply Fin.ext
  match a with
  | ⟨0, _⟩ => show win2_2.index t (0 : Fin 1) * 32 + 1 * k.val = k.val; rw [e]; omega

/-- The weights' block at every point is the whole array. -/
theorem blk3_apply (c : Dev nD) (t : Fin cfg2.N) (q : Fin 10) (k : Fin 32) :
    (iblk2 V c 3 t : Vec Ideal S10x32 .bf16) (ix2 q k) = rd2 (a := 10) (b := 32) (V c main_v4) q k := by
  obtain ⟨-, -, -, -, e0, e1, -⟩ := idx_facts3 t
  unfold iblk2 rd2
  rw [View.read_apply]
  show V c main_v4 _ = V c main_v4 _
  refine congrArg (V c main_v4) ?_
  funext a
  apply Fin.ext
  match a with
  | ⟨0, _⟩ => show win2_3.index t (0 : Fin 2) * 10 + 1 * q.val = q.val; rw [e0]; omega
  | ⟨1, _⟩ => show win2_3.index t (1 : Fin 2) * 32 + 1 * k.val = k.val; rw [e1]; omega

/-- The bias's block at every point is the whole array. -/
theorem blk4_apply (c : Dev nD) (t : Fin cfg2.N) (q : Fin 10) :
    (iblk2 V c 4 t : Vec Ideal S10 .f32) (ix1 q) = rd1 (a := 10) (V c main_arg10) q := by
  obtain ⟨-, -, -, -, -, -, e, -⟩ := idx_facts3 t
  unfold iblk2 rd1
  rw [View.read_apply]
  show V c main_arg10 _ = V c main_arg10 _
  refine congrArg (V c main_arg10) ?_
  funext a
  apply Fin.ext
  match a with
  | ⟨0, _⟩ => show win2_4.index t (0 : Fin 1) * 10 + 1 * q.val = q.val; rw [e]; omega

/-- The body's stored value at point t, entry (r, q) of its block, is the stage's value at row 2048·t + r. -/
theorem pay3_at (c : Dev nD) (t : Fin cfg2.N) (r : Fin 2048) (q : Fin 10) (p : Fin 65536)
    (hp : p.val = 2048 * t.val + r.val) :
    k2_pay1 (F := Ideal) (iblk2 V c 0 t) (iblk2 V c 1 t) (iblk2 V c 2 t) (iblk2 V c 3 t) (iblk2 V c 4 t) (ix2 r q)
      = H3 V c p q := by
  refine (pay3_apply (iblk2 V c 0 t) (iblk2 V c 1 t) (iblk2 V c 2 t) (iblk2 V c 3 t) (iblk2 V c 4 t) r q).trans ?_
  unfold H3 dense
  refine congrArg₂ (· + ·) (Finset.sum_congr rfl fun k _ => ?_) (blk4_apply V c t q)
  refine congrArg₂ (· * ·) (congrArg ksign ?_) (blk3_apply V c t q k)
  exact congrArg₂ (· + ·) (congrArg₂ (· * ·) (blk0_apply V c t r k p hp) (blk1_apply V c t k)) (blk2_apply V c t k)

/-! ## From blocks to the array -/

/-- The same at any index of the block, the row and the column named by equations. -/
theorem pay3_at_idx (c : Dev nD) (t : Fin cfg2.N) (j : S2048x10.Idx) (p : Fin 65536) (q : Fin 10)
    (hp : p.val = 2048 * t.val + (j 0).val) (hq : q.val = (j 1).val) :
    k2_pay1 (F := Ideal) (iblk2 V c 0 t) (iblk2 V c 1 t) (iblk2 V c 2 t) (iblk2 V c 3 t) (iblk2 V c 4 t) j
      = H3 V c p q := by
  obtain ⟨r, q', rfl⟩ : ∃ (r : Fin 2048) (q' : Fin 10), j = ix2 r q' := ⟨j 0, j 1, eq_ix2 j⟩
  obtain rfl : q = q' := Fin.ext hq
  exact pay3_at V c t r q p hp

/-- The stage's value as one array. -/
def G3 (c : Dev nD) : S65536x10.Idx → EReal := fun i => H3 V c (i 0) (i 1)

/-- What point t writes back is block t of the stage's value. -/
theorem flushed3_eq (c : Dev nD) (t : Fin cfg2.N) :
    (dat2 (F := Ideal) V c).flushed 5 t = ((cfg2.win 5).blk t).view.read (Elt Ideal) (G3 V c) := by
  show (cfg2.win 5).cut (grid2.coords t) ((dat2 (F := Ideal) V c).after 5 t) = _
  rw [after2_5, out3_eq]
  obtain ⟨-, -, -, -, -, -, -, e0, e1⟩ := idx_facts3 t
  funext j
  rw [View.read_apply]
  show k2_pay1 (F := Ideal) (iblk2 V c 0 t) (iblk2 V c 1 t) (iblk2 V c 2 t) (iblk2 V c 3 t) (iblk2 V c 4 t) j
    = H3 V c ((((cfg2.win 5).blk t).view.emb j) 0) ((((cfg2.win 5).blk t).view.emb j) 1)
  refine pay3_at_idx V c t j _ _ ?_ ?_
  · show win2_5.index t (0 : Fin 2) * 2048 + 1 * (j 0).val = 2048 * t.val + (j 0).val
    rw [e0]; omega
  · show win2_5.index t (1 : Fin 2) * 10 + 1 * (j 1).val = (j 1).val
    rw [e1]; omega

/-- An index of the result array is in point t's block iff each coordinate is in the block's range on its axis. -/
theorem mem_blk3 (t : Fin cfg2.N) (i : S65536x10.Idx) :
    i ∈ ((cfg2.win 5).blk t).view.set ↔ ∀ a : Fin 2, win2_5.index t a * S2048x10.size a ≤ (i a).val
      ∧ (i a).val < win2_5.index t a * S2048x10.size a + S2048x10.size a := by
  show i ∈ ((View.whole main_v43).slice (win2_5.rect t)).set ↔ _
  rw [View.set_slice_whole, Rect.mem_set_unit]
  exact Iff.rfl

/-- Row p of the result lies in the block of point p / 2048, and every point writes back. -/
theorem cover3 (i : S65536x10.Idx) :
    ∃ t : Fin cfg2.N, (cfg2.win 5).flush t = true ∧ i ∈ ((cfg2.win 5).blk t).view.set := by
  have hi0 : (i 0).val < 65536 := (i 0).isLt
  have hi1 : (i 1).val < 10 := (i 1).isLt
  have hN : cfg2.N = 32 := N_2
  have ht : (i 0).val / 2048 < cfg2.N := by rw [hN]; omega
  obtain ⟨-, -, -, -, -, -, -, e0, e1⟩ := idx_facts3 ⟨(i 0).val / 2048, ht⟩
  refine ⟨⟨(i 0).val / 2048, ht⟩, flush2_5 _, ?_⟩
  rw [mem_blk3]
  intro a
  match a with
  | ⟨0, _⟩ =>
    show win2_5.index ⟨(i 0).val / 2048, ht⟩ (0 : Fin 2) * 2048 ≤ (i 0).val
      ∧ (i 0).val < win2_5.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win2_5.index ⟨(i 0).val / 2048, ht⟩ (1 : Fin 2) * 10 ≤ (i 1).val
      ∧ (i 1).val < win2_5.index ⟨(i 0).val / 2048, ht⟩ (1 : Fin 2) * 10 + 10
    rw [e1]; omega

/-- The result array after the 32 points is the stage's value. -/
theorem arr3 (c : Dev nD) : (dat2 (F := Ideal) V c).arrAt 5 cfg2.N = G3 V c :=
  (dat2 (F := Ideal) V c).arrAt_eq_of_cover 5 (G3 V c) (fun t _ => flushed3_eq V c t) cover3

end S3

variable (V : (c : Dev nD) → (b : Ref sig .tc) → Buf (Elt Ideal) ((c : Thread nD τ).loc b))

/-- After the 32 grid points of region 2, entered with buffer contents V, the result array holds at (p, q) the dense
    layer of the signs of the scaled and shifted second activations. -/
theorem s3_out (c : Dev nD) (p : Fin 65536) (q : Fin 10) :
    (dat2 (F := Ideal) V c).arrAt 5 cfg2.N (ix2 p q) = H3 V c p q := by
  rw [S3.arr3]; rfl

end Cert.KernelIdeal.Stage
end
-- ==== Proof.Folds.lean ====
/-
  What each stage of the kernel program is entered with. Between the three regions the host computes, from the
  column sums and sums of squares the two cores left, the batch statistics: mean `S/N`, variance
  `max (SS/N − mean², 0)`, scale `γ · (var + ε)^(-1/2)` and shift `β − mean · scale`; before the first region it
  takes the sign of the three weight matrices. Read at an entry, each is the streaming arrangement's term
  (`kscale`, `kshift`, `Ideal.sign`) over the launch arguments and the previous region's arrays; every buffer a
  stretch or a region does not write is what it was before.
-/
import proofs.«119830_j18734647345306_2_alg».proof.Proof.Stage
import proofs.«119830_j18734647345306_2_alg».proof.Proof.Consts
import Idealize.ShloMosaic.Lib.Pipeline.Value
import Idealize.ShloMosaic.Lib.ValueLayout
import Idealize.ShloMosaic.Lib.IdealHost
import Idealize.ShloMosaic.PureOps.Ideal.Laws

noncomputable section
open Idealize.ShloMosaic Idealize.ShloMosaic.TcCoe Idealize.SL.Sem
open Idealize.ShloMosaic.Pipeline (Dat)
open Idealize.ShloMosaic.ValueIdx

namespace Cert.KernelIdeal.Fold
open Cert.KernelIdeal Cert.KernelIdeal.Gen Cert.Spec

variable (m : (ℓ : Loc nD τ sig) → Buf (Elt Ideal) ℓ) (ρ : Dev nD → PrngReg) (c : Dev nD)

/-- A stretch of host operations leaves a buffer none of them writes as it was. -/
macro "stretch_keeps" : tactic =>
  `(tactic| (refine StableHlo.after_of_forall_not_mem _ _ (List.forall_iff_forall_mem.mp ?_)
             simp only [hostOps0, hostOps1, hostOps2, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## Auxiliary lemmas -/

namespace Aux

/-! ### The batch statistics a stretch computes, at an entry -/

/-- The two cores' partial column sums, added from the initial value and read as a vector: entry `k` is the
    initial value plus the sum over the two cores of their entries `(a, 0, k)`. -/
theorem colsum {n : ℕ} (x : (⟨3, ![2, 1, n]⟩ : Shape).Idx → EReal)
    (h' : (⟨3, ![2, 1, n]⟩ : Shape).ReducesTo [0] ⟨2, ![1, n]⟩) (hu : 0 < (⟨0, ![]⟩ : Shape).numel)
    (hc : (⟨2, ![1, n]⟩ : Shape).ShapeCasts ⟨1, ![n]⟩) (b : BitVec 32) (k : Fin n) :
    shapeCast ⟨1, ![n]⟩ (Host.reduceAdd (F := Ideal) (φ := .f32) x (constant (F := Ideal) ⟨0, ![]⟩ .f32 b) h' hu) hc (ix1 k)
      = Ideal.ofBits .f32 b + ∑ a : Fin 2, x (ix3 a 0 k) := by
  have h : (⟨3, ![2, 1, n]⟩ : Shape).Reduces [0] ⟨2, ![1, n]⟩ := ⟨rfl, Nat.zero_lt_two, fun b => by fin_cases b <;> rfl⟩
  rw [shapeCast_1a_a_apply, hostReduceAdd_apply, Ideal.hostReduceAdd_single h' h]
  refine congrArg₂ (· + ·) rfl (Finset.sum_congr rfl fun a _ => congrArg x ?_)
  funext d
  fin_cases d <;> rfl

theorem hdivf_apply {s : Shape} {φ : FTy} (a b : FVec Ideal s φ) (i : s.Idx) : Host.divf a b i = Ideal.div (a i) (b i) := rfl

theorem hrsqrt_apply {s : Shape} {φ : FTy} (a : FVec Ideal s φ) (i : s.Idx) : Host.rsqrt a i = Ideal.rsqrt (a i) := rfl

section Stats
variable {n : ℕ} (g be : FVec Ideal ⟨1, ![n]⟩ .f32) (x1 x2 : FVec Ideal ⟨3, ![2, 1, n]⟩ .f32)
  (h' : (⟨3, ![2, 1, n]⟩ : Shape).ReducesTo [0] ⟨2, ![1, n]⟩) (hu : 0 < (⟨0, ![]⟩ : Shape).numel)
  (hc : (⟨2, ![1, n]⟩ : Shape).ShapeCasts ⟨1, ![n]⟩) (hb : (⟨0, ![]⟩ : Shape).BroadcastsInDim ⟨1, ![n]⟩ ![])
/-- The scale `γ · (var + ε)^(-1/2)` as the stretch computes it, at entry `k`. -/
theorem scale_at (k : Fin n) :
    rd1 (a := n)
      (mulf g
        (Host.rsqrt
          (addf
            (maximumf
              (subf
                (Host.divf
                  (fun i => shapeCast ⟨1, ![n]⟩ (Host.reduceAdd x2 (constant ⟨0, ![]⟩ .f32 0#32) h' hu) hc i)
                  (broadcastInDim ⟨1, ![n]⟩ ![] hb (constant ⟨0, ![]⟩ .f32 0x47800000#32)))
                (mulf
                  (Host.divf
                    (fun i => shapeCast ⟨1, ![n]⟩ (Host.reduceAdd x1 (constant ⟨0, ![]⟩ .f32 0#32) h' hu) hc i)
                    (broadcastInDim ⟨1, ![n]⟩ ![] hb (constant ⟨0, ![]⟩ .f32 0x47800000#32)))
                  (Host.divf
                    (fun i => shapeCast ⟨1, ![n]⟩ (Host.reduceAdd x1 (constant ⟨0, ![]⟩ .f32 0#32) h' hu) hc i)
                    (broadcastInDim ⟨1, ![n]⟩ ![] hb (constant ⟨0, ![]⟩ .f32 0x47800000#32)))))
              (broadcastInDim ⟨1, ![n]⟩ ![] hb (constant ⟨0, ![]⟩ .f32 0#32)))
            (broadcastInDim ⟨1, ![n]⟩ ![] hb (constant ⟨0, ![]⟩ .f32 0x3727C5AC#32))))) k
      = kscale (rd1 (a := n) g k) (z32 + ∑ a : Fin 2, rd3 (a := 2) (b := 1) (d := n) x1 a 0 k)
          (z32 + ∑ a : Fin 2, rd3 (a := 2) (b := 1) (d := n) x2 a 0 k) := by
  simp only [rd1, rd3, kscale, kvar, kmean, mulf_apply, addf_apply, subf_apply, maximumf_apply, hdivf_apply, hrsqrt_apply,
    colsum]
  rw [broadcastInDim_scalar_apply, broadcastInDim_scalar_apply, broadcastInDim_scalar_apply]
  rfl

/-- The shift `β − mean · scale` as the stretch computes it, at entry `k`. -/
theorem shift_at (k : Fin n) :
    rd1 (a := n)
      (subf be
        (mulf
          (Host.divf
            (fun i => shapeCast ⟨1, ![n]⟩ (Host.reduceAdd x1 (constant ⟨0, ![]⟩ .f32 0#32) h' hu) hc i)
            (broadcastInDim ⟨1, ![n]⟩ ![] hb (constant ⟨0, ![]⟩ .f32 0x47800000#32)))
          (mulf g
            (Host.rsqrt
              (addf
                (maximumf
                  (subf
                    (Host.divf
                      (fun i => shapeCast ⟨1, ![n]⟩ (Host.reduceAdd x2 (constant ⟨0, ![]⟩ .f32 0#32) h' hu) hc i)
                      (broadcastInDim ⟨1, ![n]⟩ ![] hb (constant ⟨0, ![]⟩ .f32 0x47800000#32)))
                    (mulf
                      (Host.divf
                        (fun i => shapeCast ⟨1, ![n]⟩ (Host.reduceAdd x1 (constant ⟨0, ![]⟩ .f32 0#32) h' hu) hc i)
                        (broadcastInDim ⟨1, ![n]⟩ ![] hb (constant ⟨0, ![]⟩ .f32 0x47800000#32)))
                      (Host.divf
                        (fun i => shapeCast ⟨1, ![n]⟩ (Host.reduceAdd x1 (constant ⟨0, ![]⟩ .f32 0#32) h' hu) hc i)
                        (broadcastInDim ⟨1, ![n]⟩ ![] hb (constant ⟨0, ![]⟩ .f32 0x47800000#32)))))
                  (broadcastInDim ⟨1, ![n]⟩ ![] hb (constant ⟨0, ![]⟩ .f32 0#32)))
                (broadcastInDim ⟨1, ![n]⟩ ![] hb (constant ⟨0, ![]⟩ .f32 0x3727C5AC#32))))))) k
      = kshift (rd1 (a := n) be k) (rd1 (a := n) g k) (z32 + ∑ a : Fin 2, rd3 (a := 2) (b := 1) (d := n) x1 a 0 k)
          (z32 + ∑ a : Fin 2, rd3 (a := 2) (b := 1) (d := n) x2 a 0 k) := by
  simp only [rd1, rd3, kshift, kscale, kvar, kmean, mulf_apply, addf_apply, subf_apply, maximumf_apply, hdivf_apply, hrsqrt_apply,
    colsum]
  rw [broadcastInDim_scalar_apply, broadcastInDim_scalar_apply, broadcastInDim_scalar_apply]
  rfl

end Stats

/-! ### The stretches' results over any valuation they start from -/

/-- The first stretch's three results over any valuation: the signs of the three weight matrices. -/
theorem v0_eq (X : Valuation τ sig (Elt Ideal)) (q : Fin 512) (k : Fin 784) :
    rd2 (a := 512) (b := 784) (StableHlo.after hostOps0 X (Proc.devRef .tc main_v0)) q k
      = Ideal.sign (rd2 (a := 512) (b := 784) (X (Proc.devRef .tc main_arg1)) q k) := by
  simp only [hostOps0]
  after_results
  rfl

theorem v2_eq (X : Valuation τ sig (Elt Ideal)) (q : Fin 32) (k : Fin 512) :
    rd2 (a := 32) (b := 512) (StableHlo.after hostOps0 X (Proc.devRef .tc main_v2)) q k
      = Ideal.sign (rd2 (a := 32) (b := 512) (X (Proc.devRef .tc main_arg5)) q k) := by
  simp only [hostOps0]
  after_results
  rfl

theorem v4_eq (X : Valuation τ sig (Elt Ideal)) (q : Fin 10) (k : Fin 32) :
    rd2 (a := 10) (b := 32) (StableHlo.after hostOps0 X (Proc.devRef .tc main_v4)) q k
      = Ideal.sign (rd2 (a := 10) (b := 32) (X (Proc.devRef .tc main_arg9)) q k) := by
  simp only [hostOps0]
  after_results
  rfl

set_option maxHeartbeats 1600000 in
theorem v21_eq (X : Valuation τ sig (Elt Ideal)) (k : Fin 512) :
    rd1 (a := 512) (StableHlo.after hostOps1 X (Proc.devRef .tc main_v21)) k
      = kscale (rd1 (a := 512) (X (Proc.devRef .tc main_arg3)) k)
          (z32 + ∑ a : Fin 2, rd3 (a := 2) (b := 1) (d := 512) (X (Proc.devRef .tc main_v5_1)) a 0 k)
          (z32 + ∑ a : Fin 2, rd3 (a := 2) (b := 1) (d := 512) (X (Proc.devRef .tc main_v5_2)) a 0 k) := by
  simp only [hostOps1]
  after_results_simp
  exact scale_at _ _ _ _ _ _ _ k

set_option maxHeartbeats 1600000 in
theorem v23_eq (X : Valuation τ sig (Elt Ideal)) (k : Fin 512) :
    rd1 (a := 512) (StableHlo.after hostOps1 X (Proc.devRef .tc main_v23)) k
      = kshift (rd1 (a := 512) (X (Proc.devRef .tc main_arg4)) k) (rd1 (a := 512) (X (Proc.devRef .tc main_arg3)) k)
          (z32 + ∑ a : Fin 2, rd3 (a := 2) (b := 1) (d := 512) (X (Proc.devRef .tc main_v5_1)) a 0 k)
          (z32 + ∑ a : Fin 2, rd3 (a := 2) (b := 1) (d := 512) (X (Proc.devRef .tc main_v5_2)) a 0 k) := by
  simp only [hostOps1]
  after_results_simp
  exact shift_at _ _ _ _ _ _ _ _ k

/-! ### Buffers a region or a stretch leaves as they were -/

theorem W2_arg3 : W2 m ρ c (Proc.devRef .tc main_arg3) = m ((c.tc : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := by stretch_keeps
    _ = m ((c.tc : Thread nD τ).loc main_arg3) := rfl

theorem W2_arg4 : W2 m ρ c (Proc.devRef .tc main_arg4) = m ((c.tc : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := by stretch_keeps
    _ = m ((c.tc : Thread nD τ).loc main_arg4) := rfl

theorem W2_v5_1 : W2 m ρ c (Proc.devRef .tc main_v5_1) = (dat0 (V1 m ρ) c).arrAt 4 cfg0.N := W2_arr m ρ c 4

theorem W2_v5_2 : W2 m ρ c (Proc.devRef .tc main_v5_2) = (dat0 (V1 m ρ) c).arrAt 5 cfg0.N := W2_arr m ρ c 5

theorem W3_v2 : W3 m ρ c (Proc.devRef .tc main_v2) = W1 m ρ c (Proc.devRef .tc main_v2) :=
  calc W3 m ρ c (Proc.devRef .tc main_v2)
    _ = W2 m ρ c (Proc.devRef .tc main_v2) := by stretch_keeps
    _ = W1 m ρ c (Proc.devRef .tc main_v2) := W2_of_ne m ρ c main_v2 (by decide)

set_option maxHeartbeats 1600000 in
theorem v40_eq (X : Valuation τ sig (Elt Ideal)) (k : Fin 32) :
    rd1 (a := 32) (StableHlo.after hostOps2 X (Proc.devRef .tc main_v40)) k
      = kscale (rd1 (a := 32) (X (Proc.devRef .tc main_arg7)) k)
          (z32 + ∑ a : Fin 2, rd3 (a := 2) (b := 1) (d := 32) (X (Proc.devRef .tc main_v24_1)) a 0 k)
          (z32 + ∑ a : Fin 2, rd3 (a := 2) (b := 1) (d := 32) (X (Proc.devRef .tc main_v24_2)) a 0 k) := by
  simp only [hostOps2]
  after_results_simp
  exact scale_at _ _ _ _ _ _ _ k

set_option maxHeartbeats 1600000 in
theorem v42_eq (X : Valuation τ sig (Elt Ideal)) (k : Fin 32) :
    rd1 (a := 32) (StableHlo.after hostOps2 X (Proc.devRef .tc main_v42)) k
      = kshift (rd1 (a := 32) (X (Proc.devRef .tc main_arg8)) k) (rd1 (a := 32) (X (Proc.devRef .tc main_arg7)) k)
          (z32 + ∑ a : Fin 2, rd3 (a := 2) (b := 1) (d := 32) (X (Proc.devRef .tc main_v24_1)) a 0 k)
          (z32 + ∑ a : Fin 2, rd3 (a := 2) (b := 1) (d := 32) (X (Proc.devRef .tc main_v24_2)) a 0 k) := by
  simp only [hostOps2]
  after_results_simp
  exact shift_at _ _ _ _ _ _ _ _ k

theorem W4_arg7 : W4 m ρ c (Proc.devRef .tc main_arg7) = m ((c.tc : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := by stretch_keeps
    _ = W1 m ρ c (Proc.devRef .tc main_arg7) := W2_of_ne m ρ c main_arg7 (by decide)
    _ = W0 m ρ c (Proc.devRef .tc main_arg7) := by stretch_keeps
    _ = m ((c.tc : Thread nD τ).loc main_arg7) := rfl

theorem W4_arg8 : W4 m ρ c (Proc.devRef .tc main_arg8) = m ((c.tc : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := by stretch_keeps
    _ = W1 m ρ c (Proc.devRef .tc main_arg8) := W2_of_ne m ρ c main_arg8 (by decide)
    _ = W0 m ρ c (Proc.devRef .tc main_arg8) := by stretch_keeps
    _ = m ((c.tc : Thread nD τ).loc main_arg8) := rfl

theorem W4_v24_1 : W4 m ρ c (Proc.devRef .tc main_v24_1) = (dat1 (V3 m ρ) c).arrAt 6 cfg1.N := W4_arr m ρ c 6

theorem W4_v24_2 : W4 m ρ c (Proc.devRef .tc main_v24_2) = (dat1 (V3 m ρ) c).arrAt 7 cfg1.N := W4_arr m ρ c 7

theorem W5_v4 : W5 m ρ c (Proc.devRef .tc main_v4) = W1 m ρ c (Proc.devRef .tc main_v4) :=
  calc W5 m ρ c (Proc.devRef .tc main_v4)
    _ = W4 m ρ c (Proc.devRef .tc main_v4) := by stretch_keeps
    _ = W3 m ρ c (Proc.devRef .tc main_v4) := W4_of_ne m ρ c main_v4 (by decide)
    _ = W2 m ρ c (Proc.devRef .tc main_v4) := by stretch_keeps
    _ = W1 m ρ c (Proc.devRef .tc main_v4) := W2_of_ne m ρ c main_v4 (by decide)

end Aux
open Aux

/-! stage 1's entry -/
theorem e1_x : V1 m ρ c main_arg0 = m ((c.tc : Thread nD τ).loc main_arg0) :=
  calc W1 m ρ c (Proc.devRef .tc main_arg0)
    _ = W0 m ρ c (Proc.devRef .tc main_arg0) := by stretch_keeps
    _ = m ((c.tc : Thread nD τ).loc main_arg0) := rfl
theorem e1_b : V1 m ρ c main_arg2 = m ((c.tc : Thread nD τ).loc main_arg2) :=
  calc W1 m ρ c (Proc.devRef .tc main_arg2)
    _ = W0 m ρ c (Proc.devRef .tc main_arg2) := by stretch_keeps
    _ = m ((c.tc : Thread nD τ).loc main_arg2) := rfl
theorem e1_w (q : Fin 512) (k : Fin 784) :
    rd2 (a := 512) (b := 784) (V1 m ρ c main_v0) q k = Ideal.sign (rd2 (a := 512) (b := 784) (m ((c.tc : Thread nD τ).loc main_arg1)) q k) := by
  show rd2 (a := 512) (b := 784) (StableHlo.after hostOps0 (W0 m ρ c) (Proc.devRef .tc main_v0)) q k = _
  rw [v0_eq]

/-! stage 2's entry -/
theorem e2_h : V3 m ρ c main_v5_0 = (dat0 (V1 m ρ) c).arrAt 3 cfg0.N :=
  calc W3 m ρ c (Proc.devRef .tc main_v5_0)
    _ = W2 m ρ c (Proc.devRef .tc main_v5_0) := by stretch_keeps
    _ = (dat0 (V1 m ρ) c).arrAt 3 cfg0.N := W2_arr m ρ c 3
theorem e2_scale (k : Fin 512) :
    rd1 (a := 512) (V3 m ρ c main_v21) k
      = kscale (rd1 (a := 512) (m ((c.tc : Thread nD τ).loc main_arg3)) k)
          (z32 + ∑ a : Fin 2, rd3 (a := 2) (b := 1) (d := 512) ((dat0 (V1 m ρ) c).arrAt 4 cfg0.N) a 0 k)
          (z32 + ∑ a : Fin 2, rd3 (a := 2) (b := 1) (d := 512) ((dat0 (V1 m ρ) c).arrAt 5 cfg0.N) a 0 k) := by
  show rd1 (a := 512) (StableHlo.after hostOps1 (W2 m ρ c) (Proc.devRef .tc main_v21)) k = _
  rw [v21_eq, W2_arg3, W2_v5_1, W2_v5_2]
theorem e2_shift (k : Fin 512) :
    rd1 (a := 512) (V3 m ρ c main_v23) k
      = kshift (rd1 (a := 512) (m ((c.tc : Thread nD τ).loc main_arg4)) k) (rd1 (a := 512) (m ((c.tc : Thread nD τ).loc main_arg3)) k)
          (z32 + ∑ a : Fin 2, rd3 (a := 2) (b := 1) (d := 512) ((dat0 (V1 m ρ) c).arrAt 4 cfg0.N) a 0 k)
          (z32 + ∑ a : Fin 2, rd3 (a := 2) (b := 1) (d := 512) ((dat0 (V1 m ρ) c).arrAt 5 cfg0.N) a 0 k) := by
  show rd1 (a := 512) (StableHlo.after hostOps1 (W2 m ρ c) (Proc.devRef .tc main_v23)) k = _
  rw [v23_eq, W2_arg3, W2_arg4, W2_v5_1, W2_v5_2]
theorem e2_w (q : Fin 32) (k : Fin 512) :
    rd2 (a := 32) (b := 512) (V3 m ρ c main_v2) q k = Ideal.sign (rd2 (a := 32) (b := 512) (m ((c.tc : Thread nD τ).loc main_arg5)) q k) := by
  show rd2 (a := 32) (b := 512) (W3 m ρ c (Proc.devRef .tc main_v2)) q k = _
  rw [W3_v2]
  exact v2_eq (W0 m ρ c) q k
theorem e2_b : V3 m ρ c main_arg6 = m ((c.tc : Thread nD τ).loc main_arg6) :=
  calc W3 m ρ c (Proc.devRef .tc main_arg6)
    _ = W2 m ρ c (Proc.devRef .tc main_arg6) := by stretch_keeps
    _ = W1 m ρ c (Proc.devRef .tc main_arg6) := W2_of_ne m ρ c main_arg6 (by decide)
    _ = W0 m ρ c (Proc.devRef .tc main_arg6) := by stretch_keeps
    _ = m ((c.tc : Thread nD τ).loc main_arg6) := rfl

/-! stage 3's entry -/
theorem e3_h : V5 m ρ c main_v24_0 = (dat1 (V3 m ρ) c).arrAt 5 cfg1.N :=
  calc W5 m ρ c (Proc.devRef .tc main_v24_0)
    _ = W4 m ρ c (Proc.devRef .tc main_v24_0) := by stretch_keeps
    _ = (dat1 (V3 m ρ) c).arrAt 5 cfg1.N := W4_arr m ρ c 5
theorem e3_scale (k : Fin 32) :
    rd1 (a := 32) (V5 m ρ c main_v40) k
      = kscale (rd1 (a := 32) (m ((c.tc : Thread nD τ).loc main_arg7)) k)
          (z32 + ∑ a : Fin 2, rd3 (a := 2) (b := 1) (d := 32) ((dat1 (V3 m ρ) c).arrAt 6 cfg1.N) a 0 k)
          (z32 + ∑ a : Fin 2, rd3 (a := 2) (b := 1) (d := 32) ((dat1 (V3 m ρ) c).arrAt 7 cfg1.N) a 0 k) := by
  show rd1 (a := 32) (StableHlo.after hostOps2 (W4 m ρ c) (Proc.devRef .tc main_v40)) k = _
  rw [v40_eq, W4_arg7, W4_v24_1, W4_v24_2]
theorem e3_shift (k : Fin 32) :
    rd1 (a := 32) (V5 m ρ c main_v42) k
      = kshift (rd1 (a := 32) (m ((c.tc : Thread nD τ).loc main_arg8)) k) (rd1 (a := 32) (m ((c.tc : Thread nD τ).loc main_arg7)) k)
          (z32 + ∑ a : Fin 2, rd3 (a := 2) (b := 1) (d := 32) ((dat1 (V3 m ρ) c).arrAt 6 cfg1.N) a 0 k)
          (z32 + ∑ a : Fin 2, rd3 (a := 2) (b := 1) (d := 32) ((dat1 (V3 m ρ) c).arrAt 7 cfg1.N) a 0 k) := by
  show rd1 (a := 32) (StableHlo.after hostOps2 (W4 m ρ c) (Proc.devRef .tc main_v42)) k = _
  rw [v42_eq, W4_arg7, W4_arg8, W4_v24_1, W4_v24_2]
theorem e3_w (q : Fin 10) (k : Fin 32) :
    rd2 (a := 10) (b := 32) (V5 m ρ c main_v4) q k = Ideal.sign (rd2 (a := 10) (b := 32) (m ((c.tc : Thread nD τ).loc main_arg9)) q k) := by
  show rd2 (a := 10) (b := 32) (W5 m ρ c (Proc.devRef .tc main_v4)) q k = _
  rw [W5_v4]
  exact v4_eq (W0 m ρ c) q k
theorem e3_b : V5 m ρ c main_arg10 = m ((c.tc : Thread nD τ).loc main_arg10) :=
  calc W5 m ρ c (Proc.devRef .tc main_arg10)
    _ = W4 m ρ c (Proc.devRef .tc main_arg10) := by stretch_keeps
    _ = W3 m ρ c (Proc.devRef .tc main_arg10) := W4_of_ne m ρ c main_arg10 (by decide)
    _ = W2 m ρ c (Proc.devRef .tc main_arg10) := by stretch_keeps
    _ = W1 m ρ c (Proc.devRef .tc main_arg10) := W2_of_ne m ρ c main_arg10 (by decide)
    _ = W0 m ρ c (Proc.devRef .tc main_arg10) := by stretch_keeps
    _ = m ((c.tc : Thread nD τ).loc main_arg10) := rfl

/-! the result -/
theorem out_eq : W6 m ρ c (Proc.devRef .tc main_v43) = (dat2 (V5 m ρ) c).arrAt 5 cfg2.N := W6_arr m ρ c 5

end Cert.KernelIdeal.Fold
end
-- ==== Proof.Stage1Pieces.lean ====
import proofs.«119830_j18734647345306_2_alg».proof.Proof.Stage
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-!
  What each control case of stage 1's body leaves in its three output buffers, as values: the activation block is the
  dense layer's term of the three input blocks; each statistics row is the carried row (zero at the first point of a
  sweep) plus the block's column sums, resp. sums of squares.
-/
namespace Cert.KernelIdeal.Stage
open Cert.KernelIdeal Cert.KernelIdeal.Gen Cert.Spec
variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The first point of a sweep: the activation block. -/
theorem out_A_3 (c : Dev nD) (i : grid0.Coords) (a2 : Memref sig .tc .vmem S1024x784 .f32) (h2 : a2.IsWhole) (a3 : Memref sig .tc .vmem S512x784 .f32) (h3 : a3.IsWhole) (a4 : Memref sig .tc .vmem S512 .f32) (h4 : a4.IsWhole) (a5 : Memref sig .tc .vmem S1024x512 .f32) (h5 : a5.IsWhole) (a6 : Memref sig .tc .vmem S1x1x512 .f32) (h6 : a6.IsWhole) (a7 : Memref sig .tc .vmem S1x1x512 .f32) (h7 : a7.IsWhole) (hc : cond0_0 i) (x0 : Vec F S1024x784 .f32) (x1 : Vec F S512x784 .f32) (x2 : Vec F S512 .f32) :
    out0_A_3 c i a2 h2 a3 h3 a4 h4 a5 h5 a6 h6 a7 h7 hc x0 x1 x2 = k0_pay3 x0 x1 x2 := by
  unfold out0_A_3
  rw [View.read_writes_eq_canon _ _ _ (cover0_A_3 c i a2 h2 a3 h3 a4 h4 a5 h5 a6 h6 a7 h7 hc x0 x1 x2)]
  unfold kernelRun0_A
  dsimp only
  rw [View.canon_unit_zero hz2]
  simp only [View.readAt_eq_ld, h2.read_unread, h3.read_unread, h4.read_unread, h6.read_unread, h7.read_unread, View.ld_unit_zero (S := S1024x784) hz2, View.ld_unit_zero (S := S512x784) hz2, View.ld_unit_zero (S := S512) hz1, View.ld_unit_zero (S := S1x1x512) hz3]

/-- The first point of a sweep: the sums row starts from the stored zero row. -/
theorem out_A_4 (c : Dev nD) (i : grid0.Coords) (a2 : Memref sig .tc .vmem S1024x784 .f32) (h2 : a2.IsWhole) (a3 : Memref sig .tc .vmem S512x784 .f32) (h3 : a3.IsWhole) (a4 : Memref sig .tc .vmem S512 .f32) (h4 : a4.IsWhole) (a5 : Memref sig .tc .vmem S1024x512 .f32) (h5 : a5.IsWhole) (a6 : Memref sig .tc .vmem S1x1x512 .f32) (h6 : a6.IsWhole) (a7 : Memref sig .tc .vmem S1x1x512 .f32) (h7 : a7.IsWhole) (hc : cond0_0 i) (x0 : Vec F S1024x784 .f32) (x1 : Vec F S512x784 .f32) (x2 : Vec F S512 .f32) :
    out0_A_4 c i a2 h2 a3 h3 a4 h4 a5 h5 a6 h6 a7 h7 hc x0 x1 x2 = k0_pay4 x0 x1 x2 k0_pay1 := by
  unfold out0_A_4
  rw [View.read_writes_eq_canon _ _ _ (cover0_A_4 c i a2 h2 a3 h3 a4 h4 a5 h5 a6 h6 a7 h7 hc x0 x1 x2)]
  unfold kernelRun0_A
  dsimp only
  sl_unfold_words
  rw [View.canon_cons_unit_zero (S := S1x1x512) hz3, View.readCov_unit_zero (S := S1x1x512) _ hz3]
  simp only [View.readAt_eq_ld, h2.read_unread, h3.read_unread, h4.read_unread, h6.read_unread, h7.read_unread, View.ld_unit_zero (S := S1024x784) hz2, View.ld_unit_zero (S := S512x784) hz2, View.ld_unit_zero (S := S512) hz1, View.ld_unit_zero (S := S1x1x512) hz3]

/-- The first point of a sweep: the sums-of-squares row starts from the stored zero row. -/
theorem out_A_5 (c : Dev nD) (i : grid0.Coords) (a2 : Memref sig .tc .vmem S1024x784 .f32) (h2 : a2.IsWhole) (a3 : Memref sig .tc .vmem S512x784 .f32) (h3 : a3.IsWhole) (a4 : Memref sig .tc .vmem S512 .f32) (h4 : a4.IsWhole) (a5 : Memref sig .tc .vmem S1024x512 .f32) (h5 : a5.IsWhole) (a6 : Memref sig .tc .vmem S1x1x512 .f32) (h6 : a6.IsWhole) (a7 : Memref sig .tc .vmem S1x1x512 .f32) (h7 : a7.IsWhole) (hc : cond0_0 i) (x0 : Vec F S1024x784 .f32) (x1 : Vec F S512x784 .f32) (x2 : Vec F S512 .f32) :
    out0_A_5 c i a2 h2 a3 h3 a4 h4 a5 h5 a6 h6 a7 h7 hc x0 x1 x2 = k0_pay5 x0 x1 x2 k0_pay2 := by
  unfold out0_A_5
  rw [View.read_writes_eq_canon _ _ _ (cover0_A_5 c i a2 h2 a3 h3 a4 h4 a5 h5 a6 h6 a7 h7 hc x0 x1 x2)]
  unfold kernelRun0_A
  dsimp only
  sl_unfold_words
  rw [View.canon_cons_unit_zero (S := S1x1x512) hz3, View.readCov_unit_zero (S := S1x1x512) _ hz3]
  simp only [View.readAt_eq_ld, h2.read_unread, h3.read_unread, h4.read_unread, h6.read_unread, h7.read_unread, View.ld_unit_zero (S := S1024x784) hz2, View.ld_unit_zero (S := S512x784) hz2, View.ld_unit_zero (S := S512) hz1, View.ld_unit_zero (S := S1x1x512) hz3]

/-- A later point of a sweep: the activation block. -/
theorem out_B_3 (c : Dev nD) (i : grid0.Coords) (a2 : Memref sig .tc .vmem S1024x784 .f32) (h2 : a2.IsWhole) (a3 : Memref sig .tc .vmem S512x784 .f32) (h3 : a3.IsWhole) (a4 : Memref sig .tc .vmem S512 .f32) (h4 : a4.IsWhole) (a5 : Memref sig .tc .vmem S1024x512 .f32) (h5 : a5.IsWhole) (a6 : Memref sig .tc .vmem S1x1x512 .f32) (h6 : a6.IsWhole) (a7 : Memref sig .tc .vmem S1x1x512 .f32) (h7 : a7.IsWhole) (hc : ¬cond0_0 i) (x0 : Vec F S1024x784 .f32) (x1 : Vec F S512x784 .f32) (x2 : Vec F S512 .f32) (xo4 xo5 : Vec F S1x1x512 .f32) :
    out0_B_3 c i a2 h2 a3 h3 a4 h4 a5 h5 a6 h6 a7 h7 hc x0 x1 x2 xo4 xo5 = k0_pay3 x0 x1 x2 := by
  unfold out0_B_3
  rw [View.read_writes_eq_canon _ _ _ (cover0_B_3 c i a2 h2 a3 h3 a4 h4 a5 h5 a6 h6 a7 h7 hc x0 x1 x2 xo4 xo5)]
  unfold kernelRun0_B
  dsimp only
  rw [View.canon_unit_zero hz2]
  simp only [View.readAt_eq_ld, h2.read_unread, h3.read_unread, h4.read_unread, h6.read_unread, h7.read_unread, View.ld_unit_zero (S := S1024x784) hz2, View.ld_unit_zero (S := S512x784) hz2, View.ld_unit_zero (S := S512) hz1, View.ld_unit_zero (S := S1x1x512) hz3]

/-- A later point of a sweep: the carried sums row plus the block's. -/
theorem out_B_4 (c : Dev nD) (i : grid0.Coords) (a2 : Memref sig .tc .vmem S1024x784 .f32) (h2 : a2.IsWhole) (a3 : Memref sig .tc .vmem S512x784 .f32) (h3 : a3.IsWhole) (a4 : Memref sig .tc .vmem S512 .f32) (h4 : a4.IsWhole) (a5 : Memref sig .tc .vmem S1024x512 .f32) (h5 : a5.IsWhole) (a6 : Memref sig .tc .vmem S1x1x512 .f32) (h6 : a6.IsWhole) (a7 : Memref sig .tc .vmem S1x1x512 .f32) (h7 : a7.IsWhole) (hc : ¬cond0_0 i) (x0 : Vec F S1024x784 .f32) (x1 : Vec F S512x784 .f32) (x2 : Vec F S512 .f32) (xo4 xo5 : Vec F S1x1x512 .f32) :
    out0_B_4 c i a2 h2 a3 h3 a4 h4 a5 h5 a6 h6 a7 h7 hc x0 x1 x2 xo4 xo5 = k0_pay4 x0 x1 x2 xo4 := by
  unfold out0_B_4
  rw [View.read_writes_eq_canon _ _ _ (cover0_B_4 c i a2 h2 a3 h3 a4 h4 a5 h5 a6 h6 a7 h7 hc x0 x1 x2 xo4 xo5)]
  unfold kernelRun0_B
  dsimp only
  rw [View.canon_unit_zero hz3]
  simp only [View.readAt_eq_ld, h2.read_unread, h3.read_unread, h4.read_unread, h6.read_unread, h7.read_unread, View.ld_unit_zero (S := S1024x784) hz2, View.ld_unit_zero (S := S512x784) hz2, View.ld_unit_zero (S := S512) hz1, View.ld_unit_zero (S := S1x1x512) hz3]

/-- A later point of a sweep: the carried sums-of-squares row plus the block's. -/
theorem out_B_5 (c : Dev nD) (i : grid0.Coords) (a2 : Memref sig .tc .vmem S1024x784 .f32) (h2 : a2.IsWhole) (a3 : Memref sig .tc .vmem S512x784 .f32) (h3 : a3.IsWhole) (a4 : Memref sig .tc .vmem S512 .f32) (h4 : a4.IsWhole) (a5 : Memref sig .tc .vmem S1024x512 .f32) (h5 : a5.IsWhole) (a6 : Memref sig .tc .vmem S1x1x512 .f32) (h6 : a6.IsWhole) (a7 : Memref sig .tc .vmem S1x1x512 .f32) (h7 : a7.IsWhole) (hc : ¬cond0_0 i) (x0 : Vec F S1024x784 .f32) (x1 : Vec F S512x784 .f32) (x2 : Vec F S512 .f32) (xo4 xo5 : Vec F S1x1x512 .f32) :
    out0_B_5 c i a2 h2 a3 h3 a4 h4 a5 h5 a6 h6 a7 h7 hc x0 x1 x2 xo4 xo5 = k0_pay5 x0 x1 x2 xo5 := by
  unfold out0_B_5
  rw [View.read_writes_eq_canon _ _ _ (cover0_B_5 c i a2 h2 a3 h3 a4 h4 a5 h5 a6 h6 a7 h7 hc x0 x1 x2 xo4 xo5)]
  unfold kernelRun0_B
  dsimp only
  rw [View.canon_unit_zero hz3]
  simp only [View.readAt_eq_ld, h2.read_unread, h3.read_unread, h4.read_unread, h6.read_unread, h7.read_unread, View.ld_unit_zero (S := S1024x784) hz2, View.ld_unit_zero (S := S512x784) hz2, View.ld_unit_zero (S := S512) hz1, View.ld_unit_zero (S := S1x1x512) hz3]

end Cert.KernelIdeal.Stage
end
-- ==== Proof.Stage1Pay.lean ====
import proofs.«119830_j18734647345306_2_alg».proof.Proof.Gen.KernelIdeal.Skeleton
import proofs.«119830_j18734647345306_2_alg».proof.Proof.Spec
import proofs.«119830_j18734647345306_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

/-!
  Stage 1's three stored values read at an entry, over the extended reals: the activation block at `(r, q)` is
  `∑ₖ x(r, k) · w(q, k) + b(q)`; the statistics rows at column `q` are the carried row there plus the block's column
  sum `∑ᵣ h(r, q)`, resp. `∑ᵣ h(r, q)²`.
-/
namespace Cert.KernelIdeal.Stage
open Cert.KernelIdeal Cert.KernelIdeal.Gen Cert.Spec

/-- The activation block at `(r, q)`. -/
theorem pay3_apply (x0 : FVec Ideal S1024x784 .f32) (x1 : FVec Ideal S512x784 .f32) (x2 : FVec Ideal S512 .f32)
    (r : Fin 1024) (q : Fin 512) :
    k0_pay3 (F := Ideal) x0 x1 x2 (ix2 r q) = (∑ k : Fin 784, x0 (ix2 r k) * x1 (ix2 q k)) + x2 (ix1 q) := by
  unfold k0_pay3
  dsimp only
  refine (addf_apply _ _ _).trans ?_
  refine congr (congrArg HAdd.hAdd ?_) ?_
  · refine (Ideal.matmul_constant_zero_apply _ _ _ _ _).trans ?_
    refine (Cert.LibPlainDot.sum_plain dot_S1024x784_S784x512_S1024x512_1_0_0_1_n_n rfl rfl rfl rfl rfl rfl _ _ r q).trans ?_
    refine Finset.sum_congr rfl fun k _ => ?_
    refine congrArg (x0 (ix2 r k) * ·) ?_
    rw [shapeCast_self]
    exact transpose_ix2_apply x1 _ k q
  · refine (broadcastTo_1b_ab_apply _ _ r q).trans ?_
    exact shapeCast_a_1a_apply x2 _ 0 q

/-- The lifted index of a column's reduction along the rows. -/
theorem lift_col (h : S1024x512.Reduces [0] S512) (q : Fin 512) (r : Fin 1024) : h.lift (ix1 q) r = ix2 r q :=
  funext fun a => Fin.ext (by match a with | ⟨0, _⟩ => rfl | ⟨1, _⟩ => rfl)

/-- The sums row at column `q`: the carried row plus the block's column sum. -/
theorem pay4_apply (x0 : FVec Ideal S1024x784 .f32) (x1 : FVec Ideal S512x784 .f32) (x2 : FVec Ideal S512 .f32)
    (xo : FVec Ideal S1x1x512 .f32) (u v : Fin 1) (q : Fin 512) :
    k0_pay4 (F := Ideal) x0 x1 x2 xo (ix3 u v q)
      = xo (ix3 (0 : Fin 1) v q) + ∑ r : Fin 1024, k0_pay3 (F := Ideal) x0 x1 x2 (ix2 r q) := by
  unfold k0_pay4
  dsimp only
  refine (shapeCast_ab_1ab_apply _ _ u v q).trans ?_
  refine (addf_apply _ _ _).trans ?_
  refine congr (congrArg HAdd.hAdd ?_) ?_
  · exact shapeCast_1ab_ab_apply xo _ v q
  · refine (shapeCast_a_1a_apply _ _ v q).trans ?_
    refine (Ideal.multiReduction_add_single _ _ _ _ _ (ix1 q)).trans ?_
    exact Finset.sum_congr rfl fun r _ => congrArg (k0_pay3 (F := Ideal) x0 x1 x2) (lift_col _ q r)

/-- The sums-of-squares row at column `q`. -/
theorem pay5_apply (x0 : FVec Ideal S1024x784 .f32) (x1 : FVec Ideal S512x784 .f32) (x2 : FVec Ideal S512 .f32)
    (xo : FVec Ideal S1x1x512 .f32) (u v : Fin 1) (q : Fin 512) :
    k0_pay5 (F := Ideal) x0 x1 x2 xo (ix3 u v q)
      = xo (ix3 (0 : Fin 1) v q)
        + ∑ r : Fin 1024, k0_pay3 (F := Ideal) x0 x1 x2 (ix2 r q) * k0_pay3 (F := Ideal) x0 x1 x2 (ix2 r q) := by
  unfold k0_pay5
  dsimp only
  refine (shapeCast_ab_1ab_apply _ _ u v q).trans ?_
  refine (addf_apply _ _ _).trans ?_
  refine congr (congrArg HAdd.hAdd ?_) ?_
  · exact shapeCast_1ab_ab_apply xo _ v q
  · refine (shapeCast_a_1a_apply _ _ v q).trans ?_
    refine (Ideal.multiReduction_add_single _ _ _ _ _ (ix1 q)).trans ?_
    exact Finset.sum_congr rfl fun r _ =>
      congrArg (fun i => k0_pay3 (F := Ideal) x0 x1 x2 i * k0_pay3 (F := Ideal) x0 x1 x2 i) (lift_col _ q r)

/-- The zero rows a sweep starts from. -/
theorem pay1_apply (i : S1x1x512.Idx) : k0_pay1 (F := Ideal) i = 0 := by
  unfold k0_pay1
  obtain ⟨u, v, q, rfl⟩ : ∃ (u v : Fin 1) (q : Fin 512), i = ix3 u v q := ⟨i 0, i 1, i 2, eq_ix3 i⟩
  refine (shapeCast_ab_1ab_apply _ _ u v q).trans ?_
  exact Ideal.ofBits_zero_f32
theorem pay2_apply (i : S1x1x512.Idx) : k0_pay2 (F := Ideal) i = 0 := by
  unfold k0_pay2
  obtain ⟨u, v, q, rfl⟩ : ∃ (u v : Fin 1) (q : Fin 512), i = ix3 u v q := ⟨i 0, i 1, i 2, eq_ix3 i⟩
  refine (shapeCast_ab_1ab_apply _ _ u v q).trans ?_
  exact Ideal.ofBits_zero_f32

end Cert.KernelIdeal.Stage
end
-- ==== Proof.Stage1Blocks.lean ====
import proofs.«119830_j18734647345306_2_alg».proof.Proof.Stage1Pieces
import proofs.«119830_j18734647345306_2_alg».proof.Proof.Stage1Pay

noncomputable section

open Idealize.ShloMosaic Idealize.ShloMosaic.TcCoe Idealize.SL.Sem Idealize.ShloMosaic.ValueIdx
open Idealize.ShloMosaic.Pipeline (Dat)

/-!
  Stage 1 point by point. Grid point `t` (of 64) reads rows `1024 t … 1024 t + 1023` of the input and the whole
  weight and bias arrays, so its activation block is rows `1024 t …` of the dense layer `H1`; and the statistics
  rows it leaves are the sums, over the points of its sweep so far, of the blocks' column sums (of squares).
-/
namespace Cert.KernelIdeal.Stage
open Cert.KernelIdeal Cert.KernelIdeal.Gen Cert.Spec

variable (V : (c : Dev nD) → (b : Ref sig .tc) → Buf (Elt Ideal) ((c : Thread nD τ).loc b))

/-- The dense layer's rows numbered by naturals (zero past the batch). -/
def H1n (c : Dev nD) (n : ℕ) (q : Fin 512) : EReal := if h : n < 65536 then H1 V c ⟨n, h⟩ q else 0

/-- A block's column sum, and column sum of squares. -/
def bs (c : Dev nD) (t : ℕ) (q : Fin 512) : EReal := ∑ r : Fin 1024, H1n V c (1024 * t + r.val) q
def bss (c : Dev nD) (t : ℕ) (q : Fin 512) : EReal := ∑ r : Fin 1024, H1n V c (1024 * t + r.val) q * H1n V c (1024 * t + r.val) q

/-- The block index maps of stage 1's six windows, decided over the grid. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 3) = t.val / 32 ∧ win0_4.index t (1 : Fin 3) = 0 ∧ win0_4.index t (2 : Fin 3) = 0
    ∧ win0_5.index t (0 : Fin 3) = t.val / 32 ∧ win0_5.index t (1 : Fin 3) = 0 ∧ win0_5.index t (2 : Fin 3) = 0 :=
  (by decide +kernel : ∀ t : Fin grid0.N, _)

/-- The input block at point `t` is rows `1024 t …` of the input array. -/
theorem blk_x (c : Dev nD) (t : Fin cfg0.N) (r : Fin 1024) (k : Fin 784) (hn : 1024 * t.val + r.val < 65536) :
    (iblk0 V c 0 t : S1024x784.Idx → EReal) (ix2 r k) = rd2 (a := 65536) (b := 784) (V c main_arg0) ⟨1024 * t.val + r.val, hn⟩ k := by
  unfold iblk0 rd2
  rw [View.read_apply]
  show V c main_arg0 _ = V c main_arg0 _
  refine congrArg (V c main_arg0) ?_
  funext a
  apply Fin.ext
  obtain ⟨e0, e1, -⟩ := idx0 t
  match a with
  | ⟨0, _⟩ => show win0_0.index t (0 : Fin 2) * 1024 + 1 * r.val = 1024 * t.val + r.val; rw [e0]; omega
  | ⟨1, _⟩ => show win0_0.index t (1 : Fin 2) * 784 + 1 * k.val = k.val; rw [e1]; omega

/-- The weight block at every point is the whole weight array. -/
theorem blk_w (c : Dev nD) (t : Fin cfg0.N) (q : Fin 512) (k : Fin 784) :
    (iblk0 V c 1 t : S512x784.Idx → EReal) (ix2 q k) = rd2 (a := 512) (b := 784) (V c main_v0) q k := by
  unfold iblk0 rd2
  rw [View.read_apply]
  show V c main_v0 _ = V c main_v0 _
  refine congrArg (V c main_v0) ?_
  funext a
  apply Fin.ext
  obtain ⟨-, -, e2, e3, -⟩ := idx0 t
  match a with
  | ⟨0, _⟩ => show win0_1.index t (0 : Fin 2) * 512 + 1 * q.val = q.val; rw [e2]; omega
  | ⟨1, _⟩ => show win0_1.index t (1 : Fin 2) * 784 + 1 * k.val = k.val; rw [e3]; omega

/-- The bias block at every point is the whole bias array. -/
theorem blk_b (c : Dev nD) (t : Fin cfg0.N) (q : Fin 512) :
    (iblk0 V c 2 t : S512.Idx → EReal) (ix1 q) = rd1 (a := 512) (V c main_arg2) q := by
  unfold iblk0 rd1
  rw [View.read_apply]
  show V c main_arg2 _ = V c main_arg2 _
  refine congrArg (V c main_arg2) ?_
  funext a
  apply Fin.ext
  obtain ⟨-, -, -, -, e4, -⟩ := idx0 t
  match a with
  | ⟨0, _⟩ => show win0_2.index t (0 : Fin 1) * 512 + 1 * q.val = q.val; rw [e4]; omega

/-- The dense term of blocks that are rows `n …` of an array is rows `n …` of the dense layer. -/
theorem blockval_of (c : Dev nD) (x0 : FVec Ideal S1024x784 .f32) (x1 : FVec Ideal S512x784 .f32) (x2 : FVec Ideal S512 .f32)
    (n : ℕ) (hn : n + 1024 ≤ 65536)
    (h0 : ∀ (r : Fin 1024) (k : Fin 784), x0 (ix2 r k) = rd2 (a := 65536) (b := 784) (V c main_arg0) ⟨n + r.val, by have := r.isLt; omega⟩ k)
    (h1 : ∀ (q : Fin 512) (k : Fin 784), x1 (ix2 q k) = rd2 (a := 512) (b := 784) (V c main_v0) q k)
    (h2 : ∀ q : Fin 512, x2 (ix1 q) = rd1 (a := 512) (V c main_arg2) q) (r : Fin 1024) (q : Fin 512) :
    k0_pay3 (F := Ideal) x0 x1 x2 (ix2 r q) = H1n V c (n + r.val) q := by
  have hr := r.isLt
  rw [pay3_apply, H1n, dif_pos (by omega)]
  unfold H1 dense
  rw [h2 q]
  exact congrArg (· + _) (Finset.sum_congr rfl fun k _ => by rw [h0 r k, h1 q k])

/-- Point `t`'s activation block at `(r, q)` is the dense layer at row `1024 t + r`. -/
theorem blockval (c : Dev nD) (t : Fin cfg0.N) (r : Fin 1024) (q : Fin 512) :
    k0_pay3 (F := Ideal) (iblk0 V c 0 t) (iblk0 V c 1 t) (iblk0 V c 2 t) (ix2 r q) = H1n V c (1024 * t.val + r.val) q := by
  have hN : t.val < 64 := lt_of_lt_of_eq t.isLt (show cfg0.N = 64 from N_0)
  exact blockval_of V c (iblk0 V c 0 t) (iblk0 V c 1 t) (iblk0 V c 2 t) (1024 * t.val) (by omega)
    (fun r k => blk_x V c t r k (by have := r.isLt; omega)) (blk_w V c t) (blk_b V c t) r q

/-- One point's sums row: the carried row plus the block's column sums. -/
theorem row_step (c : Dev nD) (x0 : FVec Ideal S1024x784 .f32) (x1 : FVec Ideal S512x784 .f32) (x2 : FVec Ideal S512 .f32)
    (xo : FVec Ideal S1x1x512 .f32) (t : ℕ)
    (hblk : ∀ (r : Fin 1024) (q : Fin 512), k0_pay3 (F := Ideal) x0 x1 x2 (ix2 r q) = H1n V c (1024 * t + r.val) q)
    (u v : Fin 1) (q : Fin 512) :
    k0_pay4 (F := Ideal) x0 x1 x2 xo (ix3 u v q) = xo (ix3 (0 : Fin 1) v q) + bs V c t q := by
  rw [pay4_apply]
  exact congrArg (_ + ·) (Finset.sum_congr rfl fun r _ => hblk r q)

/-- One point's sums-of-squares row. -/
theorem row_step_sq (c : Dev nD) (x0 : FVec Ideal S1024x784 .f32) (x1 : FVec Ideal S512x784 .f32) (x2 : FVec Ideal S512 .f32)
    (xo : FVec Ideal S1x1x512 .f32) (t : ℕ)
    (hblk : ∀ (r : Fin 1024) (q : Fin 512), k0_pay3 (F := Ideal) x0 x1 x2 (ix2 r q) = H1n V c (1024 * t + r.val) q)
    (u v : Fin 1) (q : Fin 512) :
    k0_pay5 (F := Ideal) x0 x1 x2 xo (ix3 u v q) = xo (ix3 (0 : Fin 1) v q) + bss V c t q := by
  rw [pay5_apply]
  exact congrArg (_ + ·) (Finset.sum_congr rfl fun r _ => by rw [hblk r q])

end Cert.KernelIdeal.Stage
end
-- ==== Proof.Stage1Acc.lean ====
import proofs.«119830_j18734647345306_2_alg».proof.Proof.Stage1Blocks

noncomputable section

open Idealize.ShloMosaic Idealize.ShloMosaic.TcCoe Idealize.SL.Sem Idealize.ShloMosaic.ValueIdx
open Idealize.ShloMosaic.Pipeline (Dat)

/-!
  What stage 1's three output buffers hold after each grid point: the activation block of the point; and in the
  statistics rows the sum, over the points of the current sweep up to this one, of the blocks' column sums (of squares)
  — by induction on the point, the first point of a sweep starting from zero.
-/
namespace Cert.KernelIdeal.Stage
open Cert.KernelIdeal Cert.KernelIdeal.Gen Cert.Spec

variable (V : (c : Dev nD) → (b : Ref sig .tc) → Buf (Elt Ideal) ((c : Thread nD τ).loc b))

/-- The activation block after point `t`. -/
theorem out3_eq (c : Dev nD) (t : Fin cfg0.N) :
    (outsAt0 V c t.val t.isLt).1 = k0_pay3 (F := Ideal) (iblk0 V c 0 t) (iblk0 V c 1 t) (iblk0 V c 2 t) := by
  generalize hR : k0_pay3 (F := Ideal) (iblk0 V c 0 t) (iblk0 V c 1 t) (iblk0 V c 2 t) = R
  by_cases h0 : t.val % 32 = 0
  · rw [outsAt0_A V c t h0]
    dsimp only
    rw [← hR]
    exact out_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)
  · rw [outsAt0_B V c t h0]
    dsimp only
    rw [← hR]
    exact out_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2

theorem step4 (c : Dev nD) (t : Fin cfg0.N) (xo : FVec Ideal S1x1x512 .f32) (u v : Fin 1) (q : Fin 512) :
    k0_pay4 (F := Ideal) (iblk0 V c 0 t) (iblk0 V c 1 t) (iblk0 V c 2 t) xo (ix3 u v q) = xo (ix3 (0 : Fin 1) v q) + bs V c t.val q :=
  row_step V c (iblk0 V c 0 t) (iblk0 V c 1 t) (iblk0 V c 2 t) xo t.val (blockval V c t) u v q

theorem step5 (c : Dev nD) (t : Fin cfg0.N) (xo : FVec Ideal S1x1x512 .f32) (u v : Fin 1) (q : Fin 512) :
    k0_pay5 (F := Ideal) (iblk0 V c 0 t) (iblk0 V c 1 t) (iblk0 V c 2 t) xo (ix3 u v q) = xo (ix3 (0 : Fin 1) v q) + bss V c t.val q :=
  row_step_sq V c (iblk0 V c 0 t) (iblk0 V c 1 t) (iblk0 V c 2 t) xo t.val (blockval V c t) u v q

/-- The sums row at the first point of a sweep. -/
theorem acc4_A (c : Dev nD) (t : Fin cfg0.N) (h0 : t.val % 32 = 0) (u v : Fin 1) (q : Fin 512) :
    (outsAt0 V c t.val t.isLt).2.1 (ix3 u v q) = bs V c t.val q := by
  rw [outsAt0_A V c t h0]
  dsimp only
  rw [out_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t), step4 V c t _ u v q, pay1_apply, zero_add]

/-- The sums row at a later point of a sweep. -/
theorem acc4_B (c : Dev nD) (n : ℕ) (h : n + 1 < cfg0.N) (h0 : ¬(n + 1) % 32 = 0) (u v : Fin 1) (q : Fin 512) :
    (outsAt0 V c (n + 1) h).2.1 (ix3 u v q)
      = (outsAt0 V c n (Nat.lt_of_succ_lt h)).2.1 (ix3 (0 : Fin 1) v q) + bs V c (n + 1) q := by
  rw [outsAt0_B V c (⟨n + 1, h⟩ : Fin cfg0.N) h0]
  dsimp only
  rw [out_B_4 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (fun hh => h0 ((hcond0_0 (⟨n + 1, h⟩ : Fin cfg0.N)).mp hh)) (iblk0 V c 0 (⟨n + 1, h⟩ : Fin cfg0.N)) (iblk0 V c 1 (⟨n + 1, h⟩ : Fin cfg0.N)) (iblk0 V c 2 (⟨n + 1, h⟩ : Fin cfg0.N)) (outsAt0 V c ((⟨n + 1, h⟩ : Fin cfg0.N).val - 1) (Nat.lt_of_le_of_lt (Nat.sub_le _ _) (⟨n + 1, h⟩ : Fin cfg0.N).isLt)).2.1 (outsAt0 V c ((⟨n + 1, h⟩ : Fin cfg0.N).val - 1) (Nat.lt_of_le_of_lt (Nat.sub_le _ _) (⟨n + 1, h⟩ : Fin cfg0.N).isLt)).2.2]
  exact step4 V c (⟨n + 1, h⟩ : Fin cfg0.N) _ u v q

theorem acc5_A (c : Dev nD) (t : Fin cfg0.N) (h0 : t.val % 32 = 0) (u v : Fin 1) (q : Fin 512) :
    (outsAt0 V c t.val t.isLt).2.2 (ix3 u v q) = bss V c t.val q := by
  rw [outsAt0_A V c t h0]
  dsimp only
  rw [out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t), step5 V c t _ u v q, pay2_apply, zero_add]

theorem acc5_B (c : Dev nD) (n : ℕ) (h : n + 1 < cfg0.N) (h0 : ¬(n + 1) % 32 = 0) (u v : Fin 1) (q : Fin 512) :
    (outsAt0 V c (n + 1) h).2.2 (ix3 u v q)
      = (outsAt0 V c n (Nat.lt_of_succ_lt h)).2.2 (ix3 (0 : Fin 1) v q) + bss V c (n + 1) q := by
  rw [outsAt0_B V c (⟨n + 1, h⟩ : Fin cfg0.N) h0]
  dsimp only
  rw [out_B_5 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (fun hh => h0 ((hcond0_0 (⟨n + 1, h⟩ : Fin cfg0.N)).mp hh)) (iblk0 V c 0 (⟨n + 1, h⟩ : Fin cfg0.N)) (iblk0 V c 1 (⟨n + 1, h⟩ : Fin cfg0.N)) (iblk0 V c 2 (⟨n + 1, h⟩ : Fin cfg0.N)) (outsAt0 V c ((⟨n + 1, h⟩ : Fin cfg0.N).val - 1) (Nat.lt_of_le_of_lt (Nat.sub_le _ _) (⟨n + 1, h⟩ : Fin cfg0.N).isLt)).2.1 (outsAt0 V c ((⟨n + 1, h⟩ : Fin cfg0.N).val - 1) (Nat.lt_of_le_of_lt (Nat.sub_le _ _) (⟨n + 1, h⟩ : Fin cfg0.N).isLt)).2.2]
  exact step5 V c (⟨n + 1, h⟩ : Fin cfg0.N) _ u v q

/-- The recurrence "start a sweep at a block's sum, then add the next block's" in closed form. -/
theorem sweep_closed (A : ℕ → EReal) (f : ℕ → EReal) (hA : ∀ n, n % 32 = 0 → A n = f n)
    (hB : ∀ n, ¬(n + 1) % 32 = 0 → A (n + 1) = A n + f (n + 1)) :
    ∀ n, A n = ∑ i ∈ Finset.range (n % 32 + 1), f (n - n % 32 + i) := by
  intro n
  induction n with
  | zero => rw [hA 0 rfl]; simp
  | succ n ih =>
    by_cases h0 : (n + 1) % 32 = 0
    · rw [hA _ h0, h0]; simp
    · rw [hB n h0, ih]
      have e1 : (n + 1) % 32 = n % 32 + 1 := by omega
      have e2 : n + 1 - (n + 1) % 32 = n - n % 32 := by omega
      rw [e2, e1, Finset.sum_range_succ _ (n % 32 + 1), show n - n % 32 + (n % 32 + 1) = n + 1 by omega]

end Cert.KernelIdeal.Stage
end
-- ==== Proof.Stage1.lean ====
import proofs.«119830_j18734647345306_2_alg».proof.Proof.Stage1Acc

noncomputable section

open Idealize.ShloMosaic Idealize.ShloMosaic.TcCoe Idealize.SL.Sem Idealize.ShloMosaic.ValueIdx
open Idealize.ShloMosaic.Pipeline (Dat)

/-!
  Stage 1's three output arrays after its 64 grid points. Every point writes its activation block back, and the
  blocks tile the array, so the array is the dense layer `H1`. Each statistics array has one row per sweep, written
  back after the sweep's last point: the sum of the sweep's 32 blocks' column sums, which is the column sum over the
  32768 rows of that half of the batch (a sum of sums regrouped; addition of extended reals is commutative and
  associative).
-/
namespace Cert.KernelIdeal.Stage
open Cert.KernelIdeal Cert.KernelIdeal.Gen Cert.Spec

variable (V : (c : Dev nD) → (b : Ref sig .tc) → Buf (Elt Ideal) ((c : Thread nD τ).loc b))

/-- A sum over `m` consecutive blocks of `n` is the sum over the `n m` positions. -/
theorem sum_blocks (g : ℕ → EReal) (m n : ℕ) :
    ∑ i ∈ Finset.range m, ∑ r ∈ Finset.range n, g (n * i + r) = ∑ j ∈ Finset.range (n * m), g j := by
  induction m with
  | zero => simp
  | succ m ih => rw [Finset.sum_range_succ, ih, Nat.mul_succ, Finset.sum_range_add]

/-- In-range rows of the numbered dense layer. -/
theorem H1n_half (c : Dev nD) (a : Fin 2) (j : Fin 32768) (q : Fin 512) :
    H1n V c (32768 * a.val + j.val) q = H1 V c (half a j) q := by
  have ha := a.isLt; have hj := j.isLt
  rw [H1n, dif_pos (by omega)]
  exact congrArg (fun p => H1 V c p q) (Fin.ext (by show 32768 * a.val + j.val = a.val * 32768 + j.val; omega))

/-- A sweep's 32 block sums are the half-batch column sum. -/
theorem sweep_sum (c : Dev nD) (a : Fin 2) (q : Fin 512) :
    ∑ i ∈ Finset.range 32, bs V c (32 * a.val + i) q = ∑ j : Fin 32768, H1 V c (half a j) q := by
  have e : ∀ i, bs V c (32 * a.val + i) q = ∑ r ∈ Finset.range 1024, (fun j => H1n V c (32768 * a.val + j) q) (1024 * i + r) := fun i => by
    unfold bs
    rw [Fin.sum_univ_eq_sum_range (fun r => H1n V c (1024 * (32 * a.val + i) + r) q) 1024]
    exact Finset.sum_congr rfl fun r _ => congrArg (fun n => H1n V c n q) (by omega)
  rw [Finset.sum_congr rfl fun i _ => e i, sum_blocks (fun j => H1n V c (32768 * a.val + j) q) 32 1024,
    ← Fin.sum_univ_eq_sum_range (fun j => H1n V c (32768 * a.val + j) q) (1024 * 32)]
  exact Finset.sum_congr rfl fun j _ => H1n_half V c a j q

theorem sweep_sum_sq (c : Dev nD) (a : Fin 2) (q : Fin 512) :
    ∑ i ∈ Finset.range 32, bss V c (32 * a.val + i) q = ∑ j : Fin 32768, H1 V c (half a j) q * H1 V c (half a j) q := by
  have e : ∀ i, bss V c (32 * a.val + i) q
      = ∑ r ∈ Finset.range 1024, (fun j => H1n V c (32768 * a.val + j) q * H1n V c (32768 * a.val + j) q) (1024 * i + r) := fun i => by
    unfold bss
    rw [Fin.sum_univ_eq_sum_range (fun r => H1n V c (1024 * (32 * a.val + i) + r) q * H1n V c (1024 * (32 * a.val + i) + r) q) 1024]
    exact Finset.sum_congr rfl fun r _ => congrArg (fun n => H1n V c n q * H1n V c n q) (by omega)
  rw [Finset.sum_congr rfl fun i _ => e i,
    sum_blocks (fun j => H1n V c (32768 * a.val + j) q * H1n V c (32768 * a.val + j) q) 32 1024,
    ← Fin.sum_univ_eq_sum_range (fun j => H1n V c (32768 * a.val + j) q * H1n V c (32768 * a.val + j) q) (1024 * 32)]
  exact Finset.sum_congr rfl fun j _ => by rw [H1n_half V c a j q]

/-! ## The activation array -/

/-- What the activation array ends holding. -/
def G3 (c : Dev nD) : S65536x512.Idx → EReal := fun i => H1 V c (i 0) (i 1)

theorem flushed3_eq (c : Dev nD) (t : Fin cfg0.N) :
    (dat0 (F := Ideal) V c).flushed 3 t = ((cfg0.win 3).blk t).view.read (Elt Ideal) (G3 V c) := by
  have hN : t.val < 64 := lt_of_lt_of_eq t.isLt (show cfg0.N = 64 from N_0)
  show (cfg0.win 3).cut (grid0.coords t) ((dat0 (F := Ideal) V c).after 3 t) = _
  rw [after0_3, out3_eq]
  funext j
  obtain ⟨r, q, rfl⟩ : ∃ (r : Fin 1024) (q : Fin 512), j = ix2 r q := ⟨j 0, j 1, eq_ix2 j⟩
  have hr := r.isLt
  rw [View.read_apply]
  show k0_pay3 (F := Ideal) (iblk0 V c 0 t) (iblk0 V c 1 t) (iblk0 V c 2 t) (ix2 r q) = G3 V c (((cfg0.win 3).blk t).view.emb (ix2 r q))
  rw [blockval V c t r q]
  obtain ⟨-, -, -, -, -, e5, e6, -⟩ := idx0 t
  have he : ((cfg0.win 3).blk t).view.emb (ix2 r q) = ix2 (⟨1024 * t.val + r.val, by omega⟩ : Fin 65536) q := by
    funext a
    apply Fin.ext
    match a with
    | ⟨0, _⟩ => show win0_3.index t (0 : Fin 2) * 1024 + 1 * r.val = 1024 * t.val + r.val; rw [e5]; omega
    | ⟨1, _⟩ => show win0_3.index t (1 : Fin 2) * 512 + 1 * q.val = q.val; rw [e6]; omega
  rw [he, H1n, dif_pos (by omega)]
  rfl

theorem mem_blk3 (t : Fin cfg0.N) (i : S65536x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v5_0).slice (win0_3.rect t)).set ↔ _
  rw [View.set_slice_whole, Rect.mem_set_unit]
  exact Iff.rfl

theorem arr3 (c : Dev nD) : (dat0 (F := Ideal) V c).arrAt 3 cfg0.N = G3 V c :=
  (dat0 (F := Ideal) V c).arrAt_eq_of_cover 3 (G3 V c) (fun t _ => flushed3_eq V c t) fun i => by
    have hi0 : (i 0).val < 65536 := (i 0).isLt
    have hi1 : (i 1).val < 512 := (i 1).isLt
    have hN : cfg0.N = 64 := N_0
    refine ⟨⟨(i 0).val / 1024, by omega⟩, flush0_3 _, ?_⟩
    rw [mem_blk3]
    obtain ⟨-, -, -, -, -, e5, e6, -⟩ := idx0 ⟨(i 0).val / 1024, by omega⟩
    intro a
    match a with
    | ⟨0, _⟩ => show win0_3.index _ (0 : Fin 2) * 1024 ≤ (i 0).val ∧ (i 0).val < win0_3.index _ (0 : Fin 2) * 1024 + 1024; rw [e5]; dsimp only; omega
    | ⟨1, _⟩ => show win0_3.index _ (1 : Fin 2) * 512 ≤ (i 1).val ∧ (i 1).val < win0_3.index _ (1 : Fin 2) * 512 + 512; rw [e6]; omega

theorem s1_h1 (c : Dev nD) (p : Fin 65536) (q : Fin 512) :
    (dat0 (F := Ideal) V c).arrAt 3 cfg0.N (ix2 p q) = H1 V c p q := by
  rw [arr3]; rfl

/-! ## The statistics arrays -/

/-- What the sums array ends holding. -/
def G4 (c : Dev nD) : S2x1x512.Idx → EReal := fun i => ∑ j : Fin 32768, H1 V c (half (i 0) j) (i 2)

/-- The row after point `n`: the sum of the sweep's block sums so far. -/
theorem acc4_closed (c : Dev nD) (v : Fin 1) (q : Fin 512) : ∀ (n : ℕ) (h : n < cfg0.N),
    (outsAt0 V c n h).2.1 (ix3 (0 : Fin 1) v q) = ∑ i ∈ Finset.range (n % 32 + 1), bs V c (n - n % 32 + i) q := by
  intro n
  induction n with
  | zero =>
    intro h
    exact (acc4_A V c ⟨0, h⟩ rfl 0 v q).trans (by
      show bs V c 0 q = ∑ i ∈ Finset.range 1, bs V c (0 - 0 + i) q
      rw [Finset.sum_range_one])
  | succ n ih =>
    intro h
    by_cases h0 : (n + 1) % 32 = 0
    · refine (acc4_A V c ⟨n + 1, h⟩ h0 0 v q).trans ?_
      rw [h0]; simp
    · rw [acc4_B V c n h h0 0 v q, ih (Nat.lt_of_succ_lt h)]
      have e1 : (n + 1) % 32 = n % 32 + 1 := by omega
      have e2 : n + 1 - (n + 1) % 32 = n - n % 32 := by omega
      rw [e2, e1, Finset.sum_range_succ _ (n % 32 + 1), show n - n % 32 + (n % 32 + 1) = n + 1 by omega]

set_option maxRecDepth 400000 in
theorem flushed4_eq (c : Dev nD) (t : Fin cfg0.N) (hf : (cfg0.win 4).flush t = true) :
    (dat0 (F := Ideal) V c).flushed 4 t = ((cfg0.win 4).blk t).view.read (Elt Ideal) (G4 V c) := by
  have hN : t.val < 64 := lt_of_lt_of_eq t.isLt (show cfg0.N = 64 from N_0)
  have h31 : t.val % 32 = 31 := (flush0_4 t).mp hf
  show (cfg0.win 4).cut (grid0.coords t) ((dat0 (F := Ideal) V c).after 4 t) = _
  rw [after0_4]
  funext y
  obtain ⟨u, v, q, rfl⟩ : ∃ (u v : Fin 1) (q : Fin 512), y = ix3 u v q := ⟨y 0, y 1, y 2, eq_ix3 y⟩
  obtain rfl : u = 0 := Subsingleton.elim _ _
  show (outsAt0 V c t.val t.isLt).2.1 (ix3 (0 : Fin 1) v q) = G4 V c (((cfg0.win 4).blk t).view.emb (ix3 (0 : Fin 1) v q))
  rw [acc4_closed V c v q t.val t.isLt, h31]
  obtain ⟨-, -, -, -, -, -, -, e7, e8, e9, e10, e11, e12⟩ := idx0 t
  have he : ((cfg0.win 4).blk t).view.emb (ix3 (0 : Fin 1) v q) = ix3 (⟨t.val / 32, by omega⟩ : Fin 2) v q := by
    funext a
    apply Fin.ext
    match a with
    | ⟨0, _⟩ => show win0_4.index t (0 : Fin 3) * 1 + 1 * (0 : Fin 1).val = t.val / 32; rw [e7]; simp
    | ⟨1, _⟩ => show win0_4.index t (1 : Fin 3) * 1 + 1 * v.val = v.val; rw [e8]; omega
    | ⟨2, _⟩ => show win0_4.index t (2 : Fin 3) * 512 + 1 * q.val = q.val; rw [e9]; omega
  rw [he]
  show _ = ∑ j : Fin 32768, H1 V c (half (⟨t.val / 32, by omega⟩ : Fin 2) j) q
  rw [← sweep_sum V c (⟨t.val / 32, by omega⟩ : Fin 2) q]
  exact Finset.sum_congr rfl fun i _ => congrArg (fun n => bs V c n q) (by show t.val - 31 + i = 32 * (t.val / 32) + i; omega)

theorem mem_blk4 (t : Fin cfg0.N) (i : S2x1x512.Idx) :
    i ∈ ((cfg0.win 4).blk t).view.set ↔ ∀ a : Fin 3, win0_4.index t a * S1x1x512.size a ≤ (i a).val ∧ (i a).val < win0_4.index t a * S1x1x512.size a + S1x1x512.size a := by
  show i ∈ ((View.whole main_v5_1).slice (win0_4.rect t)).set ↔ _
  rw [View.set_slice_whole, Rect.mem_set_unit]
  exact Iff.rfl

theorem arr4 (c : Dev nD) : (dat0 (F := Ideal) V c).arrAt 4 cfg0.N = G4 V c :=
  (dat0 (F := Ideal) V c).arrAt_eq_of_cover 4 (G4 V c) (flushed4_eq V c) fun i => by
    have hi0 : (i 0).val < 2 := (i 0).isLt
    have hi1 : (i 1).val < 1 := (i 1).isLt
    have hi2 : (i 2).val < 512 := (i 2).isLt
    have hN : cfg0.N = 64 := N_0
    refine ⟨⟨32 * (i 0).val + 31, by omega⟩, (flush0_4 _).mpr (by show (32 * (i 0).val + 31) % 32 = 31; omega), ?_⟩
    rw [mem_blk4]
    obtain ⟨-, -, -, -, -, -, -, e7, e8, e9, e10, e11, e12⟩ := idx0 ⟨32 * (i 0).val + 31, by omega⟩
    intro a
    match a with
    | ⟨0, _⟩ => show win0_4.index _ (0 : Fin 3) * 1 ≤ (i 0).val ∧ (i 0).val < win0_4.index _ (0 : Fin 3) * 1 + 1; rw [e7]; dsimp only; omega
    | ⟨1, _⟩ => show win0_4.index _ (1 : Fin 3) * 1 ≤ (i 1).val ∧ (i 1).val < win0_4.index _ (1 : Fin 3) * 1 + 1; rw [e8]; omega
    | ⟨2, _⟩ => show win0_4.index _ (2 : Fin 3) * 512 ≤ (i 2).val ∧ (i 2).val < win0_4.index _ (2 : Fin 3) * 512 + 512; rw [e9]; omega

theorem s1_sum (c : Dev nD) (a : Fin 2) (q : Fin 512) :
    (dat0 (F := Ideal) V c).arrAt 4 cfg0.N (ix3 a (0 : Fin 1) q) = ∑ j : Fin 32768, H1 V c (half a j) q := by
  rw [arr4]; rfl

/-- What the sums-of-squares array ends holding. -/
def G5 (c : Dev nD) : S2x1x512.Idx → EReal := fun i => ∑ j : Fin 32768, H1 V c (half (i 0) j) (i 2) * H1 V c (half (i 0) j) (i 2)

/-- The row after point `n`: the sum of the sweep's block sums so far. -/
theorem acc5_closed (c : Dev nD) (v : Fin 1) (q : Fin 512) : ∀ (n : ℕ) (h : n < cfg0.N),
    (outsAt0 V c n h).2.2 (ix3 (0 : Fin 1) v q) = ∑ i ∈ Finset.range (n % 32 + 1), bss V c (n - n % 32 + i) q := by
  intro n
  induction n with
  | zero =>
    intro h
    exact (acc5_A V c ⟨0, h⟩ rfl 0 v q).trans (by
      show bss V c 0 q = ∑ i ∈ Finset.range 1, bss V c (0 - 0 + i) q
      rw [Finset.sum_range_one])
  | succ n ih =>
    intro h
    by_cases h0 : (n + 1) % 32 = 0
    · refine (acc5_A V c ⟨n + 1, h⟩ h0 0 v q).trans ?_
      rw [h0]; simp
    · rw [acc5_B V c n h h0 0 v q, ih (Nat.lt_of_succ_lt h)]
      have e1 : (n + 1) % 32 = n % 32 + 1 := by omega
      have e2 : n + 1 - (n + 1) % 32 = n - n % 32 := by omega
      rw [e2, e1, Finset.sum_range_succ _ (n % 32 + 1), show n - n % 32 + (n % 32 + 1) = n + 1 by omega]

set_option maxRecDepth 400000 in
theorem flushed5_eq (c : Dev nD) (t : Fin cfg0.N) (hf : (cfg0.win 5).flush t = true) :
    (dat0 (F := Ideal) V c).flushed 5 t = ((cfg0.win 5).blk t).view.read (Elt Ideal) (G5 V c) := by
  have hN : t.val < 64 := lt_of_lt_of_eq t.isLt (show cfg0.N = 64 from N_0)
  have h31 : t.val % 32 = 31 := (flush0_5 t).mp hf
  show (cfg0.win 5).cut (grid0.coords t) ((dat0 (F := Ideal) V c).after 5 t) = _
  rw [after0_5]
  funext y
  obtain ⟨u, v, q, rfl⟩ : ∃ (u v : Fin 1) (q : Fin 512), y = ix3 u v q := ⟨y 0, y 1, y 2, eq_ix3 y⟩
  obtain rfl : u = 0 := Subsingleton.elim _ _
  show (outsAt0 V c t.val t.isLt).2.2 (ix3 (0 : Fin 1) v q) = G5 V c (((cfg0.win 5).blk t).view.emb (ix3 (0 : Fin 1) v q))
  rw [acc5_closed V c v q t.val t.isLt, h31]
  obtain ⟨-, -, -, -, -, -, -, e7, e8, e9, e10, e11, e12⟩ := idx0 t
  have he : ((cfg0.win 5).blk t).view.emb (ix3 (0 : Fin 1) v q) = ix3 (⟨t.val / 32, by omega⟩ : Fin 2) v q := by
    funext a
    apply Fin.ext
    match a with
    | ⟨0, _⟩ => show win0_5.index t (0 : Fin 3) * 1 + 1 * (0 : Fin 1).val = t.val / 32; rw [e10]; simp
    | ⟨1, _⟩ => show win0_5.index t (1 : Fin 3) * 1 + 1 * v.val = v.val; rw [e11]; omega
    | ⟨2, _⟩ => show win0_5.index t (2 : Fin 3) * 512 + 1 * q.val = q.val; rw [e12]; omega
  rw [he]
  show _ = ∑ j : Fin 32768, H1 V c (half (⟨t.val / 32, by omega⟩ : Fin 2) j) q * H1 V c (half (⟨t.val / 32, by omega⟩ : Fin 2) j) q
  rw [← sweep_sum_sq V c (⟨t.val / 32, by omega⟩ : Fin 2) q]
  exact Finset.sum_congr rfl fun i _ => congrArg (fun n => bss V c n q) (by show t.val - 31 + i = 32 * (t.val / 32) + i; omega)

theorem mem_blk5 (t : Fin cfg0.N) (i : S2x1x512.Idx) :
    i ∈ ((cfg0.win 5).blk t).view.set ↔ ∀ a : Fin 3, win0_5.index t a * S1x1x512.size a ≤ (i a).val ∧ (i a).val < win0_5.index t a * S1x1x512.size a + S1x1x512.size a := by
  show i ∈ ((View.whole main_v5_2).slice (win0_5.rect t)).set ↔ _
  rw [View.set_slice_whole, Rect.mem_set_unit]
  exact Iff.rfl

theorem arr5 (c : Dev nD) : (dat0 (F := Ideal) V c).arrAt 5 cfg0.N = G5 V c :=
  (dat0 (F := Ideal) V c).arrAt_eq_of_cover 5 (G5 V c) (flushed5_eq V c) fun i => by
    have hi0 : (i 0).val < 2 := (i 0).isLt
    have hi1 : (i 1).val < 1 := (i 1).isLt
    have hi2 : (i 2).val < 512 := (i 2).isLt
    have hN : cfg0.N = 64 := N_0
    refine ⟨⟨32 * (i 0).val + 31, by omega⟩, (flush0_5 _).mpr (by show (32 * (i 0).val + 31) % 32 = 31; omega), ?_⟩
    rw [mem_blk5]
    obtain ⟨-, -, -, -, -, -, -, e7, e8, e9, e10, e11, e12⟩ := idx0 ⟨32 * (i 0).val + 31, by omega⟩
    intro a
    match a with
    | ⟨0, _⟩ => show win0_5.index _ (0 : Fin 3) * 1 ≤ (i 0).val ∧ (i 0).val < win0_5.index _ (0 : Fin 3) * 1 + 1; rw [e10]; dsimp only; omega
    | ⟨1, _⟩ => show win0_5.index _ (1 : Fin 3) * 1 ≤ (i 1).val ∧ (i 1).val < win0_5.index _ (1 : Fin 3) * 1 + 1; rw [e11]; omega
    | ⟨2, _⟩ => show win0_5.index _ (2 : Fin 3) * 512 ≤ (i 2).val ∧ (i 2).val < win0_5.index _ (2 : Fin 3) * 512 + 512; rw [e12]; omega

theorem s1_sumsq (c : Dev nD) (a : Fin 2) (q : Fin 512) :
    (dat0 (F := Ideal) V c).arrAt 5 cfg0.N (ix3 a (0 : Fin 1) q) = ∑ j : Fin 32768, H1 V c (half a j) q * H1 V c (half a j) q := by
  rw [arr5]; rfl

end Cert.KernelIdeal.Stage
end
-- ==== Proof.Stage2Pieces.lean ====
import proofs.«119830_j18734647345306_2_alg».proof.Proof.Stage
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-!
  What each control case of stage 2's body leaves in its three output buffers, as values: the activation block is the
  dense layer's term of the five input blocks; each statistics row is the carried row (the stored zero row at the first
  point of a sweep) plus the block's column sums, resp. sums of squares.
-/
namespace Cert.KernelIdeal.Stage.S2
open Cert.KernelIdeal Cert.KernelIdeal.Gen Cert.Spec
variable {F : FTy → Type} [FloatOps F]

theorem s2_hz1 : (![0] : Fin 1 → Nat) = fun _ => 0 := funext fun a => by fin_cases a <;> rfl
theorem s2_hz2 : (![0, 0] : Fin 2 → Nat) = fun _ => 0 := funext fun a => by fin_cases a <;> rfl
theorem s2_hz3 : (![0, 0, 0] : Fin 3 → Nat) = fun _ => 0 := funext fun a => by fin_cases a <;> rfl

/-- The first point of a sweep: the activation block. -/
theorem s2_out_A_5 (c : Dev nD) (i : grid1.Coords) (a2 : Memref sig .tc .vmem S2048x512 .f32) (h2 : a2.IsWhole) (a3 : Memref sig .tc .vmem S512 .f32) (h3 : a3.IsWhole) (a4 : Memref sig .tc .vmem S512 .f32) (h4 : a4.IsWhole) (a5 : Memref sig .tc .vmem S32x512 .bf16) (h5 : a5.IsWhole) (a6 : Memref sig .tc .vmem S32 .f32) (h6 : a6.IsWhole) (a7 : Memref sig .tc .vmem S2048x32 .bf16) (h7 : a7.IsWhole) (a8 : Memref sig .tc .vmem S1x1x32 .f32) (h8 : a8.IsWhole) (a9 : Memref sig .tc .vmem S1x1x32 .f32) (h9 : a9.IsWhole) (hc : cond1_0 i) (x0 : Vec F S2048x512 .f32) (x1 : Vec F S512 .f32) (x2 : Vec F S512 .f32) (x3 : Vec F S32x512 .bf16) (x4 : Vec F S32 .f32) :
    out1_A_5 c i a2 h2 a3 h3 a4 h4 a5 h5 a6 h6 a7 h7 a8 h8 a9 h9 hc x0 x1 x2 x3 x4 = k1_pay3 (k1_pay6 x0 x1 x2 x3 x4) := by
  unfold out1_A_5
  rw [View.read_writes_eq_canon _ _ _ (cover1_A_5 c i a2 h2 a3 h3 a4 h4 a5 h5 a6 h6 a7 h7 a8 h8 a9 h9 hc x0 x1 x2 x3 x4)]
  unfold kernelRun1_A
  dsimp only
  sl_unfold_words
  rw [View.canon_unit_zero s2_hz2]
  simp only [View.readAt_eq_ld, h2.read_unread, h3.read_unread, h4.read_unread, h5.read_unread, h6.read_unread, h8.read_unread, h9.read_unread, View.ld_unit_zero (S := S2048x512) s2_hz2, View.ld_unit_zero (S := S512) s2_hz1, View.ld_unit_zero (S := S32x512) s2_hz2, View.ld_unit_zero (S := S32) s2_hz1, View.ld_unit_zero (S := S1x1x32) s2_hz3]

/-- The first point of a sweep: the sums row starts from the stored zero row. -/
theorem s2_out_A_6 (c : Dev nD) (i : grid1.Coords) (a2 : Memref sig .tc .vmem S2048x512 .f32) (h2 : a2.IsWhole) (a3 : Memref sig .tc .vmem S512 .f32) (h3 : a3.IsWhole) (a4 : Memref sig .tc .vmem S512 .f32) (h4 : a4.IsWhole) (a5 : Memref sig .tc .vmem S32x512 .bf16) (h5 : a5.IsWhole) (a6 : Memref sig .tc .vmem S32 .f32) (h6 : a6.IsWhole) (a7 : Memref sig .tc .vmem S2048x32 .bf16) (h7 : a7.IsWhole) (a8 : Memref sig .tc .vmem S1x1x32 .f32) (h8 : a8.IsWhole) (a9 : Memref sig .tc .vmem S1x1x32 .f32) (h9 : a9.IsWhole) (hc : cond1_0 i) (x0 : Vec F S2048x512 .f32) (x1 : Vec F S512 .f32) (x2 : Vec F S512 .f32) (x3 : Vec F S32x512 .bf16) (x4 : Vec F S32 .f32) :
    out1_A_6 c i a2 h2 a3 h3 a4 h4 a5 h5 a6 h6 a7 h7 a8 h8 a9 h9 hc x0 x1 x2 x3 x4 = k1_pay1 (k1_pay7 x0 x1 x2 x3 x4 k1_pay4) := by
  unfold out1_A_6
  rw [View.read_writes_eq_canon _ _ _ (cover1_A_6 c i a2 h2 a3 h3 a4 h4 a5 h5 a6 h6 a7 h7 a8 h8 a9 h9 hc x0 x1 x2 x3 x4)]
  unfold kernelRun1_A
  dsimp only
  sl_unfold_words
  rw [View.canon_cons_unit_zero (S := S1x1x32) s2_hz3, View.readCov_unit_zero (S := S1x1x32) _ s2_hz3]
  simp only [View.readAt_eq_ld, h2.read_unread, h3.read_unread, h4.read_unread, h5.read_unread, h6.read_unread, h8.read_unread, h9.read_unread, View.ld_unit_zero (S := S2048x512) s2_hz2, View.ld_unit_zero (S := S512) s2_hz1, View.ld_unit_zero (S := S32x512) s2_hz2, View.ld_unit_zero (S := S32) s2_hz1, View.ld_unit_zero (S := S1x1x32) s2_hz3]

/-- The first point of a sweep: the sums-of-squares row starts from the stored zero row. -/
theorem s2_out_A_7 (c : Dev nD) (i : grid1.Coords) (a2 : Memref sig .tc .vmem S2048x512 .f32) (h2 : a2.IsWhole) (a3 : Memref sig .tc .vmem S512 .f32) (h3 : a3.IsWhole) (a4 : Memref sig .tc .vmem S512 .f32) (h4 : a4.IsWhole) (a5 : Memref sig .tc .vmem S32x512 .bf16) (h5 : a5.IsWhole) (a6 : Memref sig .tc .vmem S32 .f32) (h6 : a6.IsWhole) (a7 : Memref sig .tc .vmem S2048x32 .bf16) (h7 : a7.IsWhole) (a8 : Memref sig .tc .vmem S1x1x32 .f32) (h8 : a8.IsWhole) (a9 : Memref sig .tc .vmem S1x1x32 .f32) (h9 : a9.IsWhole) (hc : cond1_0 i) (x0 : Vec F S2048x512 .f32) (x1 : Vec F S512 .f32) (x2 : Vec F S512 .f32) (x3 : Vec F S32x512 .bf16) (x4 : Vec F S32 .f32) :
    out1_A_7 c i a2 h2 a3 h3 a4 h4 a5 h5 a6 h6 a7 h7 a8 h8 a9 h9 hc x0 x1 x2 x3 x4 = k1_pay2 (k1_pay6 x0 x1 x2 x3 x4) k1_pay5 := by
  unfold out1_A_7
  rw [View.read_writes_eq_canon _ _ _ (cover1_A_7 c i a2 h2 a3 h3 a4 h4 a5 h5 a6 h6 a7 h7 a8 h8 a9 h9 hc x0 x1 x2 x3 x4)]
  unfold kernelRun1_A
  dsimp only
  sl_unfold_words
  rw [View.canon_cons_unit_zero (S := S1x1x32) s2_hz3, View.readCov_unit_zero (S := S1x1x32) _ s2_hz3]
  simp only [View.readAt_eq_ld, h2.read_unread, h3.read_unread, h4.read_unread, h5.read_unread, h6.read_unread, h8.read_unread, h9.read_unread, View.ld_unit_zero (S := S2048x512) s2_hz2, View.ld_unit_zero (S := S512) s2_hz1, View.ld_unit_zero (S := S32x512) s2_hz2, View.ld_unit_zero (S := S32) s2_hz1, View.ld_unit_zero (S := S1x1x32) s2_hz3]

/-- A later point of a sweep: the activation block. -/
theorem s2_out_B_5 (c : Dev nD) (i : grid1.Coords) (a2 : Memref sig .tc .vmem S2048x512 .f32) (h2 : a2.IsWhole) (a3 : Memref sig .tc .vmem S512 .f32) (h3 : a3.IsWhole) (a4 : Memref sig .tc .vmem S512 .f32) (h4 : a4.IsWhole) (a5 : Memref sig .tc .vmem S32x512 .bf16) (h5 : a5.IsWhole) (a6 : Memref sig .tc .vmem S32 .f32) (h6 : a6.IsWhole) (a7 : Memref sig .tc .vmem S2048x32 .bf16) (h7 : a7.IsWhole) (a8 : Memref sig .tc .vmem S1x1x32 .f32) (h8 : a8.IsWhole) (a9 : Memref sig .tc .vmem S1x1x32 .f32) (h9 : a9.IsWhole) (hc : ¬cond1_0 i) (x0 : Vec F S2048x512 .f32) (x1 : Vec F S512 .f32) (x2 : Vec F S512 .f32) (x3 : Vec F S32x512 .bf16) (x4 : Vec F S32 .f32) (xo6 xo7 : Vec F S1x1x32 .f32) :
    out1_B_5 c i a2 h2 a3 h3 a4 h4 a5 h5 a6 h6 a7 h7 a8 h8 a9 h9 hc x0 x1 x2 x3 x4 xo6 xo7 = k1_pay3 (k1_pay6 x0 x1 x2 x3 x4) := by
  unfold out1_B_5
  rw [View.read_writes_eq_canon _ _ _ (cover1_B_5 c i a2 h2 a3 h3 a4 h4 a5 h5 a6 h6 a7 h7 a8 h8 a9 h9 hc x0 x1 x2 x3 x4 xo6 xo7)]
  unfold kernelRun1_B
  dsimp only
  sl_unfold_words
  rw [View.canon_unit_zero s2_hz2]
  simp only [View.readAt_eq_ld, h2.read_unread, h3.read_unread, h4.read_unread, h5.read_unread, h6.read_unread, h8.read_unread, h9.read_unread, View.ld_unit_zero (S := S2048x512) s2_hz2, View.ld_unit_zero (S := S512) s2_hz1, View.ld_unit_zero (S := S32x512) s2_hz2, View.ld_unit_zero (S := S32) s2_hz1, View.ld_unit_zero (S := S1x1x32) s2_hz3]

/-- A later point of a sweep: the carried sums row plus the block's. -/
theorem s2_out_B_6 (c : Dev nD) (i : grid1.Coords) (a2 : Memref sig .tc .vmem S2048x512 .f32) (h2 : a2.IsWhole) (a3 : Memref sig .tc .vmem S512 .f32) (h3 : a3.IsWhole) (a4 : Memref sig .tc .vmem S512 .f32) (h4 : a4.IsWhole) (a5 : Memref sig .tc .vmem S32x512 .bf16) (h5 : a5.IsWhole) (a6 : Memref sig .tc .vmem S32 .f32) (h6 : a6.IsWhole) (a7 : Memref sig .tc .vmem S2048x32 .bf16) (h7 : a7.IsWhole) (a8 : Memref sig .tc .vmem S1x1x32 .f32) (h8 : a8.IsWhole) (a9 : Memref sig .tc .vmem S1x1x32 .f32) (h9 : a9.IsWhole) (hc : ¬cond1_0 i) (x0 : Vec F S2048x512 .f32) (x1 : Vec F S512 .f32) (x2 : Vec F S512 .f32) (x3 : Vec F S32x512 .bf16) (x4 : Vec F S32 .f32) (xo6 xo7 : Vec F S1x1x32 .f32) :
    out1_B_6 c i a2 h2 a3 h3 a4 h4 a5 h5 a6 h6 a7 h7 a8 h8 a9 h9 hc x0 x1 x2 x3 x4 xo6 xo7 = k1_pay1 (k1_pay7 x0 x1 x2 x3 x4 xo6) := by
  unfold out1_B_6
  rw [View.read_writes_eq_canon _ _ _ (cover1_B_6 c i a2 h2 a3 h3 a4 h4 a5 h5 a6 h6 a7 h7 a8 h8 a9 h9 hc x0 x1 x2 x3 x4 xo6 xo7)]
  unfold kernelRun1_B
  dsimp only
  sl_unfold_words
  rw [View.canon_unit_zero s2_hz3]
  simp only [View.readAt_eq_ld, h2.read_unread, h3.read_unread, h4.read_unread, h5.read_unread, h6.read_unread, h8.read_unread, h9.read_unread, View.ld_unit_zero (S := S2048x512) s2_hz2, View.ld_unit_zero (S := S512) s2_hz1, View.ld_unit_zero (S := S32x512) s2_hz2, View.ld_unit_zero (S := S32) s2_hz1, View.ld_unit_zero (S := S1x1x32) s2_hz3]

/-- A later point of a sweep: the carried sums-of-squares row plus the block's. -/
theorem s2_out_B_7 (c : Dev nD) (i : grid1.Coords) (a2 : Memref sig .tc .vmem S2048x512 .f32) (h2 : a2.IsWhole) (a3 : Memref sig .tc .vmem S512 .f32) (h3 : a3.IsWhole) (a4 : Memref sig .tc .vmem S512 .f32) (h4 : a4.IsWhole) (a5 : Memref sig .tc .vmem S32x512 .bf16) (h5 : a5.IsWhole) (a6 : Memref sig .tc .vmem S32 .f32) (h6 : a6.IsWhole) (a7 : Memref sig .tc .vmem S2048x32 .bf16) (h7 : a7.IsWhole) (a8 : Memref sig .tc .vmem S1x1x32 .f32) (h8 : a8.IsWhole) (a9 : Memref sig .tc .vmem S1x1x32 .f32) (h9 : a9.IsWhole) (hc : ¬cond1_0 i) (x0 : Vec F S2048x512 .f32) (x1 : Vec F S512 .f32) (x2 : Vec F S512 .f32) (x3 : Vec F S32x512 .bf16) (x4 : Vec F S32 .f32) (xo6 xo7 : Vec F S1x1x32 .f32) :
    out1_B_7 c i a2 h2 a3 h3 a4 h4 a5 h5 a6 h6 a7 h7 a8 h8 a9 h9 hc x0 x1 x2 x3 x4 xo6 xo7 = k1_pay2 (k1_pay6 x0 x1 x2 x3 x4) xo7 := by
  unfold out1_B_7
  rw [View.read_writes_eq_canon _ _ _ (cover1_B_7 c i a2 h2 a3 h3 a4 h4 a5 h5 a6 h6 a7 h7 a8 h8 a9 h9 hc x0 x1 x2 x3 x4 xo6 xo7)]
  unfold kernelRun1_B
  dsimp only
  sl_unfold_words
  rw [View.canon_unit_zero s2_hz3]
  simp only [View.readAt_eq_ld, h2.read_unread, h3.read_unread, h4.read_unread, h5.read_unread, h6.read_unread, h8.read_unread, h9.read_unread, View.ld_unit_zero (S := S2048x512) s2_hz2, View.ld_unit_zero (S := S512) s2_hz1, View.ld_unit_zero (S := S32x512) s2_hz2, View.ld_unit_zero (S := S32) s2_hz1, View.ld_unit_zero (S := S1x1x32) s2_hz3]

end Cert.KernelIdeal.Stage.S2
end
-- ==== Proof.Stage2Pay.lean ====
import proofs.«119830_j18734647345306_2_alg».proof.Proof.Stage
import proofs.«119830_j18734647345306_2_alg».proof.Proof.LibPlainDot
import Idealize.ShloMosaic.Lib.Pipeline.Value
import Idealize.ShloMosaic.Lib.ValueLayout
import Idealize.ShloMosaic.Lib.ValueIdx
import Idealize.ShloMosaic.PureOps.Ideal.Laws

noncomputable section

open Idealize.ShloMosaic Idealize.ShloMosaic.TcCoe Idealize.SL.Sem
open Idealize.ShloMosaic.ValueIdx

/-!
  Stage 2's arithmetic read at an entry, over the extended reals: the activation block at row `r`, column `q` is the
  dense layer `∑ₖ ksign (h₁[r,k] · scale[k] + shift[k]) · w[q,k] + b[q]` of the point's blocks; the two statistics rows
  are the carried row plus the block's column sum, resp. column sum of squares; the reset row is zero.
-/
namespace Cert.KernelIdeal.Stage.S2
open Cert.KernelIdeal Cert.KernelIdeal.Gen Cert.Spec

/-- A vector laid out as one row and repeated down 2048 rows reads its entry `k` at every `(r, k)`. -/
theorem s2_row512_apply (v : FVec Ideal S512 .f32) (r : Fin 2048) (k : Fin 512) :
    broadcastTo S2048x512 (shapeCast S1x512 (shapeCast S512 v shapeCasts_S512_S512) shapeCasts_S512_S1x512) broadcasts_S1x512_S2048x512 (ix2 r k)
      = v (ix1 k) :=
  (broadcastTo_1b_ab_apply _ _ r k).trans ((shapeCast_a_1a_apply _ _ (0 : Fin 1) k).trans (by rw [shapeCast_self]))

theorem s2_row32_apply (v : FVec Ideal S32 .f32) (r : Fin 2048) (q : Fin 32) :
    broadcastTo S2048x32 (shapeCast S1x32 v shapeCasts_S32_S1x32) broadcasts_S1x32_S2048x32 (ix2 r q) = v (ix1 q) :=
  (broadcastTo_1b_ab_apply _ _ r q).trans (shapeCast_a_1a_apply _ _ (0 : Fin 1) q)

/-- The weights' block, transposed: entry `(k, q)` is the block's `(q, k)`. -/
theorem s2_wT_apply (w : FVec Ideal S32x512 .bf16) (k : Fin 512) (q : Fin 32) :
    transpose S512x32 [1, 0] (shapeCast S32x512 w shapeCasts_S32x512_S32x512) transposes_S32x512_p1_0_S512x32 (ix2 k q) = w (ix2 q k) :=
  (transpose_ix2_apply _ _ k q).trans (by rw [shapeCast_self])

/-- The first activations' block, scaled and shifted column by column. -/
def s2_pre (x0 : FVec Ideal S2048x512 .f32) (x1 x2 : FVec Ideal S512 .f32) : FVec Ideal S2048x512 .f32 :=
  addf (mulf (shapeCast S2048x512 x0 shapeCasts_S2048x512_S2048x512)
      (broadcastTo S2048x512 (shapeCast S1x512 (shapeCast S512 x1 shapeCasts_S512_S512) shapeCasts_S512_S1x512) broadcasts_S1x512_S2048x512))
    (broadcastTo S2048x512 (shapeCast S1x512 (shapeCast S512 x2 shapeCasts_S512_S512) shapeCasts_S512_S1x512) broadcasts_S1x512_S2048x512)

theorem s2_pre_apply (x0 : FVec Ideal S2048x512 .f32) (x1 x2 : FVec Ideal S512 .f32) (r : Fin 2048) (k : Fin 512) :
    s2_pre x0 x1 x2 (ix2 r k) = x0 (ix2 r k) * x1 (ix1 k) + x2 (ix1 k) :=
  (addf_apply _ _ _).trans (congrArg₂ (· + ·)
    ((mulf_apply _ _ _).trans (congrArg₂ (· * ·) (by rw [shapeCast_self]) (s2_row512_apply x1 r k)))
    (s2_row512_apply x2 r k))

/-- The activation block's entry. -/
theorem s2_pay6_apply (x0 : FVec Ideal S2048x512 .f32) (x1 x2 : FVec Ideal S512 .f32) (x3 : FVec Ideal S32x512 .bf16)
    (x4 : FVec Ideal S32 .f32) (r : Fin 2048) (q : Fin 32) :
    k1_pay6 (F := Ideal) x0 x1 x2 x3 x4 (ix2 r q)
      = dense (fun (r : Fin 2048) (k : Fin 512) => ksign (x0 (ix2 r k) * x1 (ix1 k) + x2 (ix1 k)))
          (fun (q : Fin 32) (k : Fin 512) => x3 (ix2 q k)) (fun q : Fin 32 => x4 (ix1 q)) r q := by
  unfold k1_pay6 dense
  dsimp only
  refine (addf_apply _ _ _).trans ?_
  refine congrArg₂ (· + ·) ?_ (s2_row32_apply x4 r q)
  refine (Ideal.matmul_constant_zero_apply _ none _ _ _).trans ?_
  refine (Cert.LibPlainDot.sum_plain dot_S2048x512_S512x32_S2048x32_1_0_0_1_n_n rfl rfl rfl rfl rfl rfl _ _ r q).trans ?_
  refine Finset.sum_congr rfl fun k _ => ?_
  refine congrArg₂ (· * ·) ?_ (s2_wT_apply x3 k q)
  show ksign (s2_pre x0 x1 x2 (ix2 r k)) = _
  exact congrArg ksign (s2_pre_apply x0 x1 x2 r k)

/-- A lane sum down the 2048 rows of a block, from the zero word: the column's sum. -/
theorem s2_colsum_apply (v : FVec Ideal S2048x32 .f32)
    (hacc : (0x00000000#32 : BitVec 32) = FKind.add.neutral .f32 (.inl rfl)) (q : Fin 32) :
    multiReduction (F := Ideal) .add [0] S32 v 0x00000000#32 reduces_S2048x32_S32 (.inl rfl) hacc (ix1 q)
      = ∑ r : Fin 2048, v (ix2 r q) := by
  refine (Ideal.multiReduction_add_single v 0x00000000#32 reduces_S2048x32_S32 (.inl rfl) hacc (ix1 q)).trans ?_
  refine Finset.sum_congr rfl fun r _ => congrArg v (funext fun c => Fin.ext ?_)
  match c with
  | ⟨0, _⟩ => rfl
  | ⟨1, _⟩ => rfl

/-- The sums row after a point: the row it found plus the block's column sums. -/
theorem s2_sumrow_apply (x0 : FVec Ideal S2048x512 .f32) (x1 x2 : FVec Ideal S512 .f32) (x3 : FVec Ideal S32x512 .bf16)
    (x4 : FVec Ideal S32 .f32) (v34 : FVec Ideal S1x1x32 .f32) (q : Fin 32) :
    k1_pay1 (F := Ideal) (k1_pay7 x0 x1 x2 x3 x4 v34) (ix3 (0 : Fin 1) (0 : Fin 1) q)
      = v34 (ix3 (0 : Fin 1) (0 : Fin 1) q) + ∑ r : Fin 2048, k1_pay6 (F := Ideal) x0 x1 x2 x3 x4 (ix2 r q) := by
  unfold k1_pay1 k1_pay7
  dsimp only
  refine (shapeCast_ab_1ab_apply _ _ (0 : Fin 1) (0 : Fin 1) q).trans ?_
  refine (addf_apply _ _ _).trans ?_
  refine congrArg₂ (· + ·) (shapeCast_1ab_ab_apply _ _ (0 : Fin 1) q) ?_
  refine (shapeCast_a_1a_apply _ _ (0 : Fin 1) q).trans ?_
  exact s2_colsum_apply _ _ q

/-- The sums-of-squares row after a point: the row it found plus the block's column sums of squares. -/
theorem s2_sqrow_apply (v33 : FVec Ideal S2048x32 .f32) (v42 : FVec Ideal S1x1x32 .f32) (q : Fin 32) :
    k1_pay2 (F := Ideal) v33 v42 (ix3 (0 : Fin 1) (0 : Fin 1) q)
      = v42 (ix3 (0 : Fin 1) (0 : Fin 1) q) + ∑ r : Fin 2048, v33 (ix2 r q) * v33 (ix2 r q) := by
  unfold k1_pay2
  dsimp only
  refine (shapeCast_ab_1ab_apply _ _ (0 : Fin 1) (0 : Fin 1) q).trans ?_
  refine (addf_apply _ _ _).trans ?_
  refine congrArg₂ (· + ·) (shapeCast_1ab_ab_apply _ _ (0 : Fin 1) q) ?_
  refine (shapeCast_a_1a_apply _ _ (0 : Fin 1) q).trans ?_
  exact s2_colsum_apply _ _ q

/-- The reset rows are zero. -/
theorem s2_pay4_apply (q : Fin 32) : k1_pay4 (F := Ideal) (ix3 (0 : Fin 1) (0 : Fin 1) q) = 0 := by
  unfold k1_pay4
  refine (shapeCast_ab_1ab_apply _ _ (0 : Fin 1) (0 : Fin 1) q).trans ?_
  exact Ideal.ofBits_zero_f32

theorem s2_pay5_apply (q : Fin 32) : k1_pay5 (F := Ideal) (ix3 (0 : Fin 1) (0 : Fin 1) q) = 0 := by
  unfold k1_pay5
  refine (shapeCast_ab_1ab_apply _ _ (0 : Fin 1) (0 : Fin 1) q).trans ?_
  exact Ideal.ofBits_zero_f32

/-- The stored activation block is the computed one (the narrowing is the identity over the extended reals). -/
theorem s2_pay3_apply (v33 : FVec Ideal S2048x32 .f32) (j : S2048x32.Idx) : k1_pay3 (F := Ideal) v33 j = v33 j := rfl

end Cert.KernelIdeal.Stage.S2
end
-- ==== Proof.Stage2Sum.lean ====
import Mathlib.Algebra.BigOperators.Fin

/-!
  Re-bracketing a sum of 32768 terms swept in 16 blocks of 2048. A sweep `a` covers the points `16·a … 16·a + 15`;
  point `n` adds the block `f (2048·n), …, f (2048·n + 2047)` to what the point before left, starting from zero at
  `n ≡ 0 (mod 16)`. After point `n` the running value is the sum of the first `2048·(n mod 16 + 1)` terms from
  `f ((n / 16)·32768)`; after the sweep's last point it is all 32768 of them. In any commutative additive monoid.
-/
namespace Cert.KernelIdeal.Stage.S2

open Finset

variable {M : Type} [AddCommMonoid M]

/-- The running value after point `n`. -/
def s2_run (f : ℕ → M) (n : ℕ) : M := ∑ j ∈ range (2048 * (n % 16 + 1)), f (n / 16 * 32768 + j)

/-- A sweep's first point: zero plus the point's block. -/
theorem s2_run_first (f : ℕ → M) (n : ℕ) (hn : n % 16 = 0) :
    0 + ∑ r ∈ range 2048, f (2048 * n + r) = s2_run f n := by
  unfold s2_run
  rw [zero_add, hn]
  refine Finset.sum_congr rfl fun r _ => congrArg f ?_
  omega

/-- A later point: the value the point before left plus the point's block. -/
theorem s2_run_step (f : ℕ → M) (n : ℕ) (hn : ¬n % 16 = 0) :
    s2_run f (n - 1) + ∑ r ∈ range 2048, f (2048 * n + r) = s2_run f n := by
  unfold s2_run
  have e1 : (n - 1) % 16 + 1 = n % 16 := by omega
  have e2 : (n - 1) / 16 = n / 16 := by omega
  have e3 : 2048 * (n % 16 + 1) = 2048 * (n % 16) + 2048 := by omega
  rw [e1, e2, e3, Finset.sum_range_add]
  refine congrArg (_ + ·) (Finset.sum_congr rfl fun r _ => congrArg f ?_)
  omega

/-- After the last point of sweep `a`: the whole half. -/
theorem s2_run_last (f : ℕ → M) (a : ℕ) (n : ℕ) (hn : n = 16 * a + 15) :
    s2_run f n = ∑ j : Fin 32768, f (a * 32768 + j.val) := by
  unfold s2_run
  have e1 : 2048 * (n % 16 + 1) = 32768 := by omega
  have e2 : n / 16 = a := by omega
  rw [e1, e2, Finset.sum_range]

end Cert.KernelIdeal.Stage.S2
-- ==== Proof.Stage2Acc.lean ====
import proofs.«119830_j18734647345306_2_alg».proof.Proof.Stage2Pieces
import proofs.«119830_j18734647345306_2_alg».proof.Proof.Stage2Pay
import proofs.«119830_j18734647345306_2_alg».proof.Proof.Stage2Sum
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)
open Idealize.ShloMosaic.ValueIdx

/-!
  Stage 2, point by point. The grid is 2 sweeps of 16 points; point `t` reads rows `2048·t … 2048·t + 2047` of the
  first activations and the whole of the scale, shift, weight and bias arrays, so its activation block is rows
  `2048·t …` of `H2`; its statistics rows hold, after the point, the column sums (resp. sums of squares) of `H2` over
  the rows of its sweep up to and including its own block.
-/
namespace Cert.KernelIdeal.Stage.S2
open Cert.KernelIdeal Cert.KernelIdeal.Gen Cert.Spec

variable (V : (c : Dev nD) → (b : Ref sig .tc) → Buf (Elt Ideal) ((c : Thread nD τ).loc b))

/-- The printed index maps, decided over the grid: the two row-blocked windows move with the point, the statistics
    rows with the sweep, everything else stays at block zero. -/
theorem s2_idx_facts : ∀ t : Fin cfg1.N,
    win1_0.index t (0 : Fin 2) = t.val ∧ win1_0.index t (1 : Fin 2) = 0
    ∧ win1_1.index t (0 : Fin 1) = 0 ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0
    ∧ win1_6.index t (0 : Fin 3) = t.val / 16 ∧ win1_6.index t (1 : Fin 3) = 0 ∧ win1_6.index t (2 : Fin 3) = 0
    ∧ win1_7.index t (0 : Fin 3) = t.val / 16 ∧ win1_7.index t (1 : Fin 3) = 0 ∧ win1_7.index t (2 : Fin 3) = 0 :=
  (by decide +kernel : ∀ t : Fin grid1.N, _)

/-- Row `r` of point `t`'s block, in the batch. -/
def s2_row (t : Fin cfg1.N) (r : Fin 2048) : Fin 65536 :=
  ⟨2048 * t.val + r.val, by have := t.isLt; have hN : cfg1.N = 32 := N_1; have := r.isLt; omega⟩

/-- The first activations' block at point `t` is rows `2048·t …` of the array. -/
theorem s2_blk0 (c : Dev nD) (t : Fin cfg1.N) (r : Fin 2048) (k : Fin 512) :
    (iblk1 V c 0 t : FVec Ideal S2048x512 .f32) (ix2 r k) = rd2 (a := 65536) (b := 512) (V c main_v5_0) (s2_row t r) k := by
  obtain ⟨e0, e1, -⟩ := s2_idx_facts t
  unfold iblk1 rd2
  rw [View.read_apply]
  show V c main_v5_0 _ = V c main_v5_0 _
  congr 1
  funext a
  apply Fin.ext
  match a with
  | ⟨0, _⟩ => show win1_0.index t (0 : Fin 2) * 2048 + 1 * r.val = 2048 * t.val + r.val; rw [e0]; omega
  | ⟨1, _⟩ => show win1_0.index t (1 : Fin 2) * 512 + 1 * k.val = k.val; rw [e1]; omega

/-- The scale, shift, weight and bias blocks are the whole arrays. -/
theorem s2_blk1 (c : Dev nD) (t : Fin cfg1.N) (k : Fin 512) :
    (iblk1 V c 1 t : FVec Ideal S512 .f32) (ix1 k) = rd1 (a := 512) (V c main_v21) k := by
  obtain ⟨-, -, e, -⟩ := s2_idx_facts t
  unfold iblk1 rd1
  rw [View.read_apply]
  show V c main_v21 _ = V c main_v21 _
  congr 1
  funext a
  apply Fin.ext
  match a with
  | ⟨0, _⟩ => show win1_1.index t (0 : Fin 1) * 512 + 1 * k.val = k.val; rw [e]; omega

theorem s2_blk2 (c : Dev nD) (t : Fin cfg1.N) (k : Fin 512) :
    (iblk1 V c 2 t : FVec Ideal S512 .f32) (ix1 k) = rd1 (a := 512) (V c main_v23) k := by
  obtain ⟨-, -, -, e, -⟩ := s2_idx_facts t
  unfold iblk1 rd1
  rw [View.read_apply]
  show V c main_v23 _ = V c main_v23 _
  congr 1
  funext a
  apply Fin.ext
  match a with
  | ⟨0, _⟩ => show win1_2.index t (0 : Fin 1) * 512 + 1 * k.val = k.val; rw [e]; omega

theorem s2_blk3 (c : Dev nD) (t : Fin cfg1.N) (q : Fin 32) (k : Fin 512) :
    (iblk1 V c 3 t : FVec Ideal S32x512 .bf16) (ix2 q k) = rd2 (a := 32) (b := 512) (V c main_v2) q k := by
  obtain ⟨-, -, -, -, e0, e1, -⟩ := s2_idx_facts t
  unfold iblk1 rd2
  rw [View.read_apply]
  show V c main_v2 _ = V c main_v2 _
  congr 1
  funext a
  apply Fin.ext
  match a with
  | ⟨0, _⟩ => show win1_3.index t (0 : Fin 2) * 32 + 1 * q.val = q.val; rw [e0]; omega
  | ⟨1, _⟩ => show win1_3.index t (1 : Fin 2) * 512 + 1 * k.val = k.val; rw [e1]; omega

theorem s2_blk4 (c : Dev nD) (t : Fin cfg1.N) (q : Fin 32) :
    (iblk1 V c 4 t : FVec Ideal S32 .f32) (ix1 q) = rd1 (a := 32) (V c main_arg6) q := by
  obtain ⟨-, -, -, -, -, -, e, -⟩ := s2_idx_facts t
  unfold iblk1 rd1
  rw [View.read_apply]
  show V c main_arg6 _ = V c main_arg6 _
  congr 1
  funext a
  apply Fin.ext
  match a with
  | ⟨0, _⟩ => show win1_4.index t (0 : Fin 1) * 32 + 1 * q.val = q.val; rw [e]; omega

/-- So the point's activation block is rows `2048·t …` of `H2`. -/
theorem s2_block_apply (c : Dev nD) (t : Fin cfg1.N) (r : Fin 2048) (q : Fin 32) :
    k1_pay6 (F := Ideal) (iblk1 V c 0 t) (iblk1 V c 1 t) (iblk1 V c 2 t) (iblk1 V c 3 t) (iblk1 V c 4 t) (ix2 r q)
      = H2 V c (s2_row t r) q := by
  refine (s2_pay6_apply (iblk1 V c 0 t) (iblk1 V c 1 t) (iblk1 V c 2 t) (iblk1 V c 3 t) (iblk1 V c 4 t) r q).trans ?_
  unfold H2 dense
  dsimp only
  refine congrArg₂ (· + ·) (Finset.sum_congr rfl fun k _ => ?_) (s2_blk4 V c t q)
  exact congrArg₂ (· * ·) (congrArg ksign (congrArg₂ (· + ·) (congrArg₂ (· * ·) (s2_blk0 V c t r k) (s2_blk1 V c t k))
    (s2_blk2 V c t k))) (s2_blk3 V c t q k)

/-- The activation block the body leaves at point `t`, in either case, is rows `2048·t …` of `H2`. -/
theorem s2_outs5 (c : Dev nD) (t : Fin cfg1.N) (r : Fin 2048) (q : Fin 32) :
    (outsAt1 V c t.val t.isLt).1 (ix2 r q) = H2 V c (s2_row t r) q := by
  by_cases h0 : t.val % 16 = 0
  · rw [outsAt1_A V c t h0]
    dsimp only
    rw [s2_out_A_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t)]
    exact s2_block_apply V c t r q
  · rw [outsAt1_B V c t h0]
    dsimp only
    rw [s2_out_B_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2]
    exact s2_block_apply V c t r q

/-- Column `q` of `H2` as a sequence over all row numbers (zero past the batch). -/
def s2_h2n (c : Dev nD) (q : Fin 32) (p : ℕ) : EReal := if h : p < 65536 then H2 V c ⟨p, h⟩ q else 0
/-- Its squares. -/
def s2_h2sq (c : Dev nD) (q : Fin 32) (p : ℕ) : EReal := s2_h2n V c q p * s2_h2n V c q p

theorem s2_block_h2n (c : Dev nD) (t : Fin cfg1.N) (r : Fin 2048) (q : Fin 32) :
    k1_pay6 (F := Ideal) (iblk1 V c 0 t) (iblk1 V c 1 t) (iblk1 V c 2 t) (iblk1 V c 3 t) (iblk1 V c 4 t) (ix2 r q) = s2_h2n V c q (2048 * t.val + r.val) := by
  refine (s2_block_apply V c t r q).trans ?_
  have h : 2048 * t.val + r.val < 65536 := (s2_row t r).isLt
  unfold s2_h2n
  rw [dif_pos h]
  rfl

/-- The block's column sum, as a sum over row numbers. -/
theorem s2_block_sum (c : Dev nD) (t : Fin cfg1.N) (q : Fin 32) :
    ∑ r : Fin 2048, k1_pay6 (F := Ideal) (iblk1 V c 0 t) (iblk1 V c 1 t) (iblk1 V c 2 t) (iblk1 V c 3 t) (iblk1 V c 4 t) (ix2 r q)
      = ∑ r ∈ Finset.range 2048, s2_h2n V c q (2048 * t.val + r) := by
  rw [Finset.sum_range]
  exact Finset.sum_congr rfl fun r _ => s2_block_h2n V c t r q

/-- The block's column sum of squares, as a sum over row numbers. -/
theorem s2_block_sumsq (c : Dev nD) (t : Fin cfg1.N) (q : Fin 32) :
    ∑ r : Fin 2048, k1_pay6 (F := Ideal) (iblk1 V c 0 t) (iblk1 V c 1 t) (iblk1 V c 2 t) (iblk1 V c 3 t) (iblk1 V c 4 t) (ix2 r q) * k1_pay6 (F := Ideal) (iblk1 V c 0 t) (iblk1 V c 1 t) (iblk1 V c 2 t) (iblk1 V c 3 t) (iblk1 V c 4 t) (ix2 r q)
      = ∑ r ∈ Finset.range 2048, s2_h2sq V c q (2048 * t.val + r) := by
  rw [Finset.sum_range]
  exact Finset.sum_congr rfl fun r _ => congrArg₂ (· * ·) (s2_block_h2n V c t r q) (s2_block_h2n V c t r q)

/-- One point of the sums row: zero plus the block at a sweep's first point, the carried row plus the block later. -/
theorem s2_outs6_step (c : Dev nD) (q : Fin 32) (t : Fin cfg1.N)
    (ih : ¬t.val % 16 = 0 → (outsAt1 V c (t.val - 1) (Nat.lt_of_le_of_lt (Nat.sub_le _ _) t.isLt)).2.1 (ix3 (0 : Fin 1) (0 : Fin 1) q) = s2_run (s2_h2n V c q) (t.val - 1)) :
    (outsAt1 V c t.val t.isLt).2.1 (ix3 (0 : Fin 1) (0 : Fin 1) q) = s2_run (s2_h2n V c q) t.val := by
  by_cases h0 : t.val % 16 = 0
  · rw [outsAt1_A V c t h0]
    dsimp only
    rw [s2_out_A_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t)]
    refine (s2_sumrow_apply (iblk1 V c 0 t) (iblk1 V c 1 t) (iblk1 V c 2 t) (iblk1 V c 3 t) (iblk1 V c 4 t) (k1_pay4 (F := Ideal)) q).trans ?_
    exact (congrArg₂ (· + ·) (s2_pay4_apply q) (s2_block_sum V c t q)).trans (s2_run_first _ t.val h0)
  · rw [outsAt1_B V c t h0]
    dsimp only
    rw [s2_out_B_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2]
    refine (s2_sumrow_apply (iblk1 V c 0 t) (iblk1 V c 1 t) (iblk1 V c 2 t) (iblk1 V c 3 t) (iblk1 V c 4 t) (outsAt1 V c (t.val - 1) (Nat.lt_of_le_of_lt (Nat.sub_le _ _) t.isLt)).2.1 q).trans ?_
    exact (congrArg₂ (· + ·) (ih h0) (s2_block_sum V c t q)).trans (s2_run_step _ t.val h0)

/-- The sums row after every point, by induction on the point. -/
theorem s2_outs6 (c : Dev nD) (q : Fin 32) : ∀ (n : ℕ) (h : n < cfg1.N),
    (outsAt1 V c n h).2.1 (ix3 (0 : Fin 1) (0 : Fin 1) q) = s2_run (s2_h2n V c q) n
  | 0, h => s2_outs6_step V c q ⟨0, h⟩ (fun h0 => absurd (Nat.zero_mod 16) h0)
  | n + 1, h => s2_outs6_step V c q ⟨n + 1, h⟩ (fun _ => s2_outs6 c q n (Nat.lt_of_succ_lt h))

/-- One point of the sums-of-squares row. -/
theorem s2_outs7_step (c : Dev nD) (q : Fin 32) (t : Fin cfg1.N)
    (ih : ¬t.val % 16 = 0 → (outsAt1 V c (t.val - 1) (Nat.lt_of_le_of_lt (Nat.sub_le _ _) t.isLt)).2.2 (ix3 (0 : Fin 1) (0 : Fin 1) q) = s2_run (s2_h2sq V c q) (t.val - 1)) :
    (outsAt1 V c t.val t.isLt).2.2 (ix3 (0 : Fin 1) (0 : Fin 1) q) = s2_run (s2_h2sq V c q) t.val := by
  by_cases h0 : t.val % 16 = 0
  · rw [outsAt1_A V c t h0]
    dsimp only
    rw [s2_out_A_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t)]
    refine (s2_sqrow_apply (k1_pay6 (F := Ideal) (iblk1 V c 0 t) (iblk1 V c 1 t) (iblk1 V c 2 t) (iblk1 V c 3 t) (iblk1 V c 4 t)) (k1_pay5 (F := Ideal)) q).trans ?_
    exact (congrArg₂ (· + ·) (s2_pay5_apply q) (s2_block_sumsq V c t q)).trans (s2_run_first _ t.val h0)
  · rw [outsAt1_B V c t h0]
    dsimp only
    rw [s2_out_B_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2]
    refine (s2_sqrow_apply (k1_pay6 (F := Ideal) (iblk1 V c 0 t) (iblk1 V c 1 t) (iblk1 V c 2 t) (iblk1 V c 3 t) (iblk1 V c 4 t)) (outsAt1 V c (t.val - 1) (Nat.lt_of_le_of_lt (Nat.sub_le _ _) t.isLt)).2.2 q).trans ?_
    exact (congrArg₂ (· + ·) (ih h0) (s2_block_sumsq V c t q)).trans (s2_run_step _ t.val h0)

/-- The sums-of-squares row after every point. -/
theorem s2_outs7 (c : Dev nD) (q : Fin 32) : ∀ (n : ℕ) (h : n < cfg1.N),
    (outsAt1 V c n h).2.2 (ix3 (0 : Fin 1) (0 : Fin 1) q) = s2_run (s2_h2sq V c q) n
  | 0, h => s2_outs7_step V c q ⟨0, h⟩ (fun h0 => absurd (Nat.zero_mod 16) h0)
  | n + 1, h => s2_outs7_step V c q ⟨n + 1, h⟩ (fun _ => s2_outs7 c q n (Nat.lt_of_succ_lt h))

/-- After a sweep's last point the rows hold the sums over the sweep's half of the batch. -/
theorem s2_outs6_last (c : Dev nD) (q : Fin 32) (a : Fin 2) (n : ℕ) (h : n < cfg1.N) (hn : n = 16 * a.val + 15) :
    (outsAt1 V c n h).2.1 (ix3 (0 : Fin 1) (0 : Fin 1) q) = ∑ j : Fin 32768, H2 V c (half a j) q := by
  refine (s2_outs6 V c q n h).trans ((s2_run_last _ a.val n hn).trans ?_)
  refine Finset.sum_congr rfl fun j _ => ?_
  have hj : a.val * 32768 + j.val < 65536 := (half a j).isLt
  unfold s2_h2n
  rw [dif_pos hj]
  rfl

theorem s2_outs7_last (c : Dev nD) (q : Fin 32) (a : Fin 2) (n : ℕ) (h : n < cfg1.N) (hn : n = 16 * a.val + 15) :
    (outsAt1 V c n h).2.2 (ix3 (0 : Fin 1) (0 : Fin 1) q) = ∑ j : Fin 32768, H2 V c (half a j) q * H2 V c (half a j) q := by
  refine (s2_outs7 V c q n h).trans ((s2_run_last _ a.val n hn).trans ?_)
  refine Finset.sum_congr rfl fun j _ => ?_
  have hj : a.val * 32768 + j.val < 65536 := (half a j).isLt
  unfold s2_h2sq s2_h2n
  rw [dif_pos hj]
  rfl

end Cert.KernelIdeal.Stage.S2
end
-- ==== Proof.Stage2.lean ====
import proofs.«119830_j18734647345306_2_alg».proof.Proof.Stage2Acc
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)
open Idealize.ShloMosaic.ValueIdx

/-!
  Stage 2's three result arrays. Every point writes its activation block back, and the 32 blocks tile the
  `[65536, 32]` array, so it ends holding `H2`. Each sweep writes its statistics rows back once, after its last
  point, into its own row of the `[2, 1, 32]` arrays, so they end holding the column sums (resp. sums of squares) of
  `H2` over each half of the batch.
-/
namespace Cert.KernelIdeal.Stage
open Cert.KernelIdeal Cert.KernelIdeal.Gen Cert.Spec Cert.KernelIdeal.Stage.S2

variable (V : (c : Dev nD) → (b : Ref sig .tc) → Buf (Elt Ideal) ((c : Thread nD τ).loc b))

namespace S2

/-- What the activations' array ends holding. -/
def G5 (c : Dev nD) : Buf (Elt Ideal) ((c : Thread nD τ).loc main_v24_0) :=
  fun i : S65536x32.Idx => H2 V c ⟨(i 0).val, idx2_lt0 i⟩ ⟨(i 1).val, idx2_lt1 i⟩

/-- What the sums' and the sums of squares' arrays end holding. -/
@[irreducible] def G6 (c : Dev nD) : Buf (Elt Ideal) ((c : Thread nD τ).loc main_v24_1) :=
  fun i : S2x1x32.Idx => ((∑ j : Fin 32768, H2 V c (half ⟨(i 0).val, (i 0).isLt⟩ j) ⟨(i 2).val, (i 2).isLt⟩ : EReal))
@[irreducible] def G7 (c : Dev nD) : Buf (Elt Ideal) ((c : Thread nD τ).loc main_v24_2) :=
  fun i : S2x1x32.Idx => ((∑ j : Fin 32768,
    H2 V c (half ⟨(i 0).val, (i 0).isLt⟩ j) ⟨(i 2).val, (i 2).isLt⟩ * H2 V c (half ⟨(i 0).val, (i 0).isLt⟩ j) ⟨(i 2).val, (i 2).isLt⟩ : EReal))

/-- Point `t` writes back block `t` of `H2`. -/
theorem flushed5 (c : Dev nD) (t : Fin cfg1.N) (hf : (cfg1.win 5).flush t = true) :
    (dat1 (F := Ideal) V c).flushed 5 t = ((cfg1.win 5).blk t).view.read (Elt Ideal) (G5 V c) := by
  obtain ⟨-, -, -, -, -, -, -, e0, e1, -⟩ := s2_idx_facts t
  show (cfg1.win 5).cut (grid1.coords t) ((dat1 V c).after 5 t) = _
  rw [after1_5]
  funext j
  obtain ⟨r, q, rfl⟩ : ∃ (r : Fin 2048) (q : Fin 32), j = ix2 r q := ⟨j 0, j 1, eq_ix2 j⟩
  rw [View.read_apply]
  show (outsAt1 V c t.val t.isLt).1 (ix2 r q) = G5 V c (((cfg1.win 5).blk t).view.emb (ix2 r q))
  rw [s2_outs5 V c t r q]
  unfold G5
  have h0 : ((((cfg1.win 5).blk t).view.emb (ix2 r q)) 0).val = 2048 * t.val + r.val := by
    show win1_5.index t (0 : Fin 2) * 2048 + 1 * r.val = _; rw [e0]; omega
  have h1 : ((((cfg1.win 5).blk t).view.emb (ix2 r q)) 1).val = q.val := by
    show win1_5.index t (1 : Fin 2) * 32 + 1 * q.val = _; rw [e1]; omega
  exact congrArg₂ (H2 V c) (Fin.ext h0.symm) (Fin.ext h1.symm)

theorem final5 (c : Dev nD) : (dat1 (F := Ideal) V c).arrAt 5 cfg1.N = G5 V c := by
  have hN : cfg1.N = 32 := N_1
  refine (dat1 (F := Ideal) V c).arrAt_eq_of_cover 5 (G5 V c) (flushed5 V c) fun (i : S65536x32.Idx) => ?_
  have hi0 : (i 0).val < 65536 := (i 0).isLt
  have hi1 : (i 1).val < 32 := (i 1).isLt
  obtain ⟨t, ht⟩ : ∃ t : Fin cfg1.N, t.val = (i 0).val / 2048 := ⟨⟨(i 0).val / 2048, by omega⟩, rfl⟩
  obtain ⟨-, -, -, -, -, -, -, e0, e1, -⟩ := s2_idx_facts t
  refine ⟨t, flush1_5 t, ?_⟩
  show i ∈ ((View.whole main_v24_0).slice (win1_5.rect t)).set
  rw [View.set_slice_whole, Rect.mem_set_unit]
  intro a
  match a with
  | ⟨0, _⟩ =>
    show win1_5.index t (0 : Fin 2) * 2048 ≤ (i 0).val ∧ (i 0).val < win1_5.index t (0 : Fin 2) * 2048 + 2048
    rw [e0]; omega
  | ⟨1, _⟩ =>
    show win1_5.index t (1 : Fin 2) * 32 ≤ (i 1).val ∧ (i 1).val < win1_5.index t (1 : Fin 2) * 32 + 32
    rw [e1]; omega

/-- The last point of a sweep writes row `t / 16` back. -/
theorem flushed6 (c : Dev nD) (t : Fin cfg1.N) (hf : (cfg1.win 6).flush t = true) :
    (dat1 (F := Ideal) V c).flushed 6 t = ((cfg1.win 6).blk t).view.read (Elt Ideal) (G6 V c) := by
  have hN : cfg1.N = 32 := N_1
  have ht := t.isLt
  have h15 : t.val % 16 = 15 := (flush1_6 t).mp hf
  obtain ⟨-, -, -, -, -, -, -, -, -, e0, e1, e2, -⟩ := s2_idx_facts t
  show (cfg1.win 6).cut (grid1.coords t) ((dat1 V c).after 6 t) = _
  rw [after1_6]
  funext j
  obtain ⟨u0, u1, q, rfl⟩ : ∃ (u0 u1 : Fin 1) (q : Fin 32), j = ix3 u0 u1 q := ⟨j 0, j 1, j 2, eq_ix3 j⟩
  obtain rfl : u0 = 0 := Subsingleton.elim _ _
  obtain rfl : u1 = 0 := Subsingleton.elim _ _
  rw [View.read_apply]
  show (outsAt1 V c t.val t.isLt).2.1 (ix3 (0 : Fin 1) (0 : Fin 1) q) = G6 V c (((cfg1.win 6).blk t).view.emb (ix3 (0 : Fin 1) (0 : Fin 1) q))
  rw [s2_outs6_last V c q ⟨t.val / 16, by omega⟩ t.val t.isLt (by dsimp only; omega)]
  unfold G6
  have h0 : ((((cfg1.win 6).blk t).view.emb (ix3 (0 : Fin 1) (0 : Fin 1) q)) 0).val = t.val / 16 := by
    show win1_6.index t (0 : Fin 3) * 1 + 1 * 0 = _; rw [e0]; omega
  have h2 : ((((cfg1.win 6).blk t).view.emb (ix3 (0 : Fin 1) (0 : Fin 1) q)) 2).val = q.val := by
    show win1_6.index t (2 : Fin 3) * 32 + 1 * q.val = _; rw [e2]; omega
  have ha : (⟨t.val / 16, by omega⟩ : Fin 2) = ⟨((((cfg1.win 6).blk t).view.emb (ix3 (0 : Fin 1) (0 : Fin 1) q)) 0).val, ((((cfg1.win 6).blk t).view.emb (ix3 (0 : Fin 1) (0 : Fin 1) q)) 0).isLt⟩ := Fin.ext h0.symm
  have hq : q = ⟨((((cfg1.win 6).blk t).view.emb (ix3 (0 : Fin 1) (0 : Fin 1) q)) 2).val, ((((cfg1.win 6).blk t).view.emb (ix3 (0 : Fin 1) (0 : Fin 1) q)) 2).isLt⟩ := Fin.ext h2.symm
  rw [← ha, ← hq]

theorem final6 (c : Dev nD) : (dat1 (F := Ideal) V c).arrAt 6 cfg1.N = G6 V c := by
  have hN : cfg1.N = 32 := N_1
  refine (dat1 (F := Ideal) V c).arrAt_eq_of_cover 6 (G6 V c) (flushed6 V c) fun (i : S2x1x32.Idx) => ?_
  have hi0 : (i 0).val < 2 := (i 0).isLt
  have hi1 : (i 1).val < 1 := (i 1).isLt
  have hi2 : (i 2).val < 32 := (i 2).isLt
  obtain ⟨t, ht⟩ : ∃ t : Fin cfg1.N, t.val = 16 * (i 0).val + 15 := ⟨⟨16 * (i 0).val + 15, by omega⟩, rfl⟩
  obtain ⟨-, -, -, -, -, -, -, -, -, e0, e1, e2, -⟩ := s2_idx_facts t
  refine ⟨t, (flush1_6 t).mpr (by omega), ?_⟩
  show i ∈ ((View.whole main_v24_1).slice (win1_6.rect t)).set
  rw [View.set_slice_whole, Rect.mem_set_unit]
  intro a
  match a with
  | ⟨0, _⟩ =>
    show win1_6.index t (0 : Fin 3) * 1 ≤ (i 0).val ∧ (i 0).val < win1_6.index t (0 : Fin 3) * 1 + 1
    rw [e0]; omega
  | ⟨1, _⟩ =>
    show win1_6.index t (1 : Fin 3) * 1 ≤ (i 1).val ∧ (i 1).val < win1_6.index t (1 : Fin 3) * 1 + 1
    rw [e1]; omega
  | ⟨2, _⟩ =>
    show win1_6.index t (2 : Fin 3) * 32 ≤ (i 2).val ∧ (i 2).val < win1_6.index t (2 : Fin 3) * 32 + 32
    rw [e2]; omega

/-- The last point of a sweep writes row `t / 16` back. -/
theorem flushed7 (c : Dev nD) (t : Fin cfg1.N) (hf : (cfg1.win 7).flush t = true) :
    (dat1 (F := Ideal) V c).flushed 7 t = ((cfg1.win 7).blk t).view.read (Elt Ideal) (G7 V c) := by
  have hN : cfg1.N = 32 := N_1
  have ht := t.isLt
  have h15 : t.val % 16 = 15 := (flush1_7 t).mp hf
  obtain ⟨-, -, -, -, -, -, -, -, -, -, -, -, e0, e1, e2⟩ := s2_idx_facts t
  show (cfg1.win 7).cut (grid1.coords t) ((dat1 V c).after 7 t) = _
  rw [after1_7]
  funext j
  obtain ⟨u0, u1, q, rfl⟩ : ∃ (u0 u1 : Fin 1) (q : Fin 32), j = ix3 u0 u1 q := ⟨j 0, j 1, j 2, eq_ix3 j⟩
  obtain rfl : u0 = 0 := Subsingleton.elim _ _
  obtain rfl : u1 = 0 := Subsingleton.elim _ _
  rw [View.read_apply]
  show (outsAt1 V c t.val t.isLt).2.2 (ix3 (0 : Fin 1) (0 : Fin 1) q) = G7 V c (((cfg1.win 7).blk t).view.emb (ix3 (0 : Fin 1) (0 : Fin 1) q))
  rw [s2_outs7_last V c q ⟨t.val / 16, by omega⟩ t.val t.isLt (by dsimp only; omega)]
  unfold G7
  have h0 : ((((cfg1.win 7).blk t).view.emb (ix3 (0 : Fin 1) (0 : Fin 1) q)) 0).val = t.val / 16 := by
    show win1_7.index t (0 : Fin 3) * 1 + 1 * 0 = _; rw [e0]; omega
  have h2 : ((((cfg1.win 7).blk t).view.emb (ix3 (0 : Fin 1) (0 : Fin 1) q)) 2).val = q.val := by
    show win1_7.index t (2 : Fin 3) * 32 + 1 * q.val = _; rw [e2]; omega
  have ha : (⟨t.val / 16, by omega⟩ : Fin 2) = ⟨((((cfg1.win 7).blk t).view.emb (ix3 (0 : Fin 1) (0 : Fin 1) q)) 0).val, ((((cfg1.win 7).blk t).view.emb (ix3 (0 : Fin 1) (0 : Fin 1) q)) 0).isLt⟩ := Fin.ext h0.symm
  have hq : q = ⟨((((cfg1.win 7).blk t).view.emb (ix3 (0 : Fin 1) (0 : Fin 1) q)) 2).val, ((((cfg1.win 7).blk t).view.emb (ix3 (0 : Fin 1) (0 : Fin 1) q)) 2).isLt⟩ := Fin.ext h2.symm
  rw [← ha, ← hq]

theorem final7 (c : Dev nD) : (dat1 (F := Ideal) V c).arrAt 7 cfg1.N = G7 V c := by
  have hN : cfg1.N = 32 := N_1
  refine (dat1 (F := Ideal) V c).arrAt_eq_of_cover 7 (G7 V c) (flushed7 V c) fun (i : S2x1x32.Idx) => ?_
  have hi0 : (i 0).val < 2 := (i 0).isLt
  have hi1 : (i 1).val < 1 := (i 1).isLt
  have hi2 : (i 2).val < 32 := (i 2).isLt
  obtain ⟨t, ht⟩ : ∃ t : Fin cfg1.N, t.val = 16 * (i 0).val + 15 := ⟨⟨16 * (i 0).val + 15, by omega⟩, rfl⟩
  obtain ⟨-, -, -, -, -, -, -, -, -, -, -, -, e0, e1, e2⟩ := s2_idx_facts t
  refine ⟨t, (flush1_7 t).mpr (by omega), ?_⟩
  show i ∈ ((View.whole main_v24_2).slice (win1_7.rect t)).set
  rw [View.set_slice_whole, Rect.mem_set_unit]
  intro a
  match a with
  | ⟨0, _⟩ =>
    show win1_7.index t (0 : Fin 3) * 1 ≤ (i 0).val ∧ (i 0).val < win1_7.index t (0 : Fin 3) * 1 + 1
    rw [e0]; omega
  | ⟨1, _⟩ =>
    show win1_7.index t (1 : Fin 3) * 1 ≤ (i 1).val ∧ (i 1).val < win1_7.index t (1 : Fin 3) * 1 + 1
    rw [e1]; omega
  | ⟨2, _⟩ =>
    show win1_7.index t (2 : Fin 3) * 32 ≤ (i 2).val ∧ (i 2).val < win1_7.index t (2 : Fin 3) * 32 + 32
    rw [e2]; omega

end S2

theorem s2_h2 (c : Dev nD) (p : Fin 65536) (q : Fin 32) :
    (dat1 (F := Ideal) V c).arrAt 5 cfg1.N (ix2 p q) = H2 V c p q :=
  congrFun (S2.final5 V c) (ix2 p q)

theorem s2_sum (c : Dev nD) (a : Fin 2) (q : Fin 32) :
    (dat1 (F := Ideal) V c).arrAt 6 cfg1.N (ix3 a (0 : Fin 1) q) = ∑ j : Fin 32768, H2 V c (half a j) q :=
  (congrFun (S2.final6 V c) (ix3 a (0 : Fin 1) q)).trans (by unfold S2.G6; rfl)

theorem s2_sumsq (c : Dev nD) (a : Fin 2) (q : Fin 32) :
    (dat1 (F := Ideal) V c).arrAt 7 cfg1.N (ix3 a (0 : Fin 1) q) = ∑ j : Fin 32768, H2 V c (half a j) q * H2 V c (half a j) q :=
  (congrFun (S2.final7 V c) (ix3 a (0 : Fin 1) q)).trans (by unfold S2.G7; rfl)

end Cert.KernelIdeal.Stage
end
-- ==== Proof.AsmKernel.lean ====
/-
  The kernel's result as the streaming network of its argument arrays.

  Stage by stage: stage 1 is entered with the input, the signs of the first weights and the first bias, so its
  activations are the first dense layer; stage 2 is entered with those activations, and with the scale and shift
  computed from the two halves' partial sums of stage 1's statistics rows — the sums over the batch, regrouped by
  halves — so the sign it takes is the streaming batch-normalised sign of the first layer, and its activations are
  the second dense layer of that; stage 3 the same one level up. The result buffer ends at stage 3's activations.
-/
import proofs.«119830_j18734647345306_2_alg».proof.Proof.Spec
import proofs.«119830_j18734647345306_2_alg».proof.Proof.Stage
import proofs.«119830_j18734647345306_2_alg».proof.Proof.AsmRegroup
import proofs.«119830_j18734647345306_2_alg».proof.Proof.Stage3
import proofs.«119830_j18734647345306_2_alg».proof.Proof.Folds
import proofs.«119830_j18734647345306_2_alg».proof.Proof.Stage1
import proofs.«119830_j18734647345306_2_alg».proof.Proof.Stage2

noncomputable section

open Idealize.ShloMosaic Idealize.ShloMosaic.TcCoe Idealize.SL.Sem
open Idealize.ShloMosaic.Pipeline (Dat)
open Idealize.ShloMosaic.ValueIdx
open scoped BigOperators

namespace Cert.Spec

/-- A dense layer of pointwise equal data. -/
theorem dense_congr {P K Q : ℕ} {x x' : Fin P → Fin K → EReal} {w w' : Fin Q → Fin K → EReal} {b b' : Fin Q → EReal}
    (hx : ∀ p k, x p k = x' p k) (hw : ∀ q k, w q k = w' q k) (hb : b = b') : dense x w b = dense x' w' b' := by
  have hx' : x = x' := funext fun p => funext fun k => hx p k
  have hw' : w = w' := funext fun q => funext fun k => hw q k
  rw [hx', hw', hb]

/-- The streaming activation from the halves' partial sums: with the layer entry `A = h p k`, the statistics rows
    `R4 a = Σⱼ h (half a j) k` and `R5 a = Σⱼ h (half a j) k²`, and scale and shift computed from the rows' sums,
    the sign taken is the streaming batch-normalised sign of `h` at `(p, k)`. -/
theorem act_eq {Q : ℕ} (h : Fin 65536 → Fin Q → EReal) (g be : Fin Q → EReal) (A sc sh : EReal) (R4 R5 : Fin 2 → EReal)
    (p : Fin 65536) (k : Fin Q) (hA : A = h p k)
    (h4 : ∀ a, R4 a = ∑ j : Fin 32768, h (half a j) k)
    (h5 : ∀ a, R5 a = ∑ j : Fin 32768, h (half a j) k * h (half a j) k)
    (hsc : sc = kscale (g k) (z32 + ∑ a, R4 a) (z32 + ∑ a, R5 a))
    (hsh : sh = kshift (be k) (g k) (z32 + ∑ a, R4 a) (z32 + ∑ a, R5 a)) :
    ksign (A * sc + sh) = kbn h g be p k := by
  have e4 : ∑ a, R4 a = ∑ p : Fin 65536, h p k := by
    simp only [h4]; exact sum_half (fun p => h p k)
  have e5 : ∑ a, R5 a = ∑ p : Fin 65536, h p k * h p k := by
    simp only [h5]; exact sum_half (fun p => h p k * h p k)
  rw [hA, hsc, hsh, e4, e5]
  rfl

end Cert.Spec

namespace Cert.KernelIdeal.Asm

open Cert.KernelIdeal Cert.KernelIdeal.Gen Cert.Spec Cert.KernelIdeal.Stage Cert.KernelIdeal.Fold

variable (m : (ℓ : Loc nD τ sig) → Buf (Elt Ideal) ℓ) (ρ : Dev nD → PrngReg) (c : Dev nD)

/-- The streaming network of one core's argument arrays. -/
def net : Fin 65536 → Fin 10 → EReal :=
  kernelNet (rd2 (a := 65536) (b := 784) (m ((c.tc : Thread nD τ).loc main_arg0)))
    (rd2 (a := 512) (b := 784) (m ((c.tc : Thread nD τ).loc main_arg1)))
    (rd1 (a := 512) (m ((c.tc : Thread nD τ).loc main_arg2)))
    (rd1 (a := 512) (m ((c.tc : Thread nD τ).loc main_arg3)))
    (rd1 (a := 512) (m ((c.tc : Thread nD τ).loc main_arg4)))
    (rd2 (a := 32) (b := 512) (m ((c.tc : Thread nD τ).loc main_arg5)))
    (rd1 (a := 32) (m ((c.tc : Thread nD τ).loc main_arg6)))
    (rd1 (a := 32) (m ((c.tc : Thread nD τ).loc main_arg7)))
    (rd1 (a := 32) (m ((c.tc : Thread nD τ).loc main_arg8)))
    (rd2 (a := 10) (b := 32) (m ((c.tc : Thread nD τ).loc main_arg9)))
    (rd1 (a := 10) (m ((c.tc : Thread nD τ).loc main_arg10)))

/-- Stage 1's activations are the first dense layer of the arguments. -/
theorem H1_eq :
    H1 (V1 m ρ) c
      = dense (rd2 (a := 65536) (b := 784) (m ((c.tc : Thread nD τ).loc main_arg0)))
          (sgnW (rd2 (a := 512) (b := 784) (m ((c.tc : Thread nD τ).loc main_arg1))))
          (rd1 (a := 512) (m ((c.tc : Thread nD τ).loc main_arg2))) :=
  dense_congr (fun p k => congrFun (congrFun (congrArg (rd2 (a := 65536) (b := 784)) (e1_x m ρ c)) p) k)
    (fun q k => e1_w m ρ c q k) (congrArg (rd1 (a := 512)) (e1_b m ρ c))

/-- Stage 2's activations are the second dense layer of the streaming sign of stage 1's. -/
theorem H2_eq :
    H2 (V3 m ρ) c
      = dense (kbn (H1 (V1 m ρ) c) (rd1 (a := 512) (m ((c.tc : Thread nD τ).loc main_arg3)))
            (rd1 (a := 512) (m ((c.tc : Thread nD τ).loc main_arg4))))
          (sgnW (rd2 (a := 32) (b := 512) (m ((c.tc : Thread nD τ).loc main_arg5))))
          (rd1 (a := 32) (m ((c.tc : Thread nD τ).loc main_arg6))) :=
  dense_congr
    (fun p k => act_eq (H1 (V1 m ρ) c) _ _ _ _ _
      (fun a => rd3 (a := 2) (b := 1) (d := 512) ((dat0 (V1 m ρ) c).arrAt 4 cfg0.N) a 0 k)
      (fun a => rd3 (a := 2) (b := 1) (d := 512) ((dat0 (V1 m ρ) c).arrAt 5 cfg0.N) a 0 k) p k
      ((congrFun (congrFun (congrArg (rd2 (a := 65536) (b := 512)) (e2_h m ρ c)) p) k).trans (s1_h1 (V1 m ρ) c p k))
      (fun a => s1_sum (V1 m ρ) c a k) (fun a => s1_sumsq (V1 m ρ) c a k)
      (e2_scale m ρ c k) (e2_shift m ρ c k))
    (fun q k => e2_w m ρ c q k) (congrArg (rd1 (a := 32)) (e2_b m ρ c))

/-- Stage 3's activations are the third dense layer of the streaming sign of stage 2's. -/
theorem H3_eq :
    H3 (V5 m ρ) c
      = dense (kbn (H2 (V3 m ρ) c) (rd1 (a := 32) (m ((c.tc : Thread nD τ).loc main_arg7)))
            (rd1 (a := 32) (m ((c.tc : Thread nD τ).loc main_arg8))))
          (sgnW (rd2 (a := 10) (b := 32) (m ((c.tc : Thread nD τ).loc main_arg9))))
          (rd1 (a := 10) (m ((c.tc : Thread nD τ).loc main_arg10))) :=
  dense_congr
    (fun p k => act_eq (H2 (V3 m ρ) c) _ _ _ _ _
      (fun a => rd3 (a := 2) (b := 1) (d := 32) ((dat1 (V3 m ρ) c).arrAt 6 cfg1.N) a 0 k)
      (fun a => rd3 (a := 2) (b := 1) (d := 32) ((dat1 (V3 m ρ) c).arrAt 7 cfg1.N) a 0 k) p k
      ((congrFun (congrFun (congrArg (rd2 (a := 65536) (b := 32)) (e3_h m ρ c)) p) k).trans (s2_h2 (V3 m ρ) c p k))
      (fun a => s2_sum (V3 m ρ) c a k) (fun a => s2_sumsq (V3 m ρ) c a k)
      (e3_scale m ρ c k) (e3_shift m ρ c k))
    (fun q k => e3_w m ρ c q k) (congrArg (rd1 (a := 10)) (e3_b m ρ c))

/-- The kernel's result buffer, read at an entry, is the streaming network of the argument arrays. -/
theorem kernel_value (p : Fin 65536) (j : Fin 10) :
    rd2 (a := 65536) (b := 10) (W6 m ρ c (Proc.devRef .tc main_v43)) p j = net m c p j := by
  have h0 : rd2 (a := 65536) (b := 10) (W6 m ρ c (Proc.devRef .tc main_v43)) p j = H3 (V5 m ρ) c p j :=
    (congrFun (congrFun (congrArg (rd2 (a := 65536) (b := 10)) (out_eq m ρ c)) p) j).trans (s3_out (V5 m ρ) c p j)
  rw [h0, H3_eq, H2_eq, H1_eq]
  rfl

end Cert.KernelIdeal.Asm

end
-- ==== Proof.RefOps.lean ====
/-
  The reference program's @main as the straight line of its operations — the outlined functions' bodies written at
  their call sites over each call's buffers — cut into seven stretches: the three dense layers, and for each of the
  two normalised layers the batch statistics (mean and variance of every column) and the normalisation followed by
  the clip and the sign. The line is @main (by unfolding), every operation touches TensorCore buffers only and none
  allocates, so every weakly fair execution ends with each buffer at the fold of the operations over the launch
  contents.
-/
import proofs.«119830_j18734647345306_2_alg».proof.Proof.Gen.ReferenceIdeal
import Idealize.ShloMosaic.Lib.StableHlo.Run
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The first dense layer: the weight's straight-through sign, its transpose, the product, the bias. -/
abbrev opsD1 : List (HloOp τ sig (Elt F)) :=
  [ StableHlo.unary main_arg1 main_v0 (Host.sign : (⟨S512x784, .f32⟩ : BufTy).Contents (Elt F) → (⟨S512x784, .f32⟩ : BufTy).Contents (Elt F)),
    StableHlo.binary main_v0 main_arg1 main_v1 (subf : (⟨S512x784, .f32⟩ : BufTy).Contents (Elt F) → (⟨S512x784, .f32⟩ : BufTy).Contents (Elt F) → (⟨S512x784, .f32⟩ : BufTy).Contents (Elt F)),
    StableHlo.binary main_arg1 main_v1 main_v2 (addf : (⟨S512x784, .f32⟩ : BufTy).Contents (Elt F) → (⟨S512x784, .f32⟩ : BufTy).Contents (Elt F) → (⟨S512x784, .f32⟩ : BufTy).Contents (Elt F)),
    StableHlo.unary main_v2 main_v3 ((transpose S784x512 [1, 0] · transposes_S512x784_S784x512_1_0) : (⟨S512x784, .f32⟩ : BufTy).Contents (Elt F) → (⟨S784x512, .f32⟩ : BufTy).Contents (Elt F)),
    StableHlo.binary main_arg0 main_v3 main_v4 ((fun l r => Host.dotGeneral dot_S65536x784_S784x512_S65536x512_1_0_0_1_n_n none l r) : (⟨S65536x784, .f32⟩ : BufTy).Contents (Elt F) → (⟨S784x512, .f32⟩ : BufTy).Contents (Elt F) → (⟨S65536x512, .f32⟩ : BufTy).Contents (Elt F)),
    StableHlo.unary main_arg2 main_v5 (broadcastInDim S1x512 ![1] bcast_S512_S1x512_1 : (⟨S512, .f32⟩ : BufTy).Contents (Elt F) → (⟨S1x512, .f32⟩ : BufTy).Contents (Elt F)),
    StableHlo.unary main_v5 main_v6 (broadcastInDim S65536x512 ![0, 1] bcast_S1x512_S65536x512_0_1 : (⟨S1x512, .f32⟩ : BufTy).Contents (Elt F) → (⟨S65536x512, .f32⟩ : BufTy).Contents (Elt F)),
    StableHlo.binary main_v4 main_v6 main_v7 (addf : (⟨S65536x512, .f32⟩ : BufTy).Contents (Elt F) → (⟨S65536x512, .f32⟩ : BufTy).Contents (Elt F) → (⟨S65536x512, .f32⟩ : BufTy).Contents (Elt F)) ]

theorem opsD1_sub : (opsD1 : List (HloOp τ sig (Elt F))).Forall fun op => op.bufs ⊆ tcRefs τ sig :=
  ⟨unary_bufs_sub .., binary_bufs_sub .., binary_bufs_sub .., unary_bufs_sub .., binary_bufs_sub .., unary_bufs_sub .., unary_bufs_sub .., binary_bufs_sub ..⟩

theorem opsD1_fresh : ∀ op ∈ (opsD1 : List (HloOp τ sig (Elt F))), op.fresh = ∅ := by
  intro _ h; (repeat (cases h with | head => rfl | tail _ h => ?_)); exact nomatch h

/-- The first layer's column means and variances. -/
abbrev opsM1 : List (HloOp τ sig (Elt F)) :=
  [ StableHlo.nullary main_cst (constant S_ .f32 0x00000000#32),
    StableHlo.binary main_v7 main_cst main_v8 ((fun x v => Host.reduceAdd x v reducesTo_S65536x512_S512_d0 h_S_) : (⟨S65536x512, .f32⟩ : BufTy).Contents (Elt F) → (⟨S_, .f32⟩ : BufTy).Contents (Elt F) → (⟨S512, .f32⟩ : BufTy).Contents (Elt F)),
    StableHlo.nullary main_cst_0 (constant S_ .f32 0x47800000#32),
    StableHlo.unary main_cst_0 main_v9 (broadcastInDim S512 ![] bcast_S_S512 : (⟨S_, .f32⟩ : BufTy).Contents (Elt F) → (⟨S512, .f32⟩ : BufTy).Contents (Elt F)),
    StableHlo.binary main_v8 main_v9 main_v10 (Host.divf : (⟨S512, .f32⟩ : BufTy).Contents (Elt F) → (⟨S512, .f32⟩ : BufTy).Contents (Elt F) → (⟨S512, .f32⟩ : BufTy).Contents (Elt F)),
    StableHlo.nullary main_c (constantI S_ 32 0#32),
    StableHlo.TRef.nullary main_call0.cst (constant S_ .f32 0x00000000#32),
    StableHlo.TRef.binary (.of main_v7 : StableHlo.TRef sig ⟨S65536x512, .f32⟩) main_call0.cst main_call0.v0 (fun x v => Host.reduceAdd x v reducesTo_S65536x512_S512_d0 h_S_),
    StableHlo.TRef.unary main_call0.v0 main_call0.v1 (broadcastInDim S1x512 ![1] bcast_S512_S1x512_1),
    StableHlo.TRef.nullary main_call0.cst_0 (constant S_ .f32 0x47800000#32),
    StableHlo.TRef.unary main_call0.cst_0 main_call0.v2 (broadcastInDim S1x512 ![] bcast_S_S1x512),
    StableHlo.TRef.binary main_call0.v1 main_call0.v2 main_call0.v3 Host.divf,
    StableHlo.TRef.unary main_call0.v3 main_call0.v4 (broadcastInDim S65536x512 ![0, 1] bcast_S1x512_S65536x512_0_1),
    StableHlo.TRef.binary (.of main_v7 : StableHlo.TRef sig ⟨S65536x512, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x47800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S65536x512_S512_d0 h_S_),
    StableHlo.TRef.unary main_call0.v8 main_call0.v10 (broadcastInDim S512 ![] bcast_S_S512),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S512 ![] bcast_S_S512),
    StableHlo.TRef.ternary main_call0.v12 main_call0.v11 main_call0.call0.v1 main_call0.call0.v2 (fun p a b => select (broadcastInDim S512 ![] bcast_S_S512 p) a b) ]

theorem opsM1_sub : (opsM1 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem opsM1_fresh : ∀ op ∈ (opsM1 : List (HloOp τ sig (Elt F))), op.fresh = ∅ := by
  intro _ h; (repeat (cases h with | head => rfl | tail _ h => ?_)); exact nomatch h

/-- The first layer's normalisation, clip and straight-through sign. -/
abbrev opsN1 : List (HloOp τ sig (Elt F)) :=
  [ StableHlo.unary main_v10 main_v12 (broadcastInDim S1x512 ![1] bcast_S512_S1x512_1 : (⟨S512, .f32⟩ : BufTy).Contents (Elt F) → (⟨S1x512, .f32⟩ : BufTy).Contents (Elt F)),
    StableHlo.unary main_v12 main_v13 (broadcastInDim S65536x512 ![0, 1] bcast_S1x512_S65536x512_0_1 : (⟨S1x512, .f32⟩ : BufTy).Contents (Elt F) → (⟨S65536x512, .f32⟩ : BufTy).Contents (Elt F)),
    StableHlo.binary main_v7 main_v13 main_v14 (subf : (⟨S65536x512, .f32⟩ : BufTy).Contents (Elt F) → (⟨S65536x512, .f32⟩ : BufTy).Contents (Elt F) → (⟨S65536x512, .f32⟩ : BufTy).Contents (Elt F)),
    StableHlo.nullary main_cst_1 (constant S_ .f32 0x3727C5AC#32),
    StableHlo.unary main_cst_1 main_v15 (broadcastInDim S512 ![] bcast_S_S512 : (⟨S_, .f32⟩ : BufTy).Contents (Elt F) → (⟨S512, .f32⟩ : BufTy).Contents (Elt F)),
    StableHlo.binary main_v11 main_v15 main_v16 (addf : (⟨S512, .f32⟩ : BufTy).Contents (Elt F) → (⟨S512, .f32⟩ : BufTy).Contents (Elt F) → (⟨S512, .f32⟩ : BufTy).Contents (Elt F)),
    StableHlo.unary main_v16 main_v17 (Host.rsqrt : (⟨S512, .f32⟩ : BufTy).Contents (Elt F) → (⟨S512, .f32⟩ : BufTy).Contents (Elt F)),
    StableHlo.unary main_v17 main_v18 (broadcastInDim S1x512 ![1] bcast_S512_S1x512_1 : (⟨S512, .f32⟩ : BufTy).Contents (Elt F) → (⟨S1x512, .f32⟩ : BufTy).Contents (Elt F)),
    StableHlo.unary main_v18 main_v19 (broadcastInDim S65536x512 ![0, 1] bcast_S1x512_S65536x512_0_1 : (⟨S1x512, .f32⟩ : BufTy).Contents (Elt F) → (⟨S65536x512, .f32⟩ : BufTy).Contents (Elt F)),
    StableHlo.binary main_v14 main_v19 main_v20 (mulf : (⟨S65536x512, .f32⟩ : BufTy).Contents (Elt F) → (⟨S65536x512, .f32⟩ : BufTy).Contents (Elt F) → (⟨S65536x512, .f32⟩ : BufTy).Contents (Elt F)),
    StableHlo.unary main_arg3 main_v21 (broadcastInDim S1x512 ![1] bcast_S512_S1x512_1 : (⟨S512, .f32⟩ : BufTy).Contents (Elt F) → (⟨S1x512, .f32⟩ : BufTy).Contents (Elt F)),
    StableHlo.unary main_v21 main_v22 (broadcastInDim S65536x512 ![0, 1] bcast_S1x512_S65536x512_0_1 : (⟨S1x512, .f32⟩ : BufTy).Contents (Elt F) → (⟨S65536x512, .f32⟩ : BufTy).Contents (Elt F)),
    StableHlo.binary main_v20 main_v22 main_v23 (mulf : (⟨S65536x512, .f32⟩ : BufTy).Contents (Elt F) → (⟨S65536x512, .f32⟩ : BufTy).Contents (Elt F) → (⟨S65536x512, .f32⟩ : BufTy).Contents (Elt F)),
    StableHlo.unary main_arg4 main_v24 (broadcastInDim S1x512 ![1] bcast_S512_S1x512_1 : (⟨S512, .f32⟩ : BufTy).Contents (Elt F) → (⟨S1x512, .f32⟩ : BufTy).Contents (Elt F)),
    StableHlo.unary main_v24 main_v25 (broadcastInDim S65536x512 ![0, 1] bcast_S1x512_S65536x512_0_1 : (⟨S1x512, .f32⟩ : BufTy).Contents (Elt F) → (⟨S65536x512, .f32⟩ : BufTy).Contents (Elt F)),
    StableHlo.binary main_v23 main_v25 main_v26 (addf : (⟨S65536x512, .f32⟩ : BufTy).Contents (Elt F) → (⟨S65536x512, .f32⟩ : BufTy).Contents (Elt F) → (⟨S65536x512, .f32⟩ : BufTy).Contents (Elt F)),
    StableHlo.nullary main_cst_2 (constant S_ .f32 0xBF800000#32),
    StableHlo.nullary main_cst_3 (constant S_ .f32 0x3F800000#32),
    StableHlo.TRef.unary (.of main_cst_2 : StableHlo.TRef sig ⟨S_, .f32⟩) main_call1.v0 id,
    StableHlo.TRef.unary main_call1.v0 main_call1.v1 (broadcastInDim S65536x512 ![] bcast_S_S65536x512),
    StableHlo.TRef.binary main_call1.v1 (.of main_v26 : StableHlo.TRef sig ⟨S65536x512, .f32⟩) main_call1.v2 maximumf,
    StableHlo.TRef.unary (.of main_cst_3 : StableHlo.TRef sig ⟨S_, .f32⟩) main_call1.v3 id,
    StableHlo.TRef.unary main_call1.v3 main_call1.v4 (broadcastInDim S65536x512 ![] bcast_S_S65536x512),
    StableHlo.TRef.binary main_call1.v4 main_call1.v2 main_call1.v5 minimumf,
    StableHlo.unary main_v27 main_v28 (Host.sign : (⟨S65536x512, .f32⟩ : BufTy).Contents (Elt F) → (⟨S65536x512, .f32⟩ : BufTy).Contents (Elt F)),
    StableHlo.binary main_v28 main_v27 main_v29 (subf : (⟨S65536x512, .f32⟩ : BufTy).Contents (Elt F) → (⟨S65536x512, .f32⟩ : BufTy).Contents (Elt F) → (⟨S65536x512, .f32⟩ : BufTy).Contents (Elt F)),
    StableHlo.binary main_v27 main_v29 main_v30 (addf : (⟨S65536x512, .f32⟩ : BufTy).Contents (Elt F) → (⟨S65536x512, .f32⟩ : BufTy).Contents (Elt F) → (⟨S65536x512, .f32⟩ : BufTy).Contents (Elt F)) ]

theorem opsN1_sub : (opsN1 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub ..⟩

theorem opsN1_fresh : ∀ op ∈ (opsN1 : List (HloOp τ sig (Elt F))), op.fresh = ∅ := by
  intro _ h; (repeat (cases h with | head => rfl | tail _ h => ?_)); exact nomatch h

/-- The second dense layer. -/
abbrev opsD2 : List (HloOp τ sig (Elt F)) :=
  [ StableHlo.unary main_arg5 main_v31 (Host.sign : (⟨S32x512, .f32⟩ : BufTy).Contents (Elt F) → (⟨S32x512, .f32⟩ : BufTy).Contents (Elt F)),
    StableHlo.binary main_v31 main_arg5 main_v32 (subf : (⟨S32x512, .f32⟩ : BufTy).Contents (Elt F) → (⟨S32x512, .f32⟩ : BufTy).Contents (Elt F) → (⟨S32x512, .f32⟩ : BufTy).Contents (Elt F)),
    StableHlo.binary main_arg5 main_v32 main_v33 (addf : (⟨S32x512, .f32⟩ : BufTy).Contents (Elt F) → (⟨S32x512, .f32⟩ : BufTy).Contents (Elt F) → (⟨S32x512, .f32⟩ : BufTy).Contents (Elt F)),
    StableHlo.unary main_v33 main_v34 ((transpose S512x32 [1, 0] · transposes_S32x512_S512x32_1_0) : (⟨S32x512, .f32⟩ : BufTy).Contents (Elt F) → (⟨S512x32, .f32⟩ : BufTy).Contents (Elt F)),
    StableHlo.binary main_v30 main_v34 main_v35 ((fun l r => Host.dotGeneral dot_S65536x512_S512x32_S65536x32_1_0_0_1_n_n none l r) : (⟨S65536x512, .f32⟩ : BufTy).Contents (Elt F) → (⟨S512x32, .f32⟩ : BufTy).Contents (Elt F) → (⟨S65536x32, .f32⟩ : BufTy).Contents (Elt F)),
    StableHlo.unary main_arg6 main_v36 (broadcastInDim S1x32 ![1] bcast_S32_S1x32_1 : (⟨S32, .f32⟩ : BufTy).Contents (Elt F) → (⟨S1x32, .f32⟩ : BufTy).Contents (Elt F)),
    StableHlo.unary main_v36 main_v37 (broadcastInDim S65536x32 ![0, 1] bcast_S1x32_S65536x32_0_1 : (⟨S1x32, .f32⟩ : BufTy).Contents (Elt F) → (⟨S65536x32, .f32⟩ : BufTy).Contents (Elt F)),
    StableHlo.binary main_v35 main_v37 main_v38 (addf : (⟨S65536x32, .f32⟩ : BufTy).Contents (Elt F) → (⟨S65536x32, .f32⟩ : BufTy).Contents (Elt F) → (⟨S65536x32, .f32⟩ : BufTy).Contents (Elt F)) ]

theorem opsD2_sub : (opsD2 : List (HloOp τ sig (Elt F))).Forall fun op => op.bufs ⊆ tcRefs τ sig :=
  ⟨unary_bufs_sub .., binary_bufs_sub .., binary_bufs_sub .., unary_bufs_sub .., binary_bufs_sub .., unary_bufs_sub .., unary_bufs_sub .., binary_bufs_sub ..⟩

theorem opsD2_fresh : ∀ op ∈ (opsD2 : List (HloOp τ sig (Elt F))), op.fresh = ∅ := by
  intro _ h; (repeat (cases h with | head => rfl | tail _ h => ?_)); exact nomatch h

/-- The second layer's column means and variances. -/
abbrev opsM2 : List (HloOp τ sig (Elt F)) :=
  [ StableHlo.nullary main_cst_4 (constant S_ .f32 0x00000000#32),
    StableHlo.binary main_v38 main_cst_4 main_v39 ((fun x v => Host.reduceAdd x v reducesTo_S65536x32_S32_d0 h_S_) : (⟨S65536x32, .f32⟩ : BufTy).Contents (Elt F) → (⟨S_, .f32⟩ : BufTy).Contents (Elt F) → (⟨S32, .f32⟩ : BufTy).Contents (Elt F)),
    StableHlo.nullary main_cst_5 (constant S_ .f32 0x47800000#32),
    StableHlo.unary main_cst_5 main_v40 (broadcastInDim S32 ![] bcast_S_S32 : (⟨S_, .f32⟩ : BufTy).Contents (Elt F) → (⟨S32, .f32⟩ : BufTy).Contents (Elt F)),
    StableHlo.binary main_v39 main_v40 main_v41 (Host.divf : (⟨S32, .f32⟩ : BufTy).Contents (Elt F) → (⟨S32, .f32⟩ : BufTy).Contents (Elt F) → (⟨S32, .f32⟩ : BufTy).Contents (Elt F)),
    StableHlo.nullary main_c_6 (constantI S_ 32 0#32),
    StableHlo.TRef.nullary main_call2.cst (constant S_ .f32 0x00000000#32),
    StableHlo.TRef.binary (.of main_v38 : StableHlo.TRef sig ⟨S65536x32, .f32⟩) main_call2.cst main_call2.v0 (fun x v => Host.reduceAdd x v reducesTo_S65536x32_S32_d0 h_S_),
    StableHlo.TRef.unary main_call2.v0 main_call2.v1 (broadcastInDim S1x32 ![1] bcast_S32_S1x32_1),
    StableHlo.TRef.nullary main_call2.cst_0 (constant S_ .f32 0x47800000#32),
    StableHlo.TRef.unary main_call2.cst_0 main_call2.v2 (broadcastInDim S1x32 ![] bcast_S_S1x32),
    StableHlo.TRef.binary main_call2.v1 main_call2.v2 main_call2.v3 Host.divf,
    StableHlo.TRef.unary main_call2.v3 main_call2.v4 (broadcastInDim S65536x32 ![0, 1] bcast_S1x32_S65536x32_0_1),
    StableHlo.TRef.binary (.of main_v38 : StableHlo.TRef sig ⟨S65536x32, .f32⟩) main_call2.v4 main_call2.v5 subf,
    StableHlo.TRef.binary main_call2.v5 main_call2.v5 main_call2.v6 mulf,
    StableHlo.TRef.unary (.of main_c_6 : StableHlo.TRef sig ⟨S_, .i32⟩) main_call2.v7 (sitofp .f32),
    StableHlo.TRef.nullary main_call2.cst_1 (constant S_ .f32 0x47800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S65536x32_S32_d0 h_S_),
    StableHlo.TRef.unary main_call2.v8 main_call2.v10 (broadcastInDim S32 ![] bcast_S_S32),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S32 ![] bcast_S_S32),
    StableHlo.TRef.ternary main_call2.v12 main_call2.v11 main_call2.call0.v1 main_call2.call0.v2 (fun p a b => select (broadcastInDim S32 ![] bcast_S_S32 p) a b) ]

theorem opsM2_sub : (opsM2 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem opsM2_fresh : ∀ op ∈ (opsM2 : List (HloOp τ sig (Elt F))), op.fresh = ∅ := by
  intro _ h; (repeat (cases h with | head => rfl | tail _ h => ?_)); exact nomatch h

/-- The second layer's normalisation, clip and straight-through sign. -/
abbrev opsN2 : List (HloOp τ sig (Elt F)) :=
  [ StableHlo.unary main_v41 main_v43 (broadcastInDim S1x32 ![1] bcast_S32_S1x32_1 : (⟨S32, .f32⟩ : BufTy).Contents (Elt F) → (⟨S1x32, .f32⟩ : BufTy).Contents (Elt F)),
    StableHlo.unary main_v43 main_v44 (broadcastInDim S65536x32 ![0, 1] bcast_S1x32_S65536x32_0_1 : (⟨S1x32, .f32⟩ : BufTy).Contents (Elt F) → (⟨S65536x32, .f32⟩ : BufTy).Contents (Elt F)),
    StableHlo.binary main_v38 main_v44 main_v45 (subf : (⟨S65536x32, .f32⟩ : BufTy).Contents (Elt F) → (⟨S65536x32, .f32⟩ : BufTy).Contents (Elt F) → (⟨S65536x32, .f32⟩ : BufTy).Contents (Elt F)),
    StableHlo.nullary main_cst_7 (constant S_ .f32 0x3727C5AC#32),
    StableHlo.unary main_cst_7 main_v46 (broadcastInDim S32 ![] bcast_S_S32 : (⟨S_, .f32⟩ : BufTy).Contents (Elt F) → (⟨S32, .f32⟩ : BufTy).Contents (Elt F)),
    StableHlo.binary main_v42 main_v46 main_v47 (addf : (⟨S32, .f32⟩ : BufTy).Contents (Elt F) → (⟨S32, .f32⟩ : BufTy).Contents (Elt F) → (⟨S32, .f32⟩ : BufTy).Contents (Elt F)),
    StableHlo.unary main_v47 main_v48 (Host.rsqrt : (⟨S32, .f32⟩ : BufTy).Contents (Elt F) → (⟨S32, .f32⟩ : BufTy).Contents (Elt F)),
    StableHlo.unary main_v48 main_v49 (broadcastInDim S1x32 ![1] bcast_S32_S1x32_1 : (⟨S32, .f32⟩ : BufTy).Contents (Elt F) → (⟨S1x32, .f32⟩ : BufTy).Contents (Elt F)),
    StableHlo.unary main_v49 main_v50 (broadcastInDim S65536x32 ![0, 1] bcast_S1x32_S65536x32_0_1 : (⟨S1x32, .f32⟩ : BufTy).Contents (Elt F) → (⟨S65536x32, .f32⟩ : BufTy).Contents (Elt F)),
    StableHlo.binary main_v45 main_v50 main_v51 (mulf : (⟨S65536x32, .f32⟩ : BufTy).Contents (Elt F) → (⟨S65536x32, .f32⟩ : BufTy).Contents (Elt F) → (⟨S65536x32, .f32⟩ : BufTy).Contents (Elt F)),
    StableHlo.unary main_arg7 main_v52 (broadcastInDim S1x32 ![1] bcast_S32_S1x32_1 : (⟨S32, .f32⟩ : BufTy).Contents (Elt F) → (⟨S1x32, .f32⟩ : BufTy).Contents (Elt F)),
    StableHlo.unary main_v52 main_v53 (broadcastInDim S65536x32 ![0, 1] bcast_S1x32_S65536x32_0_1 : (⟨S1x32, .f32⟩ : BufTy).Contents (Elt F) → (⟨S65536x32, .f32⟩ : BufTy).Contents (Elt F)),
    StableHlo.binary main_v51 main_v53 main_v54 (mulf : (⟨S65536x32, .f32⟩ : BufTy).Contents (Elt F) → (⟨S65536x32, .f32⟩ : BufTy).Contents (Elt F) → (⟨S65536x32, .f32⟩ : BufTy).Contents (Elt F)),
    StableHlo.unary main_arg8 main_v55 (broadcastInDim S1x32 ![1] bcast_S32_S1x32_1 : (⟨S32, .f32⟩ : BufTy).Contents (Elt F) → (⟨S1x32, .f32⟩ : BufTy).Contents (Elt F)),
    StableHlo.unary main_v55 main_v56 (broadcastInDim S65536x32 ![0, 1] bcast_S1x32_S65536x32_0_1 : (⟨S1x32, .f32⟩ : BufTy).Contents (Elt F) → (⟨S65536x32, .f32⟩ : BufTy).Contents (Elt F)),
    StableHlo.binary main_v54 main_v56 main_v57 (addf : (⟨S65536x32, .f32⟩ : BufTy).Contents (Elt F) → (⟨S65536x32, .f32⟩ : BufTy).Contents (Elt F) → (⟨S65536x32, .f32⟩ : BufTy).Contents (Elt F)),
    StableHlo.nullary main_cst_8 (constant S_ .f32 0xBF800000#32),
    StableHlo.nullary main_cst_9 (constant S_ .f32 0x3F800000#32),
    StableHlo.TRef.unary (.of main_cst_8 : StableHlo.TRef sig ⟨S_, .f32⟩) main_call3.v0 id,
    StableHlo.TRef.unary main_call3.v0 main_call3.v1 (broadcastInDim S65536x32 ![] bcast_S_S65536x32),
    StableHlo.TRef.binary main_call3.v1 (.of main_v57 : StableHlo.TRef sig ⟨S65536x32, .f32⟩) main_call3.v2 maximumf,
    StableHlo.TRef.unary (.of main_cst_9 : StableHlo.TRef sig ⟨S_, .f32⟩) main_call3.v3 id,
    StableHlo.TRef.unary main_call3.v3 main_call3.v4 (broadcastInDim S65536x32 ![] bcast_S_S65536x32),
    StableHlo.TRef.binary main_call3.v4 main_call3.v2 main_call3.v5 minimumf,
    StableHlo.unary main_v58 main_v59 (Host.sign : (⟨S65536x32, .f32⟩ : BufTy).Contents (Elt F) → (⟨S65536x32, .f32⟩ : BufTy).Contents (Elt F)),
    StableHlo.binary main_v59 main_v58 main_v60 (subf : (⟨S65536x32, .f32⟩ : BufTy).Contents (Elt F) → (⟨S65536x32, .f32⟩ : BufTy).Contents (Elt F) → (⟨S65536x32, .f32⟩ : BufTy).Contents (Elt F)),
    StableHlo.binary main_v58 main_v60 main_v61 (addf : (⟨S65536x32, .f32⟩ : BufTy).Contents (Elt F) → (⟨S65536x32, .f32⟩ : BufTy).Contents (Elt F) → (⟨S65536x32, .f32⟩ : BufTy).Contents (Elt F)) ]

theorem opsN2_sub : (opsN2 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub ..⟩

theorem opsN2_fresh : ∀ op ∈ (opsN2 : List (HloOp τ sig (Elt F))), op.fresh = ∅ := by
  intro _ h; (repeat (cases h with | head => rfl | tail _ h => ?_)); exact nomatch h

/-- The third dense layer. -/
abbrev opsD3 : List (HloOp τ sig (Elt F)) :=
  [ StableHlo.unary main_arg9 main_v62 (Host.sign : (⟨S10x32, .f32⟩ : BufTy).Contents (Elt F) → (⟨S10x32, .f32⟩ : BufTy).Contents (Elt F)),
    StableHlo.binary main_v62 main_arg9 main_v63 (subf : (⟨S10x32, .f32⟩ : BufTy).Contents (Elt F) → (⟨S10x32, .f32⟩ : BufTy).Contents (Elt F) → (⟨S10x32, .f32⟩ : BufTy).Contents (Elt F)),
    StableHlo.binary main_arg9 main_v63 main_v64 (addf : (⟨S10x32, .f32⟩ : BufTy).Contents (Elt F) → (⟨S10x32, .f32⟩ : BufTy).Contents (Elt F) → (⟨S10x32, .f32⟩ : BufTy).Contents (Elt F)),
    StableHlo.unary main_v64 main_v65 ((transpose S32x10 [1, 0] · transposes_S10x32_S32x10_1_0) : (⟨S10x32, .f32⟩ : BufTy).Contents (Elt F) → (⟨S32x10, .f32⟩ : BufTy).Contents (Elt F)),
    StableHlo.binary main_v61 main_v65 main_v66 ((fun l r => Host.dotGeneral dot_S65536x32_S32x10_S65536x10_1_0_0_1_n_n none l r) : (⟨S65536x32, .f32⟩ : BufTy).Contents (Elt F) → (⟨S32x10, .f32⟩ : BufTy).Contents (Elt F) → (⟨S65536x10, .f32⟩ : BufTy).Contents (Elt F)),
    StableHlo.unary main_arg10 main_v67 (broadcastInDim S1x10 ![1] bcast_S10_S1x10_1 : (⟨S10, .f32⟩ : BufTy).Contents (Elt F) → (⟨S1x10, .f32⟩ : BufTy).Contents (Elt F)),
    StableHlo.unary main_v67 main_v68 (broadcastInDim S65536x10 ![0, 1] bcast_S1x10_S65536x10_0_1 : (⟨S1x10, .f32⟩ : BufTy).Contents (Elt F) → (⟨S65536x10, .f32⟩ : BufTy).Contents (Elt F)),
    StableHlo.binary main_v66 main_v68 main_v69 (addf : (⟨S65536x10, .f32⟩ : BufTy).Contents (Elt F) → (⟨S65536x10, .f32⟩ : BufTy).Contents (Elt F) → (⟨S65536x10, .f32⟩ : BufTy).Contents (Elt F)) ]

theorem opsD3_sub : (opsD3 : List (HloOp τ sig (Elt F))).Forall fun op => op.bufs ⊆ tcRefs τ sig :=
  ⟨unary_bufs_sub .., binary_bufs_sub .., binary_bufs_sub .., unary_bufs_sub .., binary_bufs_sub .., unary_bufs_sub .., unary_bufs_sub .., binary_bufs_sub ..⟩

theorem opsD3_fresh : ∀ op ∈ (opsD3 : List (HloOp τ sig (Elt F))), op.fresh = ∅ := by
  intro _ h; (repeat (cases h with | head => rfl | tail _ h => ?_)); exact nomatch h

/-- @main's operations, in order. -/
abbrev ops : List (HloOp τ sig (Elt F)) := opsD1 ++ (opsM1 ++ (opsN1 ++ (opsD2 ++ (opsM2 ++ (opsN2 ++ opsD3)))))

set_option maxRecDepth 4096 in
set_option maxHeartbeats 4000000 in
/-- @main is that straight line: the two printed windows in order, the functions' definitions unfolded at their calls. -/
theorem main_eq (c : Dev nD) : main (F := F) c = seq ops := by
  simp only [main, main_part0, main_part1, fn_var.body, fn_where.body, fn_clip.body, fn_var_0.body, fn_where_1.body, fn_clip_2.body,
    List.cons_append, List.nil_append, seq, bind_assoc, pure_bind]
  all_goals rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.2 ⟨opsD1_sub, List.forall_append.2 ⟨opsM1_sub, List.forall_append.2 ⟨opsN1_sub, List.forall_append.2 ⟨opsD2_sub,
    List.forall_append.2 ⟨opsM2_sub, List.forall_append.2 ⟨opsN2_sub, opsD3_sub⟩⟩⟩⟩⟩⟩

theorem ops_fresh : ∀ op ∈ (ops : List (HloOp τ sig (Elt F))), op.fresh = ∅ := by
  intro op h
  simp only [List.mem_append] at h
  rcases h with h | h | h | h | h | h | h
  exacts [opsD1_fresh op h, opsM1_fresh op h, opsN1_fresh op h, opsD2_fresh op h, opsM2_fresh op h, opsN2_fresh op h, opsD3_fresh op h]

/-- From any memory with zero counters every weakly fair execution of @main terminates, with every buffer at the
    fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefValue

end
-- ==== Proof.RefStage.lean ====
/-
  The reference's stages, each a composition of array operations at the extended reals, read at an index against
  the textbook formulas.

  * The dense layer: the weight's straight-through sign `w + (sign w − w)`, transposed, contracted with the input
    over the shared axis, plus the bias repeated down the rows. At `(p, q)`: `Σₖ x p k · rbin (w q k) + b q`.
  * A column's sum: the sum over axis 0 from the zero literal is `0 + Σₚ h p q`; the mean divides it by the batch size.
  * The variance: the mean is repeated down the rows and subtracted, the difference squared and summed over axis 0,
    the sum divided by `N − 0` where the zero is an integer constant converted; the quotient is selected because
    `N − 0 > 0` (the other branch is never read).
  * The normalisation `(h − μ) · (σ² + ε)^(-1/2) · γ + β` with the four row vectors repeated down the rows, the clip
    `min 1 (max (−1) ·)` and the straight-through sign `a + (sign a − a)`.
-/
import proofs.«119830_j18734647345306_2_alg».proof.Proof.Spec
import proofs.«119830_j18734647345306_2_alg».proof.Proof.Consts
import proofs.«119830_j18734647345306_2_alg».proof.Proof.LibPlainDot
import Idealize.ShloMosaic.PureOps.Ideal.Laws
import Idealize.ShloMosaic.Lib.Pipeline.Value
import Idealize.ShloMosaic.Lib.ValueIdx

noncomputable section

namespace Cert.RefStage

open Idealize.ShloMosaic Idealize.ShloMosaic.ValueIdx Cert.Spec
open scoped BigOperators

variable {P K Q : ℕ}

/-- The scalar shape. -/
abbrev S0 : Shape := ⟨0, ![]⟩

/-! ### A row vector repeated down the rows -/

/-- A vector of length `Q` as the `P × Q` array whose every row it is: first a `1 × Q` array, then `P` rows. -/
def rowB (hb1 : (⟨1, ![Q]⟩ : Shape).BroadcastsInDim ⟨2, ![1, Q]⟩ ![1])
    (hb2 : (⟨2, ![1, Q]⟩ : Shape).BroadcastsInDim ⟨2, ![P, Q]⟩ ![0, 1])
    (v : FVec Ideal ⟨1, ![Q]⟩ .f32) : FVec Ideal ⟨2, ![P, Q]⟩ .f32 :=
  broadcastInDim ⟨2, ![P, Q]⟩ ![0, 1] hb2 (broadcastInDim ⟨2, ![1, Q]⟩ ![1] hb1 v)

theorem one_row_apply (hb1 : (⟨1, ![Q]⟩ : Shape).BroadcastsInDim ⟨2, ![1, Q]⟩ ![1])
    (v : FVec Ideal ⟨1, ![Q]⟩ .f32) (q : Fin Q) :
    broadcastInDim ⟨2, ![1, Q]⟩ ![1] hb1 v (ix2 (0 : Fin 1) q) = v (ix1 q) :=
  broadcastInDim_apply ![1] hb1 v (ix2 (0 : Fin 1) q) (ix1 q) (fun a => by
    match a with
    | ⟨0, _⟩ =>
      show q.val = if Q = 1 then 0 else q.val
      split
      · have := q.isLt; omega
      · rfl)

theorem rows_apply (hb2 : (⟨2, ![1, Q]⟩ : Shape).BroadcastsInDim ⟨2, ![P, Q]⟩ ![0, 1])
    (u : FVec Ideal ⟨2, ![1, Q]⟩ .f32) (p : Fin P) (q : Fin Q) :
    broadcastInDim ⟨2, ![P, Q]⟩ ![0, 1] hb2 u (ix2 p q) = u (ix2 (0 : Fin 1) q) :=
  broadcastInDim_apply ![0, 1] hb2 u (ix2 p q) (ix2 (0 : Fin 1) q) (fun a => by
    match a with
    | ⟨0, _⟩ =>
      show (0 : ℕ) = if (1 : ℕ) = 1 then 0 else p.val
      rfl
    | ⟨1, _⟩ =>
      show q.val = if Q = 1 then 0 else q.val
      split
      · have := q.isLt; omega
      · rfl)

theorem rowB_apply (hb1 : (⟨1, ![Q]⟩ : Shape).BroadcastsInDim ⟨2, ![1, Q]⟩ ![1])
    (hb2 : (⟨2, ![1, Q]⟩ : Shape).BroadcastsInDim ⟨2, ![P, Q]⟩ ![0, 1])
    (v : FVec Ideal ⟨1, ![Q]⟩ .f32) (p : Fin P) (q : Fin Q) : rowB hb1 hb2 v (ix2 p q) = v (ix1 q) := by
  unfold rowB
  rw [rows_apply, one_row_apply]

/-! ### The dense layer -/

/-- The straight-through sign of a weight array. -/
def stW (w : FVec Ideal ⟨2, ![Q, K]⟩ .f32) : FVec Ideal ⟨2, ![Q, K]⟩ .f32 := addf w (subf (Host.sign w) w)

/-- `x · (stW w)ᵀ + b`. -/
def stDense (d : DotDims ⟨2, ![P, K]⟩ ⟨2, ![K, Q]⟩ ⟨2, ![P, Q]⟩)
    (tr : (⟨2, ![Q, K]⟩ : Shape).Transposes [1, 0] ⟨2, ![K, Q]⟩)
    (hb1 : (⟨1, ![Q]⟩ : Shape).BroadcastsInDim ⟨2, ![1, Q]⟩ ![1])
    (hb2 : (⟨2, ![1, Q]⟩ : Shape).BroadcastsInDim ⟨2, ![P, Q]⟩ ![0, 1])
    (x : FVec Ideal ⟨2, ![P, K]⟩ .f32) (w : FVec Ideal ⟨2, ![Q, K]⟩ .f32) (b : FVec Ideal ⟨1, ![Q]⟩ .f32) :
    FVec Ideal ⟨2, ![P, Q]⟩ .f32 :=
  addf (Host.dotGeneral d none x (transpose ⟨2, ![K, Q]⟩ [1, 0] (stW w) tr)) (rowB hb1 hb2 b)

theorem stDense_apply (d : DotDims ⟨2, ![P, K]⟩ ⟨2, ![K, Q]⟩ ⟨2, ![P, Q]⟩)
    (hlc : d.lhsContracting = [1]) (hrc : d.rhsContracting = [0]) (hln : d.lhsNonContracting = [0])
    (hrn : d.rhsNonContracting = [1]) (hlb : d.lhsBatch = []) (hrb : d.rhsBatch = [])
    (tr : (⟨2, ![Q, K]⟩ : Shape).Transposes [1, 0] ⟨2, ![K, Q]⟩)
    (hb1 : (⟨1, ![Q]⟩ : Shape).BroadcastsInDim ⟨2, ![1, Q]⟩ ![1])
    (hb2 : (⟨2, ![1, Q]⟩ : Shape).BroadcastsInDim ⟨2, ![P, Q]⟩ ![0, 1])
    (x : FVec Ideal ⟨2, ![P, K]⟩ .f32) (w : FVec Ideal ⟨2, ![Q, K]⟩ .f32) (b : FVec Ideal ⟨1, ![Q]⟩ .f32)
    (p : Fin P) (q : Fin Q) :
    stDense d tr hb1 hb2 x w b (ix2 p q) = dense (rd2 x) (rbinW (rd2 w)) (rd1 b) p q := by
  have e1 : ∀ k : Fin K, transpose ⟨2, ![K, Q]⟩ [1, 0] (stW w) tr (ix2 k q) = rbinW (rd2 w) q k := fun k =>
    transpose_apply [1, 0] (stW w) tr (ix2 k q) (ix2 q k) (fun b => by
      match b with
      | ⟨0, _⟩ => rfl
      | ⟨1, _⟩ => rfl)
  show FloatOps.dotGeneral d none .single x _ (ix2 p q) + rowB hb1 hb2 b (ix2 p q) = _
  rw [Ideal.dotGeneral_apply, Cert.LibPlainDot.sum_plain d hlc hrc hln hrn hlb hrb, rowB_apply]
  unfold dense
  refine congrArg (· + rd1 b q) (Finset.sum_congr rfl fun k _ => ?_)
  rw [e1 k]
  rfl

/-! ### Column sums, mean and variance over a batch of 65536 rows -/

theorem colsum_apply (red : (⟨2, ![65536, Q]⟩ : Shape).ReducesTo [0] ⟨1, ![Q]⟩) (h0 : 0 < S0.numel)
    (h : FVec Ideal ⟨2, ![65536, Q]⟩ .f32) (q : Fin Q) :
    Host.reduceAdd h (constant (F := Ideal) S0 .f32 0x00000000#32) red h0 (ix1 q) = z32 + ∑ p : Fin 65536, h (ix2 p q) := by
  have red' : (⟨2, ![65536, Q]⟩ : Shape).Reduces [0] ⟨1, ![Q]⟩ := ⟨red.1, Nat.one_pos, red.2⟩
  show Ideal.hostReduceAdd red h z32 (ix1 q) = _
  rw [Ideal.hostReduceAdd_single red red']
  exact congrArg (z32 + ·) (Finset.sum_congr rfl fun p _ => congrArg h (funext fun a => Fin.ext (by
    match a with
    | ⟨0, _⟩ => rfl
    | ⟨1, _⟩ => rfl)))

/-- Each column's mean. -/
def stMean (red : (⟨2, ![65536, Q]⟩ : Shape).ReducesTo [0] ⟨1, ![Q]⟩) (h0 : 0 < S0.numel)
    (hb0 : S0.BroadcastsInDim ⟨1, ![Q]⟩ ![]) (h : FVec Ideal ⟨2, ![65536, Q]⟩ .f32) : FVec Ideal ⟨1, ![Q]⟩ .f32 :=
  Host.divf (Host.reduceAdd h (constant (F := Ideal) S0 .f32 0x00000000#32) red h0)
    (broadcastInDim ⟨1, ![Q]⟩ ![] hb0 (constant (F := Ideal) S0 .f32 0x47800000#32))

theorem stMean_apply (red : (⟨2, ![65536, Q]⟩ : Shape).ReducesTo [0] ⟨1, ![Q]⟩) (h0 : 0 < S0.numel)
    (hb0 : S0.BroadcastsInDim ⟨1, ![Q]⟩ ![]) (h : FVec Ideal ⟨2, ![65536, Q]⟩ .f32) (q : Fin Q) :
    stMean red h0 hb0 h (ix1 q) = rmean (fun p => rd2 h p q) := by
  show Ideal.div (Host.reduceAdd h (constant (F := Ideal) S0 .f32 0x00000000#32) red h0 (ix1 q)) cntW = _
  rw [colsum_apply]
  rfl

/-- Each entry less its column's mean, the mean computed as the variance's function computes it. -/
def stDev (red : (⟨2, ![65536, Q]⟩ : Shape).ReducesTo [0] ⟨1, ![Q]⟩) (h0 : 0 < S0.numel)
    (hb1 : (⟨1, ![Q]⟩ : Shape).BroadcastsInDim ⟨2, ![1, Q]⟩ ![1])
    (hb01 : S0.BroadcastsInDim ⟨2, ![1, Q]⟩ ![])
    (hb2 : (⟨2, ![1, Q]⟩ : Shape).BroadcastsInDim ⟨2, ![65536, Q]⟩ ![0, 1])
    (h : FVec Ideal ⟨2, ![65536, Q]⟩ .f32) : FVec Ideal ⟨2, ![65536, Q]⟩ .f32 :=
  subf h (broadcastInDim ⟨2, ![65536, Q]⟩ ![0, 1] hb2
    (Host.divf (broadcastInDim ⟨2, ![1, Q]⟩ ![1] hb1 (Host.reduceAdd h (constant (F := Ideal) S0 .f32 0x00000000#32) red h0))
      (broadcastInDim ⟨2, ![1, Q]⟩ ![] hb01 (constant (F := Ideal) S0 .f32 0x47800000#32))))

theorem stDev_apply (red : (⟨2, ![65536, Q]⟩ : Shape).ReducesTo [0] ⟨1, ![Q]⟩) (h0 : 0 < S0.numel)
    (hb1 : (⟨1, ![Q]⟩ : Shape).BroadcastsInDim ⟨2, ![1, Q]⟩ ![1])
    (hb01 : S0.BroadcastsInDim ⟨2, ![1, Q]⟩ ![])
    (hb2 : (⟨2, ![1, Q]⟩ : Shape).BroadcastsInDim ⟨2, ![65536, Q]⟩ ![0, 1])
    (h : FVec Ideal ⟨2, ![65536, Q]⟩ .f32) (p : Fin 65536) (q : Fin Q) :
    stDev red h0 hb1 hb01 hb2 h (ix2 p q) = rd2 h p q - rmean (fun p' => rd2 h p' q) := by
  show h (ix2 p q) - broadcastInDim (s := ⟨2, ![1, Q]⟩) ⟨2, ![65536, Q]⟩ ![0, 1] hb2 _ (ix2 p q) = _
  rw [rows_apply]
  show h (ix2 p q) - Ideal.div (broadcastInDim (s := ⟨1, ![Q]⟩) ⟨2, ![1, Q]⟩ ![1] hb1 _ (ix2 (0 : Fin 1) q)) cntW = _
  rw [one_row_apply, colsum_apply]
  rfl

/-- The batch size less the integer zero converted: the variance's divisor. -/
theorem cnt_sub_zero : cntW - (((0#32 : BitVec 32).toInt : ℝ) : EReal) = cntW := by
  have : (0#32 : BitVec 32).toInt = 0 := rfl
  rw [this, Int.cast_zero, EReal.coe_zero, sub_zero]

theorem cnt_gt_zero : Ideal.cmp .ogt cntW z32 = 1 := by
  have h : z32 < cntW := by
    rw [z32_eq, cntW_eq]
    exact EReal.coe_pos.2 (by norm_num)
  unfold Ideal.cmp
  simp only [h, decide_true]
  rfl

/-- Each column's variance, as the outlined function computes it. -/
def stVar (red : (⟨2, ![65536, Q]⟩ : Shape).ReducesTo [0] ⟨1, ![Q]⟩) (h0 : 0 < S0.numel)
    (hb0 : S0.BroadcastsInDim ⟨1, ![Q]⟩ ![])
    (hb1 : (⟨1, ![Q]⟩ : Shape).BroadcastsInDim ⟨2, ![1, Q]⟩ ![1])
    (hb01 : S0.BroadcastsInDim ⟨2, ![1, Q]⟩ ![])
    (hb2 : (⟨2, ![1, Q]⟩ : Shape).BroadcastsInDim ⟨2, ![65536, Q]⟩ ![0, 1])
    (h : FVec Ideal ⟨2, ![65536, Q]⟩ .f32) : FVec Ideal ⟨1, ![Q]⟩ .f32 :=
  select
    (broadcastInDim ⟨1, ![Q]⟩ ![] hb0
      (cmpf .ogt (subf (constant (F := Ideal) S0 .f32 0x47800000#32) (sitofp .f32 (constantI S0 32 0#32)))
        (constant (F := Ideal) S0 .f32 0x00000000#32)))
    (Host.divf
      (Host.reduceAdd (mulf (stDev red h0 hb1 hb01 hb2 h) (stDev red h0 hb1 hb01 hb2 h))
        (constant (F := Ideal) S0 .f32 0x00000000#32) red h0)
      (broadcastInDim ⟨1, ![Q]⟩ ![] hb0
        (subf (constant (F := Ideal) S0 .f32 0x47800000#32) (sitofp .f32 (constantI S0 32 0#32)))))
    (broadcastInDim ⟨1, ![Q]⟩ ![] hb0 (constant (F := Ideal) S0 .f32 0x7FC00000#32))

theorem stVar_apply (red : (⟨2, ![65536, Q]⟩ : Shape).ReducesTo [0] ⟨1, ![Q]⟩) (h0 : 0 < S0.numel)
    (hb0 : S0.BroadcastsInDim ⟨1, ![Q]⟩ ![])
    (hb1 : (⟨1, ![Q]⟩ : Shape).BroadcastsInDim ⟨2, ![1, Q]⟩ ![1])
    (hb01 : S0.BroadcastsInDim ⟨2, ![1, Q]⟩ ![])
    (hb2 : (⟨2, ![1, Q]⟩ : Shape).BroadcastsInDim ⟨2, ![65536, Q]⟩ ![0, 1])
    (h : FVec Ideal ⟨2, ![65536, Q]⟩ .f32) (q : Fin Q) :
    stVar red h0 hb0 hb1 hb01 hb2 h (ix1 q) = rvar (fun p => rd2 h p q) := by
  show Scalar.select (Ideal.cmp .ogt (cntW - (((0#32 : BitVec 32).toInt : ℝ) : EReal)) z32)
      (Ideal.div (Host.reduceAdd (mulf (stDev red h0 hb1 hb01 hb2 h) (stDev red h0 hb1 hb01 hb2 h))
        (constant (F := Ideal) S0 .f32 0x00000000#32) red h0 (ix1 q)) (cntW - (((0#32 : BitVec 32).toInt : ℝ) : EReal)))
      (Ideal.ofBits .f32 0x7FC00000#32) = _
  rw [cnt_sub_zero, cnt_gt_zero, colsum_apply]
  show Ideal.div (z32 + ∑ p : Fin 65536, stDev red h0 hb1 hb01 hb2 h (ix2 p q) * stDev red h0 hb1 hb01 hb2 h (ix2 p q)) cntW = _
  unfold rvar
  refine congrArg (fun s => Ideal.div (z32 + s) cntW) (Finset.sum_congr rfl fun p _ => ?_)
  rw [stDev_apply]

/-! ### Normalisation, clip and straight-through sign -/

/-- `min 1 (max (−1) ·)`, the bounds repeated over the array. -/
def stClip (hbs : S0.BroadcastsInDim ⟨2, ![P, Q]⟩ ![]) (x : FVec Ideal ⟨2, ![P, Q]⟩ .f32) : FVec Ideal ⟨2, ![P, Q]⟩ .f32 :=
  minimumf (broadcastInDim ⟨2, ![P, Q]⟩ ![] hbs (constant (F := Ideal) S0 .f32 0x3F800000#32))
    (maximumf (broadcastInDim ⟨2, ![P, Q]⟩ ![] hbs (constant (F := Ideal) S0 .f32 0xBF800000#32)) x)

/-- The normalised, clipped activation. -/
def stAct (hb0 : S0.BroadcastsInDim ⟨1, ![Q]⟩ ![])
    (hb1 : (⟨1, ![Q]⟩ : Shape).BroadcastsInDim ⟨2, ![1, Q]⟩ ![1])
    (hb2 : (⟨2, ![1, Q]⟩ : Shape).BroadcastsInDim ⟨2, ![P, Q]⟩ ![0, 1])
    (hbs : S0.BroadcastsInDim ⟨2, ![P, Q]⟩ ![])
    (h : FVec Ideal ⟨2, ![P, Q]⟩ .f32) (mu var g be : FVec Ideal ⟨1, ![Q]⟩ .f32) : FVec Ideal ⟨2, ![P, Q]⟩ .f32 :=
  stClip hbs (addf (mulf (mulf (subf h (rowB hb1 hb2 mu))
      (rowB hb1 hb2 (Host.rsqrt (addf var (broadcastInDim ⟨1, ![Q]⟩ ![] hb0 (constant (F := Ideal) S0 .f32 0x3727C5AC#32))))))
    (rowB hb1 hb2 g)) (rowB hb1 hb2 be))

/-- The activation's straight-through sign. -/
def stNorm (hb0 : S0.BroadcastsInDim ⟨1, ![Q]⟩ ![])
    (hb1 : (⟨1, ![Q]⟩ : Shape).BroadcastsInDim ⟨2, ![1, Q]⟩ ![1])
    (hb2 : (⟨2, ![1, Q]⟩ : Shape).BroadcastsInDim ⟨2, ![P, Q]⟩ ![0, 1])
    (hbs : S0.BroadcastsInDim ⟨2, ![P, Q]⟩ ![])
    (h : FVec Ideal ⟨2, ![P, Q]⟩ .f32) (mu var g be : FVec Ideal ⟨1, ![Q]⟩ .f32) : FVec Ideal ⟨2, ![P, Q]⟩ .f32 :=
  addf (stAct hb0 hb1 hb2 hbs h mu var g be)
    (subf (Host.sign (stAct hb0 hb1 hb2 hbs h mu var g be)) (stAct hb0 hb1 hb2 hbs h mu var g be))

theorem stAct_apply (hb0 : S0.BroadcastsInDim ⟨1, ![Q]⟩ ![])
    (hb1 : (⟨1, ![Q]⟩ : Shape).BroadcastsInDim ⟨2, ![1, Q]⟩ ![1])
    (hb2 : (⟨2, ![1, Q]⟩ : Shape).BroadcastsInDim ⟨2, ![P, Q]⟩ ![0, 1])
    (hbs : S0.BroadcastsInDim ⟨2, ![P, Q]⟩ ![])
    (h : FVec Ideal ⟨2, ![P, Q]⟩ .f32) (mu var g be : FVec Ideal ⟨1, ![Q]⟩ .f32) (p : Fin P) (q : Fin Q) :
    stAct hb0 hb1 hb2 hbs h mu var g be (ix2 p q)
      = clip (rnorm (rd2 h p q) (rd1 g q) (rd1 be q) (rd1 mu q) (rd1 var q)) := by
  show min oneW (max negOneW ((h (ix2 p q) - rowB hb1 hb2 mu (ix2 p q))
      * rowB hb1 hb2 (Host.rsqrt (addf var (broadcastInDim ⟨1, ![Q]⟩ ![] hb0 (constant (F := Ideal) S0 .f32 0x3727C5AC#32)))) (ix2 p q)
      * rowB hb1 hb2 g (ix2 p q) + rowB hb1 hb2 be (ix2 p q))) = _
  rw [rowB_apply, rowB_apply, rowB_apply, rowB_apply]
  rfl

theorem stNorm_apply (hb0 : S0.BroadcastsInDim ⟨1, ![Q]⟩ ![])
    (hb1 : (⟨1, ![Q]⟩ : Shape).BroadcastsInDim ⟨2, ![1, Q]⟩ ![1])
    (hb2 : (⟨2, ![1, Q]⟩ : Shape).BroadcastsInDim ⟨2, ![P, Q]⟩ ![0, 1])
    (hbs : S0.BroadcastsInDim ⟨2, ![P, Q]⟩ ![])
    (h : FVec Ideal ⟨2, ![P, Q]⟩ .f32) (mu var g be : FVec Ideal ⟨1, ![Q]⟩ .f32) (p : Fin P) (q : Fin Q) :
    stNorm hb0 hb1 hb2 hbs h mu var g be (ix2 p q)
      = rbin (clip (rnorm (rd2 h p q) (rd1 g q) (rd1 be q) (rd1 mu q) (rd1 var q))) := by
  show stAct hb0 hb1 hb2 hbs h mu var g be (ix2 p q)
      + (Ideal.sign (stAct hb0 hb1 hb2 hbs h mu var g be (ix2 p q)) - stAct hb0 hb1 hb2 hbs h mu var g be (ix2 p q)) = _
  rw [stAct_apply]
  rfl

end Cert.RefStage

end
-- ==== Proof.RefRun.lean ====
/-
  The reference's run, read back. Each stretch of @main's operations leaves, at the buffers later stretches read,
  a stage of RefStage at the literal shapes applied to the contents before it, and leaves every buffer it does not
  write as it was; composed, the result buffer holds `refOut` of the argument arrays, which read at `(p, j)` is the
  textbook network `refNet` of the arrays read at coordinates: dense layer by dense layer, and for each normalised
  layer the column mean and variance, the normalisation, the clip and the straight-through sign.
-/
import proofs.«119830_j18734647345306_2_alg».proof.Proof.RefOps
import proofs.«119830_j18734647345306_2_alg».proof.Proof.RefStage
import proofs.«119830_j18734647345306_2_alg».proof.Defs
import proofs.«119830_j18734647345306_2_alg».proof.Proof.Spec
import Idealize.ShloMosaic.Lib.ValueIdx

noncomputable section

open Idealize.ShloMosaic Idealize.ShloMosaic.TcCoe Idealize.SL.Sem
open Idealize.ShloMosaic.ValueIdx

namespace Cert.ReferenceIdeal.RefValue

open Cert.ReferenceIdeal Cert.Spec
open Cert.ReferenceIdeal.Gen Idealize.ShloMosaic.StableHlo Cert.RefStage

/-! ### The stages at the program's shapes -/

abbrev d1 (x : FVec Ideal S65536x784 .f32) (w : FVec Ideal S512x784 .f32) (b : FVec Ideal S512 .f32) : FVec Ideal S65536x512 .f32 :=
  stDense dot_S65536x784_S784x512_S65536x512_1_0_0_1_n_n transposes_S512x784_S784x512_1_0 bcast_S512_S1x512_1 bcast_S1x512_S65536x512_0_1 x w b
abbrev mu1 (h : FVec Ideal S65536x512 .f32) : FVec Ideal S512 .f32 := stMean reducesTo_S65536x512_S512_d0 h_S_ bcast_S_S512 h
abbrev vr1 (h : FVec Ideal S65536x512 .f32) : FVec Ideal S512 .f32 :=
  stVar reducesTo_S65536x512_S512_d0 h_S_ bcast_S_S512 bcast_S512_S1x512_1 bcast_S_S1x512 bcast_S1x512_S65536x512_0_1 h
abbrev nb1 (h : FVec Ideal S65536x512 .f32) (mu var g be : FVec Ideal S512 .f32) : FVec Ideal S65536x512 .f32 :=
  stNorm bcast_S_S512 bcast_S512_S1x512_1 bcast_S1x512_S65536x512_0_1 bcast_S_S65536x512 h mu var g be
abbrev d2 (x : FVec Ideal S65536x512 .f32) (w : FVec Ideal S32x512 .f32) (b : FVec Ideal S32 .f32) : FVec Ideal S65536x32 .f32 :=
  stDense dot_S65536x512_S512x32_S65536x32_1_0_0_1_n_n transposes_S32x512_S512x32_1_0 bcast_S32_S1x32_1 bcast_S1x32_S65536x32_0_1 x w b
abbrev mu2 (h : FVec Ideal S65536x32 .f32) : FVec Ideal S32 .f32 := stMean reducesTo_S65536x32_S32_d0 h_S_ bcast_S_S32 h
abbrev vr2 (h : FVec Ideal S65536x32 .f32) : FVec Ideal S32 .f32 :=
  stVar reducesTo_S65536x32_S32_d0 h_S_ bcast_S_S32 bcast_S32_S1x32_1 bcast_S_S1x32 bcast_S1x32_S65536x32_0_1 h
abbrev nb2 (h : FVec Ideal S65536x32 .f32) (mu var g be : FVec Ideal S32 .f32) : FVec Ideal S65536x32 .f32 :=
  stNorm bcast_S_S32 bcast_S32_S1x32_1 bcast_S1x32_S65536x32_0_1 bcast_S_S65536x32 h mu var g be
abbrev d3 (x : FVec Ideal S65536x32 .f32) (w : FVec Ideal S10x32 .f32) (b : FVec Ideal S10 .f32) : FVec Ideal S65536x10 .f32 :=
  stDense dot_S65536x32_S32x10_S65536x10_1_0_0_1_n_n transposes_S10x32_S32x10_1_0 bcast_S10_S1x10_1 bcast_S1x10_S65536x10_0_1 x w b

/-- A normalised layer from its pre-activation: statistics, normalisation, clip, sign. -/
abbrev bn1 (h : FVec Ideal S65536x512 .f32) (g be : FVec Ideal S512 .f32) : FVec Ideal S65536x512 .f32 := nb1 h (mu1 h) (vr1 h) g be
abbrev bn2 (h : FVec Ideal S65536x32 .f32) (g be : FVec Ideal S32 .f32) : FVec Ideal S65536x32 .f32 := nb2 h (mu2 h) (vr2 h) g be

/-- The reference's result as a function of its eleven argument arrays. -/
def refOut (a0 : FVec Ideal S65536x784 .f32) (a1 : FVec Ideal S512x784 .f32) (a2 a3 a4 : FVec Ideal S512 .f32)
    (a5 : FVec Ideal S32x512 .f32) (a6 a7 a8 : FVec Ideal S32 .f32) (a9 : FVec Ideal S10x32 .f32) (a10 : FVec Ideal S10 .f32) :
    FVec Ideal S65536x10 .f32 :=
  d3 (bn2 (d2 (bn1 (d1 a0 a1 a2) a3 a4) a5 a6) a7 a8) a9 a10

/-! ### What each stretch writes, and that it keeps the rest -/

abbrev opsD1_W : List (Ref sig .tc) := [main_v0, main_v1, main_v2, main_v3, main_v4, main_v5, main_v6, main_v7]
theorem opsD1_writes : (opsD1 : List (HloOp τ sig (Elt Ideal))).Forall fun op =>
    op.writes ⊆ (opsD1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem D1_keep (V : Valuation τ sig (Elt Ideal)) (r : Ref sig .tc) (h : r ∉ opsD1_W) :
    after opsD1 V (no_index (Proc.devRef .tc r)) = V (Proc.devRef .tc r) :=
  after_of_writes_sub opsD1 V opsD1_writes h

abbrev opsM1_W : List (Ref sig .tc) := [main_cst, main_v8, main_cst_0, main_v9, main_v10, main_c, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref]
theorem opsM1_writes : (opsM1 : List (HloOp τ sig (Elt Ideal))).Forall fun op =>
    op.writes ⊆ (opsM1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem M1_keep (V : Valuation τ sig (Elt Ideal)) (r : Ref sig .tc) (h : r ∉ opsM1_W) :
    after opsM1 V (no_index (Proc.devRef .tc r)) = V (Proc.devRef .tc r) :=
  after_of_writes_sub opsM1 V opsM1_writes h

abbrev opsN1_W : List (Ref sig .tc) := [main_v12, main_v13, main_v14, main_cst_1, main_v15, main_v16, main_v17, main_v18, main_v19, main_v20, main_v21, main_v22, main_v23, main_v24, main_v25, main_v26, main_cst_2, main_cst_3, main_call1.v0.ref, main_call1.v1.ref, main_call1.v2.ref, main_call1.v3.ref, main_call1.v4.ref, main_call1.v5.ref, main_v28, main_v29, main_v30]
theorem opsN1_writes : (opsN1 : List (HloOp τ sig (Elt Ideal))).Forall fun op =>
    op.writes ⊆ (opsN1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem N1_keep (V : Valuation τ sig (Elt Ideal)) (r : Ref sig .tc) (h : r ∉ opsN1_W) :
    after opsN1 V (no_index (Proc.devRef .tc r)) = V (Proc.devRef .tc r) :=
  after_of_writes_sub opsN1 V opsN1_writes h

abbrev opsD2_W : List (Ref sig .tc) := [main_v31, main_v32, main_v33, main_v34, main_v35, main_v36, main_v37, main_v38]
theorem opsD2_writes : (opsD2 : List (HloOp τ sig (Elt Ideal))).Forall fun op =>
    op.writes ⊆ (opsD2_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem D2_keep (V : Valuation τ sig (Elt Ideal)) (r : Ref sig .tc) (h : r ∉ opsD2_W) :
    after opsD2 V (no_index (Proc.devRef .tc r)) = V (Proc.devRef .tc r) :=
  after_of_writes_sub opsD2 V opsD2_writes h

abbrev opsM2_W : List (Ref sig .tc) := [main_cst_4, main_v39, main_cst_5, main_v40, main_v41, main_c_6, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref]
theorem opsM2_writes : (opsM2 : List (HloOp τ sig (Elt Ideal))).Forall fun op =>
    op.writes ⊆ (opsM2_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem M2_keep (V : Valuation τ sig (Elt Ideal)) (r : Ref sig .tc) (h : r ∉ opsM2_W) :
    after opsM2 V (no_index (Proc.devRef .tc r)) = V (Proc.devRef .tc r) :=
  after_of_writes_sub opsM2 V opsM2_writes h

abbrev opsN2_W : List (Ref sig .tc) := [main_v43, main_v44, main_v45, main_cst_7, main_v46, main_v47, main_v48, main_v49, main_v50, main_v51, main_v52, main_v53, main_v54, main_v55, main_v56, main_v57, main_cst_8, main_cst_9, main_call3.v0.ref, main_call3.v1.ref, main_call3.v2.ref, main_call3.v3.ref, main_call3.v4.ref, main_call3.v5.ref, main_v59, main_v60, main_v61]
theorem opsN2_writes : (opsN2 : List (HloOp τ sig (Elt Ideal))).Forall fun op =>
    op.writes ⊆ (opsN2_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem N2_keep (V : Valuation τ sig (Elt Ideal)) (r : Ref sig .tc) (h : r ∉ opsN2_W) :
    after opsN2 V (no_index (Proc.devRef .tc r)) = V (Proc.devRef .tc r) :=
  after_of_writes_sub opsN2 V opsN2_writes h

abbrev opsD3_W : List (Ref sig .tc) := [main_v62, main_v63, main_v64, main_v65, main_v66, main_v67, main_v68, main_v69]
theorem opsD3_writes : (opsD3 : List (HloOp τ sig (Elt Ideal))).Forall fun op =>
    op.writes ⊆ (opsD3_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
theorem D3_keep (V : Valuation τ sig (Elt Ideal)) (r : Ref sig .tc) (h : r ∉ opsD3_W) :
    after opsD3 V (no_index (Proc.devRef .tc r)) = V (Proc.devRef .tc r) :=
  after_of_writes_sub opsD3 V opsD3_writes h

/-! ### What each stretch leaves at the buffers read later -/

set_option maxHeartbeats 2000000 in
theorem D1_v7 (V : Valuation τ sig (Elt Ideal)) :
    after opsD1 V (no_index (Proc.devRef .tc main_v7)) = d1 (V (Proc.devRef .tc main_arg0)) (V (Proc.devRef .tc main_arg1)) (V (Proc.devRef .tc main_arg2)) := by
  after_results_simp
  all_goals rfl

set_option maxHeartbeats 2000000 in
theorem M1_v10 (V : Valuation τ sig (Elt Ideal)) :
    after opsM1 V (no_index (Proc.devRef .tc main_v10)) = mu1 (V (Proc.devRef .tc main_v7)) := by
  after_results_simp
  all_goals rfl

set_option maxHeartbeats 2000000 in
theorem M1_v11 (V : Valuation τ sig (Elt Ideal)) :
    after opsM1 V (no_index (Proc.devRef .tc main_v11)) = vr1 (V (Proc.devRef .tc main_v7)) := by
  after_results_simp
  all_goals rfl

set_option maxHeartbeats 2000000 in
theorem N1_v30 (V : Valuation τ sig (Elt Ideal)) :
    after opsN1 V (no_index (Proc.devRef .tc main_v30)) = nb1 (V (Proc.devRef .tc main_v7)) (V (Proc.devRef .tc main_v10)) (V (Proc.devRef .tc main_v11)) (V (Proc.devRef .tc main_arg3)) (V (Proc.devRef .tc main_arg4)) := by
  after_results_simp
  all_goals rfl

set_option maxHeartbeats 2000000 in
theorem D2_v38 (V : Valuation τ sig (Elt Ideal)) :
    after opsD2 V (no_index (Proc.devRef .tc main_v38)) = d2 (V (Proc.devRef .tc main_v30)) (V (Proc.devRef .tc main_arg5)) (V (Proc.devRef .tc main_arg6)) := by
  after_results_simp
  all_goals rfl

set_option maxHeartbeats 2000000 in
theorem M2_v41 (V : Valuation τ sig (Elt Ideal)) :
    after opsM2 V (no_index (Proc.devRef .tc main_v41)) = mu2 (V (Proc.devRef .tc main_v38)) := by
  after_results_simp
  all_goals rfl

set_option maxHeartbeats 2000000 in
theorem M2_v42 (V : Valuation τ sig (Elt Ideal)) :
    after opsM2 V (no_index (Proc.devRef .tc main_v42)) = vr2 (V (Proc.devRef .tc main_v38)) := by
  after_results_simp
  all_goals rfl

set_option maxHeartbeats 2000000 in
theorem N2_v61 (V : Valuation τ sig (Elt Ideal)) :
    after opsN2 V (no_index (Proc.devRef .tc main_v61)) = nb2 (V (Proc.devRef .tc main_v38)) (V (Proc.devRef .tc main_v41)) (V (Proc.devRef .tc main_v42)) (V (Proc.devRef .tc main_arg7)) (V (Proc.devRef .tc main_arg8)) := by
  after_results_simp
  all_goals rfl

set_option maxHeartbeats 2000000 in
theorem D3_v69 (V : Valuation τ sig (Elt Ideal)) :
    after opsD3 V (no_index (Proc.devRef .tc main_v69)) = d3 (V (Proc.devRef .tc main_v61)) (V (Proc.devRef .tc main_arg9)) (V (Proc.devRef .tc main_arg10)) := by
  after_results_simp
  all_goals rfl

/-! ### The whole line -/

set_option maxHeartbeats 2000000 in
theorem out_eq (V : Valuation τ sig (Elt Ideal)) :
    after ops V (Proc.devRef .tc main_v69) = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  simp (disch := decide) only [ops, after_append, D3_v69, N2_v61, M2_v41, M2_v42, D2_v38, N1_v30, M1_v10, M1_v11, D1_v7, D3_keep, N2_keep, M2_keep, D2_keep, N1_keep, M1_keep, D1_keep]
  all_goals rfl

theorem arg_eq (V : Valuation τ sig (Elt Ideal)) (r : Ref sig .tc) (h1 : r ∉ opsD1_W) (h2 : r ∉ opsM1_W) (h3 : r ∉ opsN1_W)
    (h4 : r ∉ opsD2_W) (h5 : r ∉ opsM2_W) (h6 : r ∉ opsN2_W) (h7 : r ∉ opsD3_W) :
    after ops V (Proc.devRef .tc r) = V (Proc.devRef .tc r) := by
  simp only [ops, after_append]
  rw [D3_keep _ r h7, N2_keep _ r h6, M2_keep _ r h5, D2_keep _ r h4, N1_keep _ r h3, M1_keep _ r h2, D1_keep _ r h1]

/-! ### The result read at an index -/

theorem d1_rd (x : FVec Ideal S65536x784 .f32) (w : FVec Ideal S512x784 .f32) (b : FVec Ideal S512 .f32) :
    rd2 (a := 65536) (b := 512) (d1 x w b) = dense (rd2 (a := 65536) (b := 784) x) (rbinW (rd2 (a := 512) (b := 784) w)) (rd1 (a := 512) b) := by
  funext p q
  exact stDense_apply _ rfl rfl rfl rfl rfl rfl _ _ _ x w b p q

theorem d2_rd (x : FVec Ideal S65536x512 .f32) (w : FVec Ideal S32x512 .f32) (b : FVec Ideal S32 .f32) :
    rd2 (a := 65536) (b := 32) (d2 x w b) = dense (rd2 (a := 65536) (b := 512) x) (rbinW (rd2 (a := 32) (b := 512) w)) (rd1 (a := 32) b) := by
  funext p q
  exact stDense_apply _ rfl rfl rfl rfl rfl rfl _ _ _ x w b p q

theorem d3_rd (x : FVec Ideal S65536x32 .f32) (w : FVec Ideal S10x32 .f32) (b : FVec Ideal S10 .f32) :
    rd2 (a := 65536) (b := 10) (d3 x w b) = dense (rd2 (a := 65536) (b := 32) x) (rbinW (rd2 (a := 10) (b := 32) w)) (rd1 (a := 10) b) := by
  funext p q
  exact stDense_apply _ rfl rfl rfl rfl rfl rfl _ _ _ x w b p q

theorem bn1_rd (h : FVec Ideal S65536x512 .f32) (g be : FVec Ideal S512 .f32) :
    rd2 (a := 65536) (b := 512) (bn1 h g be) = rbn (rd2 (a := 65536) (b := 512) h) (rd1 (a := 512) g) (rd1 (a := 512) be) := by
  funext p q
  have hm : rd1 (a := 512) (mu1 h) q = rmean (fun p' => rd2 (a := 65536) (b := 512) h p' q) := stMean_apply _ _ _ h q
  have hv : rd1 (a := 512) (vr1 h) q = rvar (fun p' => rd2 (a := 65536) (b := 512) h p' q) := stVar_apply _ _ _ _ _ _ h q
  show stNorm _ _ _ _ h (mu1 h) (vr1 h) g be (ix2 p q) = _
  rw [stNorm_apply, hm, hv]
  rfl

theorem bn2_rd (h : FVec Ideal S65536x32 .f32) (g be : FVec Ideal S32 .f32) :
    rd2 (a := 65536) (b := 32) (bn2 h g be) = rbn (rd2 (a := 65536) (b := 32) h) (rd1 (a := 32) g) (rd1 (a := 32) be) := by
  funext p q
  have hm : rd1 (a := 32) (mu2 h) q = rmean (fun p' => rd2 (a := 65536) (b := 32) h p' q) := stMean_apply _ _ _ h q
  have hv : rd1 (a := 32) (vr2 h) q = rvar (fun p' => rd2 (a := 65536) (b := 32) h p' q) := stVar_apply _ _ _ _ _ _ h q
  show stNorm _ _ _ _ h (mu2 h) (vr2 h) g be (ix2 p q) = _
  rw [stNorm_apply, hm, hv]
  rfl

/-- The reference's result read at coordinates is the textbook network of its arguments read at coordinates. -/
theorem refOut_rd (a0 : FVec Ideal S65536x784 .f32) (a1 : FVec Ideal S512x784 .f32) (a2 a3 a4 : FVec Ideal S512 .f32)
    (a5 : FVec Ideal S32x512 .f32) (a6 a7 a8 : FVec Ideal S32 .f32) (a9 : FVec Ideal S10x32 .f32) (a10 : FVec Ideal S10 .f32) :
    rd2 (a := 65536) (b := 10) (refOut a0 a1 a2 a3 a4 a5 a6 a7 a8 a9 a10)
      = refNet (rd2 (a := 65536) (b := 784) a0) (rd2 (a := 512) (b := 784) a1) (rd1 (a := 512) a2) (rd1 (a := 512) a3) (rd1 (a := 512) a4) (rd2 (a := 32) (b := 512) a5)
          (rd1 (a := 32) a6) (rd1 (a := 32) a7) (rd1 (a := 32) a8) (rd2 (a := 10) (b := 32) a9) (rd1 (a := 10) a10) := by
  unfold refOut refNet
  rw [d3_rd, bn2_rd, d2_rd, bn1_rd, d1_rd]

/-! ### The run -/

/-- The textbook network of one core's argument arrays. -/
def net (m : (ℓ : Loc nD τ sig) → Buf (Elt Ideal) ℓ) (c : Dev nD) : Fin 65536 → Fin 10 → EReal :=
  refNet (rd2 (a := 65536) (b := 784) (m ((c.tc : Thread nD τ).loc main_arg0)))
    (rd2 (a := 512) (b := 784) (m ((c.tc : Thread nD τ).loc main_arg1)))
    (rd1 (a := 512) (m ((c.tc : Thread nD τ).loc main_arg2)))
    (rd1 (a := 512) (m ((c.tc : Thread nD τ).loc main_arg3)))
    (rd1 (a := 512) (m ((c.tc : Thread nD τ).loc main_arg4)))
    (rd2 (a := 32) (b := 512) (m ((c.tc : Thread nD τ).loc main_arg5)))
    (rd1 (a := 32) (m ((c.tc : Thread nD τ).loc main_arg6)))
    (rd1 (a := 32) (m ((c.tc : Thread nD τ).loc main_arg7)))
    (rd1 (a := 32) (m ((c.tc : Thread nD τ).loc main_arg8)))
    (rd2 (a := 10) (b := 32) (m ((c.tc : Thread nD τ).loc main_arg9)))
    (rd1 (a := 10) (m ((c.tc : Thread nD τ).loc main_arg10)))

/-- From any memory with zero counters every weakly fair execution of the reference's @main terminates; on every
    core the result buffer read at coordinates is the textbook network of that core's argument arrays, and the
    arguments are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      (∀ (p : Fin 65536) (j : Fin 10), rd2 (a := 65536) (b := 10) (r.2.mem ((c.tc : Thread nD τ).loc main_v69)) p j = net m c p j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (defs (F := Ideal)) _ _).mono (fun _ h c => ⟨fun p j => by
      rw [h c main_v69, out_eq, refOut_rd]
      rfl,
    (h c main_arg0).trans (arg_eq _ main_arg0 (by decide) (by decide) (by decide) (by decide) (by decide) (by decide) (by decide)),
    (h c main_arg1).trans (arg_eq _ main_arg1 (by decide) (by decide) (by decide) (by decide) (by decide) (by decide) (by decide)),
    (h c main_arg2).trans (arg_eq _ main_arg2 (by decide) (by decide) (by decide) (by decide) (by decide) (by decide) (by decide)),
    (h c main_arg3).trans (arg_eq _ main_arg3 (by decide) (by decide) (by decide) (by decide) (by decide) (by decide) (by decide)),
    (h c main_arg4).trans (arg_eq _ main_arg4 (by decide) (by decide) (by decide) (by decide) (by decide) (by decide) (by decide)),
    (h c main_arg5).trans (arg_eq _ main_arg5 (by decide) (by decide) (by decide) (by decide) (by decide) (by decide) (by decide)),
    (h c main_arg6).trans (arg_eq _ main_arg6 (by decide) (by decide) (by decide) (by decide) (by decide) (by decide) (by decide)),
    (h c main_arg7).trans (arg_eq _ main_arg7 (by decide) (by decide) (by decide) (by decide) (by decide) (by decide) (by decide)),
    (h c main_arg8).trans (arg_eq _ main_arg8 (by decide) (by decide) (by decide) (by decide) (by decide) (by decide) (by decide)),
    (h c main_arg9).trans (arg_eq _ main_arg9 (by decide) (by decide) (by decide) (by decide) (by decide) (by decide) (by decide)),
    (h c main_arg10).trans (arg_eq _ main_arg10 (by decide) (by decide) (by decide) (by decide) (by decide) (by decide) (by decide))⟩)
    (run_after m ρ)

end Cert.ReferenceIdeal.RefValue

end
-- ==== Proof.Assemble.lean ====
/-
  The five claims.

  The three frames are the generated frame runs (the reference's with its result's conjunct dropped). The
  idealization's two rewrites are two instances of the sign-bit rule. For the algebraic claim the common result
  is the streaming network of the kernel's argument arrays: the kernel's run ends with its result buffer at it
  (the stages read back), and the reference's run ends at the textbook network of its own arguments, which are
  the kernel's, and on finite inputs — every entry a real, from the precondition — the two networks are equal.
-/
import proofs.«119830_j18734647345306_2_alg».proof.Defs
import proofs.«119830_j18734647345306_2_alg».proof.Proof.Gen.Kernel
import proofs.«119830_j18734647345306_2_alg».proof.Proof.Gen.Kernel.Frame
import proofs.«119830_j18734647345306_2_alg».proof.Proof.Gen.KernelIdeal
import proofs.«119830_j18734647345306_2_alg».proof.Proof.Gen.KernelIdeal.Frame
import proofs.«119830_j18734647345306_2_alg».proof.Proof.Gen.ReferenceIdeal
import proofs.«119830_j18734647345306_2_alg».proof.Proof.Gen.Pre_finite_inputs
import proofs.«119830_j18734647345306_2_alg».proof.Proof.KRun
import proofs.«119830_j18734647345306_2_alg».proof.Proof.Finite
import proofs.«119830_j18734647345306_2_alg».proof.Proof.Algebra
import proofs.«119830_j18734647345306_2_alg».proof.Proof.AsmKernel
import proofs.«119830_j18734647345306_2_alg».proof.Proof.RefRun

noncomputable section

open Idealize.ShloMosaic Idealize.ShloMosaic.TcCoe Idealize.SL.Sem
open Idealize.ShloMosaic.ValueIdx

namespace Cert.Proof

open Cert.Spec

/-- The common result: the streaming network of the kernel's argument arrays, as the result buffer's contents. -/
def vOut (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v43) :=
  (fun i => Cert.KernelIdeal.Asm.net m c (i 0) (i 1) : (⟨2, ![65536, 10]⟩ : Shape).Idx → EReal)

/-- The kernel's result buffer ends at the common result. -/
theorem W6_out (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W6 m ρ c (Proc.devRef .tc Cert.KernelIdeal.main_v43) = vOut m c := by
  funext i
  rw [eq_ix2 i]
  exact Cert.KernelIdeal.Asm.kernel_value m ρ c (i 0) (i 1)

/-- On agreeing arguments, finite by the precondition, the reference's textbook network is the kernel's streaming one. -/
theorem ref_net_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧
      m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧
      m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧
      m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧
      m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧
      m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧
      m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧
      m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧
      m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧
      m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧
      m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.RefValue.net m' c = Cert.KernelIdeal.Asm.net m c := by
  obtain ⟨a0, a1, a2, a3, a4, a5, a6, a7, a8, a9, a10⟩ := hagree
  obtain ⟨r0, r1, r2, r3, r4, r5, r6, r7, r8, r9, r10⟩ := Cert.Proof.Finite.of_pre m hpre c
  unfold Cert.ReferenceIdeal.RefValue.net Cert.KernelIdeal.Asm.net
  rw [a0, a1, a2, a3, a4, a5, a6, a7, a8, a9, a10]
  exact (net_eq _ _ _ _ _ _ _ _ _ _ _ r0 r1 r2 r3 r4 r5 r6 r7 r8 r9 r10).symm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run m ρ)

/-- The ledger's two entries: the sign-bit rule at the two shapes. -/
theorem preserves : Cert.preserves_Kernel_KernelIdeal :=
  ⟨IdealRules.sign_bit.statement Cert.KernelIdeal.S2048x512 .f32, IdealRules.sign_bit.statement Cert.KernelIdeal.S2048x32 .f32⟩

theorem algebraic : Cert.algebraic_KernelIdeal_ReferenceIdeal := by
  intro m ρ m' ρ' hpre hagree
  refine ⟨fun c => vOut m c, ?_, ?_⟩
  · refine (θ_run Cert.KernelIdeal.defs _ _).mono (fun r h c => ?_) (Cert.KernelIdeal.Value.run_final (F := Ideal) m ρ)
    exact ⟨(h c _ (Cert.KernelIdeal.Gen.mem_uc Cert.KernelIdeal.main_v43 (by decide))).trans (W6_out m ρ c),
      (h c _ (Cert.KernelIdeal.Gen.mem_uc Cert.KernelIdeal.main_arg0 (by decide))).trans (Cert.KernelIdeal.Gen.W6_main_arg0 m ρ c),
      (h c _ (Cert.KernelIdeal.Gen.mem_uc Cert.KernelIdeal.main_arg1 (by decide))).trans (Cert.KernelIdeal.Gen.W6_main_arg1 m ρ c),
      (h c _ (Cert.KernelIdeal.Gen.mem_uc Cert.KernelIdeal.main_arg2 (by decide))).trans (Cert.KernelIdeal.Gen.W6_main_arg2 m ρ c),
      (h c _ (Cert.KernelIdeal.Gen.mem_uc Cert.KernelIdeal.main_arg3 (by decide))).trans (Cert.KernelIdeal.Gen.W6_main_arg3 m ρ c),
      (h c _ (Cert.KernelIdeal.Gen.mem_uc Cert.KernelIdeal.main_arg4 (by decide))).trans (Cert.KernelIdeal.Gen.W6_main_arg4 m ρ c),
      (h c _ (Cert.KernelIdeal.Gen.mem_uc Cert.KernelIdeal.main_arg5 (by decide))).trans (Cert.KernelIdeal.Gen.W6_main_arg5 m ρ c),
      (h c _ (Cert.KernelIdeal.Gen.mem_uc Cert.KernelIdeal.main_arg6 (by decide))).trans (Cert.KernelIdeal.Gen.W6_main_arg6 m ρ c),
      (h c _ (Cert.KernelIdeal.Gen.mem_uc Cert.KernelIdeal.main_arg7 (by decide))).trans (Cert.KernelIdeal.Gen.W6_main_arg7 m ρ c),
      (h c _ (Cert.KernelIdeal.Gen.mem_uc Cert.KernelIdeal.main_arg8 (by decide))).trans (Cert.KernelIdeal.Gen.W6_main_arg8 m ρ c),
      (h c _ (Cert.KernelIdeal.Gen.mem_uc Cert.KernelIdeal.main_arg9 (by decide))).trans (Cert.KernelIdeal.Gen.W6_main_arg9 m ρ c),
      (h c _ (Cert.KernelIdeal.Gen.mem_uc Cert.KernelIdeal.main_arg10 (by decide))).trans (Cert.KernelIdeal.Gen.W6_main_arg10 m ρ c)⟩
  · refine (θ_run Cert.ReferenceIdeal.defs _ _).mono (fun r h c => ⟨?_, (h c).2⟩) (Cert.ReferenceIdeal.RefValue.run m' ρ')
    funext i
    rw [eq_ix2 i]
    exact ((h c).1 (i 0) (i 1)).trans (congrFun (congrFun (ref_net_eq m m' hpre c (hagree c)) (i 0)) (i 1))

end Cert.Proof

end
-- ==== Proof.lean ====
/- The proof of `Cert.Claim`: a three-stage binarised network (dense layer, batch normalisation over the whole batch,
   sign, three times) computed by streaming sums and sums of squares equals, on finite inputs and over the extended
   reals, the textbook computation by centred variances: Σ (h − μ)² = Σ h² − N μ², and the sign does not see the clip.
   The frames are the generated runs; the two rewrites of the idealization are instances of the sign-bit rule. -/
import proofs.«119830_j18734647345306_2_alg».proof.Defs
import proofs.«119830_j18734647345306_2_alg».proof.Proof.Gen.Kernel
import proofs.«119830_j18734647345306_2_alg».proof.Proof.Gen.Kernel.Skeleton
import proofs.«119830_j18734647345306_2_alg».proof.Proof.Gen.Kernel.Launch
import proofs.«119830_j18734647345306_2_alg».proof.Proof.Gen.Kernel.Points
import proofs.«119830_j18734647345306_2_alg».proof.Proof.Gen.Kernel.Frame
import proofs.«119830_j18734647345306_2_alg».proof.Proof.Gen.KernelIdeal
import proofs.«119830_j18734647345306_2_alg».proof.Proof.Gen.KernelIdeal.Skeleton
import proofs.«119830_j18734647345306_2_alg».proof.Proof.Gen.KernelIdeal.Launch
import proofs.«119830_j18734647345306_2_alg».proof.Proof.Gen.KernelIdeal.Points
import proofs.«119830_j18734647345306_2_alg».proof.Proof.Gen.KernelIdeal.Frame
import proofs.«119830_j18734647345306_2_alg».proof.Proof.Gen.ReferenceIdeal
import proofs.«119830_j18734647345306_2_alg».proof.Proof.Gen.Pre_finite_inputs
import proofs.«119830_j18734647345306_2_alg».proof.Proof.Assemble
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts, frame_k, frame_ki, frame_ri, preserves, algebraic⟩

end Cert.Proof

end
